-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 136
  | .vmem => 20
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S50000x256, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000x256, .f32⟩
  | 48 => ⟨S50000x1, .f32⟩
  | 49 => ⟨S_, .f32⟩
  | 50 => ⟨S50000x256, .f32⟩
  | 51 => ⟨S850000x1, .i32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S50000x1, .f32⟩
  | 62 => ⟨S50000x256, .f32⟩
  | 63 => ⟨S50000x256, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x256, .f32⟩
  | 74 => ⟨S50000x1, .f32⟩
  | 75 => ⟨S_, .f32⟩
  | 76 => ⟨S50000x256, .f32⟩
  | 77 => ⟨S850000x1, .i32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S50000x1, .f32⟩
  | 88 => ⟨S50000x256, .f32⟩
  | 89 => ⟨S50000x256, .f32⟩
  | 90 => ⟨S50000x256, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x256, .f32⟩
  | 100 => ⟨S50000x1, .f32⟩
  | 101 => ⟨S_, .f32⟩
  | 102 => ⟨S50000x256, .f32⟩
  | 103 => ⟨S850000x1, .i32⟩
  | 104 => ⟨S50000x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S50000x256, .f32⟩
  | 112 => ⟨S50000x256, .f32⟩
  | 113 => ⟨S50000x1, .f32⟩
  | 114 => ⟨S50000x256, .f32⟩
  | 115 => ⟨S50000x256, .f32⟩
  | 116 => ⟨S50000x128, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S50000x1, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_c_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call3_cst : Ref sig .tc := ⟨.hbm, 110, rfl⟩
abbrev main_call3_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_12 : Ref sig .tc := ⟨.hbm, 117, rfl⟩
abbrev main_v84 : Ref sig .tc := ⟨.hbm, 118, rfl⟩
abbrev main_v85 : Ref sig .tc := ⟨.hbm, 119, rfl⟩
abbrev main_c_13 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_14 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x256, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x256, .f32⟩
  | 87 => ⟨S850000x1, .f32⟩
  | 88 => ⟨S850000x256, .f32⟩
  | 89 => ⟨S850000x256, .f32⟩
  | 90 => ⟨S_, .f32⟩
  | 91 => ⟨S50000x256, .f32⟩
  | 92 => ⟨S850000x1, .i32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x256, .f32⟩
  | 110 => ⟨S850000x1, .f32⟩
  | 111 => ⟨S850000x256, .f32⟩
  | 112 => ⟨S850000x256, .f32⟩
  | 113 => ⟨S_, .f32⟩
  | 114 => ⟨S50000x256, .f32⟩
  | 115 => ⟨S850000x1, .i32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S50000x128, .f32⟩
  | 124 => ⟨S_, .i32⟩
  | 125 => ⟨S850000, .i32⟩
  | 126 => ⟨S850000, .i1⟩
  | 127 => ⟨S_, .i32⟩
  | _ => ⟨S50000x128, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x1, .f32⟩
  | 6 => ⟨S850000x128, .f32⟩
  | 7 => ⟨S850000x128, .f32⟩
  | 8 => ⟨S_, .f32⟩
  | 9 => ⟨S50000x128, .f32⟩
  | 10 => ⟨S850000x1, .i32⟩
  | 11 => ⟨S50000x128, .f32⟩
  | 12 => ⟨S1x128, .f32⟩
  | 13 => ⟨S50000x128, .f32⟩
  | 14 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The kernel program's run with its result named.

  From any memory with zero counters every weakly fair execution of the program on the TensorCores terminates, nothing
  faulting; in the final state the argument arrays are as launched and the result array holds what the last stretch
  of host operations leaves there, read through the fold of the program's segments from the launch memory: a host
  stretch rewrites the buffers its operations write, a device region rewrites its output array block by block and
  leaves every other buffer as it found it.  The run itself is the program's frame run; this statement only keeps the
  result buffer's final contents, which the frame claim forgets.
-/
import proofs.«159954_j74448963108867_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the fold's last contents and the arguments as
    launched. -/
theorem run_result : θ_run defs (onTc (τ := τ) (main (F := F))) ⟨m, fun _ => 0, ρ⟩ (fun r => ∀ c : Dev nD,
      r.2.mem ((c.tc : Thread nD τ).loc main_v99) = W17 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v99 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c)⟩)

end Cert.KernelIdeal.Hand

end
-- ==== Proof.GcnOps.lean ====
/-
  The matrix product as one function of its two operands, over the extended reals: entry (r, q) of X·W is the sum
  over k of X(r, k) · W(k, q).  The extents are parameters; an index of the result is split into its two
  coordinates.
-/
import Idealize.ShloMosaic.Lib.ValueIdx

noncomputable section
namespace Gcn
open Idealize.ShloMosaic Idealize.ShloMosaic.ValueIdx

/-- The product of an M-by-K array and a K-by-N array, index by index. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (⟨(i 0).val, (i 0).isLt⟩ : Fin M) k) * W (ix2 k (⟨(i 1).val, (i 1).isLt⟩ : Fin N))

/-- At row r and column q the product is the sum over k of X(r, k) · W(k, q). -/
theorem mm_apply {M K N : ℕ} (X : (⟨2, ![M, K]⟩ : Shape).Idx → EReal) (W : (⟨2, ![K, N]⟩ : Shape).Idx → EReal)
    (r : Fin M) (q : Fin N) : mm X W (ix2 r q) = ∑ k : Fin K, X (ix2 r k) * W (ix2 k q) := rfl

end Gcn
end
-- ==== Proof.Stages.lean ====
/-
  The two programs as compositions of named stages, each stage one whole-array function of its operands.

  Both programs first build the edge list: the sources and the targets are the two rows of the edge table, each
  followed by the self loops 0, 1, …, N − 1.  The degree of a node counts the edges that point at it (a sum of
  ones), and the node's weight `dis` is the reciprocal square root of the degree where the degree is positive and
  zero elsewhere.  An edge's source is read with numpy's wrap (a negative index counts from the end) and then
  clamped into the table by the gather; a target selects the row that receives the edge's message, and a target
  outside the table receives nothing.

  A layer of the kernel program scales the rows of its input by `dis` (`kScale`), multiplies by the weights (the
  product `Gcn.mm`, computed block by block on the device), gathers the source rows, adds them up per target,
  scales the sums by `dis` and adds the bias (`kAgg`).  A layer of the reference multiplies by the weights (`dot`),
  gathers the source rows, scales every message by the edge's norm `dis(source) · dis(target)`, adds them up per
  target and adds the bias (`rAgg`).  Between layers both apply `max(·, 0)`.
-/
import proofs.«159954_j74448963108867_2_alg».proof.KernelIdeal
import proofs.«159954_j74448963108867_2_alg».proof.ReferenceIdeal
import proofs.«159954_j74448963108867_2_alg».proof.Proof.GcnOps

noncomputable section
namespace Cert.Stage
open Idealize.ShloMosaic
open Cert.KernelIdeal Cert.KernelIdeal.Facts₀ Cert.KernelIdeal.Facts

variable [hK : Cert.KernelIdeal.Facts] [hR : Cert.ReferenceIdeal.Facts]

/-! ## The edge list -/

/-- Row `r` of the edge table followed by the self loops. -/
def endsOf0 (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0
def endsOf1 (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- The edges' sources and targets. -/
abbrev srcOf (x1 : IVec S2x800000 32) : IVec S850000 32 := endsOf0 x1
abbrev dstOf (x1 : IVec S2x800000 32) : IVec S850000 32 := endsOf1 x1

/-- numpy's wrap of a signed index: a negative index counts from the end of a table of 50000 rows. -/
def wrapOf (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A list of E indices as an E-by-1 index table. -/
def tabOf (v : IVec S850000 32) : IVec S850000x1 32 := broadcastInDim S850000x1 ![0] bcast_S850000_S850000x1_0 v

def srcTab (x1 : IVec S2x800000 32) : IVec S850000x1 32 := tabOf (wrapOf (srcOf x1))
def dstTabW (x1 : IVec S2x800000 32) : IVec S850000x1 32 := tabOf (wrapOf (dstOf x1))
def dstTab (x1 : IVec S2x800000 32) : IVec S850000x1 32 := tabOf (dstOf x1)

/-! ## The degree and the node weights -/

/-- The degree of every node: ones added up per target. -/
def degOf (x1 : IVec S2x800000 32) : FVec Ideal S50000 .f32 :=
  Host.scatterAdd scatter_S50000_S850000x1_S850000_n_0_0_1
    (broadcastInDim S50000 ![] bcast_S_S50000 (constant S_ .f32 0x00000000#32)) (dstTab x1)
    (broadcastInDim S850000 ![] bcast_S_S850000 (constant S_ .f32 0x3F800000#32))

/-- The node weights: rsqrt of the degree where it is positive, zero elsewhere. -/
def disOf (x1 : IVec S2x800000 32) : FVec Ideal S50000 .f32 :=
  select (cmpf .ogt (degOf x1) (broadcastInDim S50000 ![] bcast_S_S50000 (constant S_ .f32 0x00000000#32)))
    (Host.rsqrt (maximumf (degOf x1) (broadcastInDim S50000 ![] bcast_S_S50000 (constant S_ .f32 0x2B8CBCCC#32))))
    (broadcastInDim S50000 ![] bcast_S_S50000 (constant S_ .f32 0x00000000#32))

/-! ## Layout -/

/-- A per-node value as a column, repeated across the features. -/
def colOf128 (d : FVec Ideal S50000 .f32) : FVec Ideal S50000x128 .f32 :=
  broadcastInDim S50000x128 ![0, 1] bcast_S50000x1_S50000x128_0_1 (broadcastInDim S50000x1 ![0] bcast_S50000_S50000x1_0 d)
def colOf256 (d : FVec Ideal S50000 .f32) : FVec Ideal S50000x256 .f32 :=
  broadcastInDim S50000x256 ![0, 1] bcast_S50000x1_S50000x256_0_1 (broadcastInDim S50000x1 ![0] bcast_S50000_S50000x1_0 d)
/-- A per-feature value as a row, repeated down the nodes. -/
def rowOf128 (b : FVec Ideal S128 .f32) : FVec Ideal S50000x128 .f32 :=
  broadcastInDim S50000x128 ![0, 1] bcast_S1x128_S50000x128_0_1 (broadcastInDim S1x128 ![1] bcast_S128_S1x128_1 b)
def rowOf256 (b : FVec Ideal S256 .f32) : FVec Ideal S50000x256 .f32 :=
  broadcastInDim S50000x256 ![0, 1] bcast_S1x256_S50000x256_0_1 (broadcastInDim S1x256 ![1] bcast_S256_S1x256_1 b)
/-- A per-edge value as a column, repeated across the features. -/
def ecolOf128 (v : FVec Ideal S850000 .f32) : FVec Ideal S850000x128 .f32 :=
  broadcastInDim S850000x128 ![0, 1] Cert.ReferenceIdeal.Facts₀.bcast_S850000x1_S850000x128_0_1 (broadcastInDim S850000x1 ![0] bcast_S850000_S850000x1_0 v)
def ecolOf256 (v : FVec Ideal S850000 .f32) : FVec Ideal S850000x256 .f32 :=
  broadcastInDim S850000x256 ![0, 1] Cert.ReferenceIdeal.Facts₀.bcast_S850000x1_S850000x256_0_1 (broadcastInDim S850000x1 ![0] bcast_S850000_S850000x1_0 v)

def zeros128 : FVec Ideal S50000x128 .f32 := broadcastInDim S50000x128 ![] bcast_S_S50000x128 (constant S_ .f32 0x00000000#32)
def zeros256 : FVec Ideal S50000x256 .f32 := broadcastInDim S50000x256 ![] bcast_S_S50000x256 (constant S_ .f32 0x00000000#32)

/-- `max(·, 0)` between two layers. -/
def relu256 (o : FVec Ideal S50000x256 .f32) : FVec Ideal S50000x256 .f32 := maximumf o zeros256

/-! ## A layer of the kernel program -/

def kScale128 (x : FVec Ideal S50000x128 .f32) (x1 : IVec S2x800000 32) : FVec Ideal S50000x128 .f32 := mulf x (colOf128 (disOf x1))
def kScale256 (x : FVec Ideal S50000x256 .f32) (x1 : IVec S2x800000 32) : FVec Ideal S50000x256 .f32 := mulf x (colOf256 (disOf x1))

def kAgg256 (h : FVec Ideal S50000x256 .f32) (x1 : IVec S2x800000 32) (b : FVec Ideal S256 .f32) : FVec Ideal S50000x256 .f32 :=
  addf (mulf (colOf256 (disOf x1))
      (Host.scatterAdd scatter_S50000x256_S850000x1_S850000x256_1_0_0_1 zeros256 (dstTab x1)
        (Host.gather gather_S50000x256_S850000x1_S850000x256_1_0_n_n_0_1_1256 h (srcTab x1))))
    (rowOf256 b)
def kAgg128 (h : FVec Ideal S50000x128 .f32) (x1 : IVec S2x800000 32) (b : FVec Ideal S128 .f32) : FVec Ideal S50000x128 .f32 :=
  addf (mulf (colOf128 (disOf x1))
      (Host.scatterAdd scatter_S50000x128_S850000x1_S850000x128_1_0_0_1 zeros128 (dstTab x1)
        (Host.gather gather_S50000x128_S850000x1_S850000x128_1_0_n_n_0_1_1128 h (srcTab x1))))
    (rowOf128 b)

/-! ## A layer of the reference -/

/-- The edges' norms: `dis` at the source times `dis` at the target. -/
def normOf (x1 : IVec S2x800000 32) : FVec Ideal S850000 .f32 :=
  mulf (Host.gather Cert.ReferenceIdeal.gather_S50000_S850000x1_S850000_n_0_n_n_0_1_1 (disOf x1) (srcTab x1))
    (Host.gather Cert.ReferenceIdeal.gather_S50000_S850000x1_S850000_n_0_n_n_0_1_1 (disOf x1) (dstTabW x1))

def dot0 (x : FVec Ideal S50000x128 .f32) (w : FVec Ideal S128x256 .f32) : FVec Ideal S50000x256 .f32 :=
  Host.dotGeneral Cert.ReferenceIdeal.dot_S50000x128_S128x256_S50000x256_1_0_0_1_n_n none x w
def dot1 (x : FVec Ideal S50000x256 .f32) (w : FVec Ideal S256x256 .f32) : FVec Ideal S50000x256 .f32 :=
  Host.dotGeneral Cert.ReferenceIdeal.dot_S50000x256_S256x256_S50000x256_1_0_0_1_n_n none x w
def dot3 (x : FVec Ideal S50000x256 .f32) (w : FVec Ideal S256x128 .f32) : FVec Ideal S50000x128 .f32 :=
  Host.dotGeneral Cert.ReferenceIdeal.dot_S50000x256_S256x128_S50000x128_1_0_0_1_n_n none x w

def rAgg256 (h : FVec Ideal S50000x256 .f32) (x1 : IVec S2x800000 32) (b : FVec Ideal S256 .f32) : FVec Ideal S50000x256 .f32 :=
  addf (Host.scatterAdd scatter_S50000x256_S850000x1_S850000x256_1_0_0_1 zeros256 (dstTab x1)
      (mulf (Host.gather gather_S50000x256_S850000x1_S850000x256_1_0_n_n_0_1_1256 h (srcTab x1)) (ecolOf256 (normOf x1))))
    (rowOf256 b)
def rAgg128 (h : FVec Ideal S50000x128 .f32) (x1 : IVec S2x800000 32) (b : FVec Ideal S128 .f32) : FVec Ideal S50000x128 .f32 :=
  addf (Host.scatterAdd scatter_S50000x128_S850000x1_S850000x128_1_0_0_1 zeros128 (dstTab x1)
      (mulf (Host.gather gather_S50000x128_S850000x1_S850000x128_1_0_n_n_0_1_1128 h (srcTab x1)) (ecolOf128 (normOf x1))))
    (rowOf128 b)

/-! ## The two programs -/

/-- The kernel program's result as a function of its arguments. -/
def kOut (x0 : FVec Ideal S50000x128 .f32) (x1 : IVec S2x800000 32) (x3 : FVec Ideal S128x256 .f32) (x4 : FVec Ideal S256 .f32)
    (x5 : FVec Ideal S256x256 .f32) (x6 : FVec Ideal S256 .f32) (x7 : FVec Ideal S256x256 .f32) (x8 : FVec Ideal S256 .f32)
    (x9 : FVec Ideal S256x128 .f32) (x10 : FVec Ideal S128 .f32) : FVec Ideal S50000x128 .f32 :=
  kAgg128 (Gcn.mm (kScale256 (relu256 (kAgg256 (Gcn.mm (kScale256 (relu256 (kAgg256 (Gcn.mm (kScale256 (relu256
    (kAgg256 (Gcn.mm (kScale128 x0 x1) x3) x1 x4)) x1) x5) x1 x6)) x1) x7) x1 x8)) x1) x9) x1 x10

/-- The reference's result as a function of its arguments. -/
def rOut (x0 : FVec Ideal S50000x128 .f32) (x1 : IVec S2x800000 32) (x3 : FVec Ideal S128x256 .f32) (x4 : FVec Ideal S256 .f32)
    (x5 : FVec Ideal S256x256 .f32) (x6 : FVec Ideal S256 .f32) (x7 : FVec Ideal S256x256 .f32) (x8 : FVec Ideal S256 .f32)
    (x9 : FVec Ideal S256x128 .f32) (x10 : FVec Ideal S128 .f32) : FVec Ideal S50000x128 .f32 :=
  rAgg128 (dot3 (relu256 (rAgg256 (dot1 (relu256 (rAgg256 (dot1 (relu256 (rAgg256 (dot0 x0 x3) x1 x4)) x5) x1 x6)) x7) x1 x8)) x9) x1 x10

end Cert.Stage
end
-- ==== Proof.StagesK.lean ====
/-
  The kernel program's stages over explicit operands.

  The aggregation of a layer and the node weights are restated here as functions of the arrays they read — the
  weights, the edges' sources and targets — instead of the edge table they are computed from, so that a stretch of
  host operations can be read over the buffers it finds, whatever they hold.
-/
import proofs.«159954_j74448963108867_2_alg».proof.Proof.Stages

noncomputable section
namespace Cert.Stage
open Idealize.ShloMosaic
open Cert.KernelIdeal Cert.KernelIdeal.Facts₀ Cert.KernelIdeal.Facts

variable [hK : Cert.KernelIdeal.Facts] [hR : Cert.ReferenceIdeal.Facts]

/-- The degree of every node from the edges' targets. -/
def degOf' (dst : IVec S850000 32) : FVec Ideal S50000 .f32 :=
  Host.scatterAdd scatter_S50000_S850000x1_S850000_n_0_0_1
    (broadcastInDim S50000 ![] bcast_S_S50000 (constant S_ .f32 0x00000000#32)) (tabOf dst)
    (broadcastInDim S850000 ![] bcast_S_S850000 (constant S_ .f32 0x3F800000#32))

/-- The node weights from the edges' targets. -/
def disOf' (dst : IVec S850000 32) : FVec Ideal S50000 .f32 :=
  select (cmpf .ogt (degOf' dst) (broadcastInDim S50000 ![] bcast_S_S50000 (constant S_ .f32 0x00000000#32)))
    (Host.rsqrt (maximumf (degOf' dst) (broadcastInDim S50000 ![] bcast_S_S50000 (constant S_ .f32 0x2B8CBCCC#32))))
    (broadcastInDim S50000 ![] bcast_S_S50000 (constant S_ .f32 0x00000000#32))

/-- The aggregation of a layer over explicit weights and edge ends: gather the source rows, add them up per target,
    scale by the weights, add the bias. -/
def kAgg256' (d : FVec Ideal S50000 .f32) (src dst : IVec S850000 32) (h : FVec Ideal S50000x256 .f32)
    (b : FVec Ideal S256 .f32) : FVec Ideal S50000x256 .f32 :=
  addf (mulf (colOf256 d)
      (Host.scatterAdd scatter_S50000x256_S850000x1_S850000x256_1_0_0_1 zeros256 (tabOf dst)
        (Host.gather gather_S50000x256_S850000x1_S850000x256_1_0_n_n_0_1_1256 h (tabOf (wrapOf src)))))
    (rowOf256 b)
def kAgg128' (d : FVec Ideal S50000 .f32) (src dst : IVec S850000 32) (h : FVec Ideal S50000x128 .f32)
    (b : FVec Ideal S128 .f32) : FVec Ideal S50000x128 .f32 :=
  addf (mulf (colOf128 d)
      (Host.scatterAdd scatter_S50000x128_S850000x1_S850000x128_1_0_0_1 zeros128 (tabOf dst)
        (Host.gather gather_S50000x128_S850000x1_S850000x128_1_0_n_n_0_1_1128 h (tabOf (wrapOf src)))))
    (rowOf128 b)

theorem kAgg256_eq (h : FVec Ideal S50000x256 .f32) (x1 : IVec S2x800000 32) (b : FVec Ideal S256 .f32) :
    kAgg256 h x1 b = kAgg256' (disOf x1) (srcOf x1) (dstOf x1) h b := rfl
theorem kAgg128_eq (h : FVec Ideal S50000x128 .f32) (x1 : IVec S2x800000 32) (b : FVec Ideal S128 .f32) :
    kAgg128 h x1 b = kAgg128' (disOf x1) (srcOf x1) (dstOf x1) h b := rfl

end Cert.Stage
end
-- ==== Proof.KWrites.lean ====
/-
  What the host operations between the kernel launches write.

  Each stretch of host operations is a list; every operation writes exactly one reference.  For each list the
  references written are listed in order, every operation is shown to write a member of that list, and a reference
  outside the list therefore holds after the stretch what it held before it.  Whether a given reference is outside
  a list is a comparison of names, settled by evaluation.
-/
import proofs.«159954_j74448963108867_2_alg».proof.Proof.Gen.KernelIdeal.Launch
import Idealize.ShloMosaic.Lib.StableHlo.Run

noncomputable section
namespace Cert.KernelIdeal.Hand
open Cert.KernelIdeal Cert.KernelIdeal.Gen Idealize.ShloMosaic Idealize.ShloMosaic.TcCoe

variable {F : FTy → Type} [FloatOps F]

/-- The references the operations of `hostOps0` write, in order. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
/-- Every operation of the list writes one reference of that list. -/
theorem hostOps0_writes : (hostOps0 : List (HloOp τ sig (Elt F))).Forall fun op => op.writes ⊆ (hostOps0_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The references the operations of `hostOps0_1` write, in order. -/
abbrev hostOps0_1_W : List (Ref sig .tc) := [main_call0_v0, main_call0_v1, main_v16]
/-- Every operation of the list writes one reference of that list. -/
theorem hostOps0_1_writes : (hostOps0_1 : List (HloOp τ sig (Elt F))).Forall fun op => op.writes ⊆ (hostOps0_1_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps0_1_keep (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The references the operations of `hostOps0_2` write, in order. -/
abbrev hostOps0_2_W : List (Ref sig .tc) := [main_v17, main_v18, main_v19]
/-- Every operation of the list writes one reference of that list. -/
theorem hostOps0_2_writes : (hostOps0_2 : List (HloOp τ sig (Elt F))).Forall fun op => op.writes ⊆ (hostOps0_2_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps0_2_keep (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The references the operations of `hostOps1` write, in order. -/
abbrev hostOps1_W : List (Ref sig .tc) := [main_c, main_v21, main_v22, main_c_4, main_v23, main_v24, main_v25, main_v26, main_v27, main_v28, main_cst_5, main_v29, main_v30, main_v31, main_v32, main_v33, main_v34, main_v35, main_v36]
/-- Every operation of the list writes one reference of that list. -/
theorem hostOps1_writes : (hostOps1 : List (HloOp τ sig (Elt F))).Forall fun op => op.writes ⊆ (hostOps1_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps1_keep (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The references the operations of `hostOps1_1` write, in order. -/
abbrev hostOps1_1_W : List (Ref sig .tc) := [main_call1_cst, main_call1_v0, main_v37]
/-- Every operation of the list writes one reference of that list. -/
theorem hostOps1_1_writes : (hostOps1_1 : List (HloOp τ sig (Elt F))).Forall fun op => op.writes ⊆ (hostOps1_1_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps1_1_keep (V : Valuation τ sig (Elt F)) (r : Ref sig .tc) (h : r ∉ hostOps1_1_W) :
    StableHlo.after hostOps1_1 V (Proc.devRef .tc r) = V (Proc.devRef .tc r) :=
  StableHlo.after_of_writes_sub hostOps1_1 V hostOps1_1_writes h

/-- The references the operations of `hostOps1_2` write, in order. -/
abbrev hostOps1_2_W : List (Ref sig .tc) := [main_v38, main_v39, main_v40]
/-- Every operation of the list writes one reference of that list. -/
theorem hostOps1_2_writes : (hostOps1_2 : List (HloOp τ sig (Elt F))).Forall fun op => op.writes ⊆ (hostOps1_2_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps1_2_keep (V : Valuation τ sig (Elt F)) (r : Ref sig .tc) (h : r ∉ hostOps1_2_W) :
    StableHlo.after hostOps1_2 V (Proc.devRef .tc r) = V (Proc.devRef .tc r) :=
  StableHlo.after_of_writes_sub hostOps1_2 V hostOps1_2_writes h

/-- The references the operations of `hostOps2` write, in order. -/
abbrev hostOps2_W : List (Ref sig .tc) := [main_c_6, main_v42, main_v43, main_c_7, main_v44, main_v45, main_v46, main_v47, main_v48, main_v49, main_cst_8, main_v50, main_v51, main_v52, main_v53, main_v54, main_v55, main_v56, main_v57]
/-- Every operation of the list writes one reference of that list. -/
theorem hostOps2_writes : (hostOps2 : List (HloOp τ sig (Elt F))).Forall fun op => op.writes ⊆ (hostOps2_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps2_keep (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- The references the operations of `hostOps2_1` write, in order. -/
abbrev hostOps2_1_W : List (Ref sig .tc) := [main_call2_cst, main_call2_v0, main_v58]
/-- Every operation of the list writes one reference of that list. -/
theorem hostOps2_1_writes : (hostOps2_1 : List (HloOp τ sig (Elt F))).Forall fun op => op.writes ⊆ (hostOps2_1_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps2_1_keep (V : Valuation τ sig (Elt F)) (r : Ref sig .tc) (h : r ∉ hostOps2_1_W) :
    StableHlo.after hostOps2_1 V (Proc.devRef .tc r) = V (Proc.devRef .tc r) :=
  StableHlo.after_of_writes_sub hostOps2_1 V hostOps2_1_writes h

/-- The references the operations of `hostOps2_2` write, in order. -/
abbrev hostOps2_2_W : List (Ref sig .tc) := [main_v59, main_v60, main_v61]
/-- Every operation of the list writes one reference of that list. -/
theorem hostOps2_2_writes : (hostOps2_2 : List (HloOp τ sig (Elt F))).Forall fun op => op.writes ⊆ (hostOps2_2_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps2_2_keep (V : Valuation τ sig (Elt F)) (r : Ref sig .tc) (h : r ∉ hostOps2_2_W) :
    StableHlo.after hostOps2_2 V (Proc.devRef .tc r) = V (Proc.devRef .tc r) :=
  StableHlo.after_of_writes_sub hostOps2_2 V hostOps2_2_writes h

/-- The references the operations of `hostOps3` write, in order. -/
abbrev hostOps3_W : List (Ref sig .tc) := [main_c_9, main_v63, main_v64, main_c_10, main_v65, main_v66, main_v67, main_v68, main_v69, main_v70, main_cst_11, main_v71, main_v72, main_v73, main_v74, main_v75, main_v76, main_v77, main_v78]
/-- Every operation of the list writes one reference of that list. -/
theorem hostOps3_writes : (hostOps3 : List (HloOp τ sig (Elt F))).Forall fun op => op.writes ⊆ (hostOps3_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps3_keep (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- The references the operations of `hostOps3_1` write, in order. -/
abbrev hostOps3_1_W : List (Ref sig .tc) := [main_call3_cst, main_call3_v0, main_v79]
/-- Every operation of the list writes one reference of that list. -/
theorem hostOps3_1_writes : (hostOps3_1 : List (HloOp τ sig (Elt F))).Forall fun op => op.writes ⊆ (hostOps3_1_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps3_1_keep (V : Valuation τ sig (Elt F)) (r : Ref sig .tc) (h : r ∉ hostOps3_1_W) :
    StableHlo.after hostOps3_1 V (Proc.devRef .tc r) = V (Proc.devRef .tc r) :=
  StableHlo.after_of_writes_sub hostOps3_1 V hostOps3_1_writes h

/-- The references the operations of `hostOps3_2` write, in order. -/
abbrev hostOps3_2_W : List (Ref sig .tc) := [main_v80, main_v81, main_v82]
/-- Every operation of the list writes one reference of that list. -/
theorem hostOps3_2_writes : (hostOps3_2 : List (HloOp τ sig (Elt F))).Forall fun op => op.writes ⊆ (hostOps3_2_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps3_2_keep (V : Valuation τ sig (Elt F)) (r : Ref sig .tc) (h : r ∉ hostOps3_2_W) :
    StableHlo.after hostOps3_2 V (Proc.devRef .tc r) = V (Proc.devRef .tc r) :=
  StableHlo.after_of_writes_sub hostOps3_2 V hostOps3_2_writes h

/-- The references the operations of `hostOps4` write, in order. -/
abbrev hostOps4_W : List (Ref sig .tc) := [main_c_12, main_v84, main_v85, main_c_13, main_v86, main_v87, main_v88, main_v89, main_v90, main_v91, main_cst_14, main_v92, main_v93, main_v94, main_v95, main_v96, main_v97, main_v98, main_v99]
/-- Every operation of the list writes one reference of that list. -/
theorem hostOps4_writes : (hostOps4 : List (HloOp τ sig (Elt F))).Forall fun op => op.writes ⊆ (hostOps4_W.map (Proc.devRef (τ := τ) .tc)).toFinset := by
  simp only [List.Forall, StableHlo.TRef.nullary, StableHlo.TRef.unary, StableHlo.TRef.binary, StableHlo.TRef.ternary, StableHlo.TRef.of, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference outside that list holds after the operations what it held before them. -/
theorem hostOps4_keep (V : Valuation τ sig (Elt F)) (r : Ref sig .tc) (h : r ∉ hostOps4_W) :
    StableHlo.after hostOps4 V (Proc.devRef .tc r) = V (Proc.devRef .tc r) :=
  StableHlo.after_of_writes_sub hostOps4 V hostOps4_writes h

end Cert.KernelIdeal.Hand
end
-- ==== Proof.KAgree.lean ====
/-
  The kernel program's result as a function of its arguments.

  The program's buffers are followed from the launch memory through its seventeen segments.  Before the first device
  region the host builds the edge list and the node weights and scales the input's rows; each device region writes
  the product of its two operand arrays into its output array and leaves every other buffer as it found it; the host
  stretch after it aggregates the product over the edges, adds the bias, and — between layers — applies max(·, 0)
  and scales the rows again.  The edge ends, the node weights and the arguments are written once, before the first
  region, and read by every later stretch: no later operation writes them, so they keep their contents through
  every segment.
-/
import proofs.«159954_j74448963108867_2_alg».proof.Proof.Gen.KernelIdeal.Frame
import proofs.«159954_j74448963108867_2_alg».proof.Proof.Gen.ReferenceIdeal
import proofs.«159954_j74448963108867_2_alg».proof.Proof.StagesK
import proofs.«159954_j74448963108867_2_alg».proof.Proof.KWrites

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

variable (m : (ℓ : Loc nD τ sig) → Buf (Elt Ideal) ℓ) (ρ : Dev nD → PrngReg) (c : Dev nD)

/-! ## What every later stretch reads and no later operation writes -/

/-- The edge ends, the node weights and the weight and bias arguments. -/
abbrev keepRefs : List (Ref sig .tc) :=
  [main_v3, main_v6, main_v16, main_arg3, main_arg4, main_arg5, main_arg6, main_arg7, main_arg8, main_arg9, main_arg10]

/-- Two contents agree on those buffers. -/
def Agree (V V' : Valuation τ sig (Elt Ideal)) : Prop :=
  ∀ r ∈ keepRefs, V (Proc.devRef .tc r) = V' (Proc.devRef .tc r)

theorem Agree.trans {V V' V'' : Valuation τ sig (Elt Ideal)} (h : Agree V V') (h' : Agree V' V'') : Agree V V'' :=
  fun r hr => (h r hr).trans (h' r hr)

/-- A stretch that writes none of them leaves them as they were. -/
theorem agree_after (L : List (HloOp τ sig (Elt Ideal))) (LW : List (Ref sig .tc))
    (hw : L.Forall fun op => op.writes ⊆ (LW.map (Proc.devRef (τ := τ) .tc)).toFinset) (hd : ∀ r ∈ keepRefs, r ∉ LW)
    (V : Valuation τ sig (Elt Ideal)) : Agree (after L V) V :=
  fun r hr => after_of_writes_sub L V hw (hd r hr)

/-! ## The device regions leave them as they were -/

theorem agree_W4 : Agree (W4 m ρ c) (W3 m ρ c) := by
  intro r hr
  simp only [keepRefs, List.mem_cons, List.not_mem_nil, or_false] at hr
  rcases hr with rfl | rfl | rfl | rfl | rfl | rfl | rfl | rfl | rfl | rfl | rfl
  all_goals first
    | exact W4_of_ne m ρ c _ (by decide)
    | exact (W4_arr m ρ c 1).trans (((dat0 (V3 m ρ) c).arrAt_in 1 rfl _).trans (A_eq0 (V3 m ρ) c 1))

theorem agree_W8 : Agree (W8 m ρ c) (W7 m ρ c) := by
  intro r hr
  simp only [keepRefs, List.mem_cons, List.not_mem_nil, or_false] at hr
  rcases hr with rfl | rfl | rfl | rfl | rfl | rfl | rfl | rfl | rfl | rfl | rfl
  all_goals first
    | exact W8_of_ne m ρ c _ (by decide)
    | exact (W8_arr m ρ c 1).trans (((dat1 (V7 m ρ) c).arrAt_in 1 rfl _).trans (A_eq1 (V7 m ρ) c 1))

theorem agree_W12 : Agree (W12 m ρ c) (W11 m ρ c) := by
  intro r hr
  simp only [keepRefs, List.mem_cons, List.not_mem_nil, or_false] at hr
  rcases hr with rfl | rfl | rfl | rfl | rfl | rfl | rfl | rfl | rfl | rfl | rfl
  all_goals first
    | exact W12_of_ne m ρ c _ (by decide)
    | exact (W12_arr m ρ c 1).trans (((dat2 (V11 m ρ) c).arrAt_in 1 rfl _).trans (A_eq2 (V11 m ρ) c 1))

theorem agree_W16 : Agree (W16 m ρ c) (W15 m ρ c) := by
  intro r hr
  simp only [keepRefs, List.mem_cons, List.not_mem_nil, or_false] at hr
  rcases hr with rfl | rfl | rfl | rfl | rfl | rfl | rfl | rfl | rfl | rfl | rfl
  all_goals first
    | exact W16_of_ne m ρ c _ (by decide)
    | exact (W16_arr m ρ c 1).trans (((dat3 (V15 m ρ) c).arrAt_in 1 rfl _).trans (A_eq3 (V15 m ρ) c 1))

/-! ## The host stretches leave them as they were -/

theorem agree_W7 : Agree (W7 m ρ c) (W4 m ρ c) :=
  ((agree_after hostOps1_2 hostOps1_2_W hostOps1_2_writes (by decide) (W6 m ρ c)).trans
    (agree_after hostOps1_1 hostOps1_1_W hostOps1_1_writes (by decide) (W5 m ρ c))).trans
    (agree_after hostOps1 hostOps1_W hostOps1_writes (by decide) (W4 m ρ c))
theorem agree_W11 : Agree (W11 m ρ c) (W8 m ρ c) :=
  ((agree_after hostOps2_2 hostOps2_2_W hostOps2_2_writes (by decide) (W10 m ρ c)).trans
    (agree_after hostOps2_1 hostOps2_1_W hostOps2_1_writes (by decide) (W9 m ρ c))).trans
    (agree_after hostOps2 hostOps2_W hostOps2_writes (by decide) (W8 m ρ c))
theorem agree_W15 : Agree (W15 m ρ c) (W12 m ρ c) :=
  ((agree_after hostOps3_2 hostOps3_2_W hostOps3_2_writes (by decide) (W14 m ρ c)).trans
    (agree_after hostOps3_1 hostOps3_1_W hostOps3_1_writes (by decide) (W13 m ρ c))).trans
    (agree_after hostOps3 hostOps3_W hostOps3_writes (by decide) (W12 m ρ c))

/-- From the first region's entry to the last region's exit the edge ends, the weights and the arguments stand. -/
theorem agree_W16_W3 : Agree (W16 m ρ c) (W3 m ρ c) :=
  (agree_W16 m ρ c).trans ((agree_W15 m ρ c).trans ((agree_W12 m ρ c).trans ((agree_W11 m ρ c).trans
    ((agree_W8 m ρ c).trans ((agree_W7 m ρ c).trans (agree_W4 m ρ c))))))
theorem agree_W12_W3 : Agree (W12 m ρ c) (W3 m ρ c) :=
  (agree_W12 m ρ c).trans ((agree_W11 m ρ c).trans ((agree_W8 m ρ c).trans ((agree_W7 m ρ c).trans (agree_W4 m ρ c))))
theorem agree_W8_W3 : Agree (W8 m ρ c) (W3 m ρ c) :=
  (agree_W8 m ρ c).trans ((agree_W7 m ρ c).trans (agree_W4 m ρ c))

end Cert.KernelIdeal.Hand
end
-- ==== Proof.KW0.lean ====
/-
  The host operations before the first device region, read over the buffers they find.

  The first seven build the edge list: each row of the edge table followed by the self loops.  The next fourteen and
  the three of the select build the degree (ones added up per target) and the node weights.  The last three scale
  the rows of the input by the node weights for the first product.
-/
import proofs.«159954_j74448963108867_2_alg».proof.Proof.Gen.KernelIdeal.Launch
import proofs.«159954_j74448963108867_2_alg».proof.Proof.Gen.ReferenceIdeal
import proofs.«159954_j74448963108867_2_alg».proof.Proof.StagesK
import Idealize.ShloMosaic.Lib.StableHlo.Run

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

variable {F : FTy → Type} [FloatOps F]

/-- The seven operations that build the edges' sources and targets. -/
abbrev prepEnds : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The fourteen operations after them: the degree, the comparison, the floor, the rsqrt. -/
abbrev prepDeg : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32) ]

/-- The first stretch is the two pieces in order. -/
theorem hostOps0_cut (V : Valuation τ sig (Elt F)) : after hostOps0 V = after prepDeg (after prepEnds V) := rfl

/-- Two lists joined end to end are equal when their two pieces are. -/
theorem concat_pair_congr {a a' : S800000.Idx → BitVec 32} {b b' : S50000.Idx → BitVec 32} (ha : a = a') (hb : b = b')
    (h : Shape.Concatenates [S800000, S50000] S850000 0) :
    concatenate S850000 0 [⟨S800000, a⟩, ⟨S50000, b⟩] h = concatenate S850000 0 [⟨S800000, a'⟩, ⟨S50000, b'⟩] h := by
  subst ha; subst hb; rfl

set_option maxHeartbeats 4000000 in
/-- The edges' sources: row 0 of the edge table followed by the self loops. -/
theorem ends_v3 (V : Valuation τ sig (Elt Ideal)) :
    after prepEnds V (Proc.devRef .tc main_v3) = endsOf0 (V (Proc.devRef .tc main_arg1)) := by
  after_results_simp
  unfold endsOf0
  refine concat_pair_congr ?_ ?_ _
  · after_results_simp <;> rfl
  · after_results_simp <;> rfl

set_option maxHeartbeats 4000000 in
/-- The edges' targets: row 1 of the edge table followed by the self loops. -/
theorem ends_v6 (V : Valuation τ sig (Elt Ideal)) :
    after prepEnds V (Proc.devRef .tc main_v6) = endsOf1 (V (Proc.devRef .tc main_arg1)) := by
  after_results_simp
  unfold endsOf1
  refine concat_pair_congr ?_ ?_ _
  · after_results_simp <;> rfl
  · after_results_simp <;> rfl

/-- The references the degree piece writes. -/
abbrev prepDeg_W : List (Ref sig .tc) :=
  [main_cst, main_v7, main_cst_0, main_v8, main_v9, main_v10, main_cst_1, main_v11, main_v12, main_cst_2, main_v13, main_v14,
    main_v15, main_cst_3]
theorem prepDeg_writes : (prepDeg : List (HloOp τ sig (Elt F))).Forall fun op => op.writes ⊆ (prepDeg_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the degree piece does not write keeps its contents. -/
theorem prepDeg_keep (V : Valuation τ sig (Elt F)) (r : Ref sig .tc) (h : r ∉ prepDeg_W) :
    after prepDeg V (Proc.devRef .tc r) = V (Proc.devRef .tc r) := after_of_writes_sub prepDeg V prepDeg_writes h

set_option maxHeartbeats 4000000 in
/-- The select of the node weights over the three buffers it reads. -/
theorem sel_v16 (V : Valuation τ sig (Elt Ideal)) :
    after hostOps0_1 V (Proc.devRef .tc main_v16)
      = select (V (Proc.devRef .tc main_v12)) (V (Proc.devRef .tc main_v15))
          (broadcastInDim S50000 ![] bcast_S_S50000 (V (Proc.devRef .tc main_cst_3))) := by
  after_results_simp
  rfl

set_option maxHeartbeats 4000000 in
/-- Where the degree is positive. -/
theorem deg_v12 (V : Valuation τ sig (Elt Ideal)) :
    after prepDeg V (Proc.devRef .tc main_v12)
      = cmpf .ogt (degOf' (V (Proc.devRef .tc main_v6))) (broadcastInDim S50000 ![] bcast_S_S50000 (constant S_ .f32 0x00000000#32)) := by
  after_results_simp
  rfl

set_option maxHeartbeats 4000000 in
/-- The reciprocal square root of the floored degree. -/
theorem deg_v15 (V : Valuation τ sig (Elt Ideal)) :
    after prepDeg V (Proc.devRef .tc main_v15)
      = Host.rsqrt (maximumf (degOf' (V (Proc.devRef .tc main_v6))) (broadcastInDim S50000 ![] bcast_S_S50000 (constant S_ .f32 0x2B8CBCCC#32))) := by
  after_results_simp
  rfl

set_option maxHeartbeats 4000000 in
/-- The zero the select falls back to. -/
theorem deg_cst3 (V : Valuation τ sig (Elt Ideal)) :
    after prepDeg V (Proc.devRef .tc main_cst_3) = (constant (F := Ideal) S_ .f32 0x00000000#32 : FVec Ideal S_ .f32) := by
  after_results_simp <;> rfl

/-- The node weights from the targets the stretch finds. -/
theorem dis_v16 (V : Valuation τ sig (Elt Ideal)) :
    after hostOps0_1 (after prepDeg V) (Proc.devRef .tc main_v16) = disOf' (V (Proc.devRef .tc main_v6)) := by
  rw [sel_v16, deg_v12, deg_v15, deg_cst3]
  rfl

set_option maxHeartbeats 4000000 in
/-- The input's rows scaled by the node weights. -/
theorem scale0 (V : Valuation τ sig (Elt Ideal)) :
    after hostOps0_2 V (Proc.devRef .tc main_v19)
      = mulf (V (Proc.devRef .tc main_arg0)) (colOf128 (V (Proc.devRef .tc main_v16))) := by
  after_results_simp
  rfl

end Cert.KernelIdeal.Hand
end
-- ==== Proof.KW1.lean ====
/-
  The host operations between device region 0 and device region 1, read over the buffers they find.

  The first stretch gathers the source rows of the region's product, adds them up per target, scales by the node
  weights and adds the bias; the second applies max(·, 0); the third scales the rows by the node weights for the next
  product.  Each is read here as one function of the buffers it reads, whatever they hold.
-/
import proofs.«159954_j74448963108867_2_alg».proof.Proof.Gen.KernelIdeal.Launch
import proofs.«159954_j74448963108867_2_alg».proof.Proof.Gen.ReferenceIdeal
import proofs.«159954_j74448963108867_2_alg».proof.Proof.StagesK
import Idealize.ShloMosaic.Lib.StableHlo.Run

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

set_option maxHeartbeats 4000000 in
/-- The aggregation: the buffer v36 after the stretch, from the product v20, the weights, the edge ends and the bias. -/
theorem agg1 (V : Valuation τ sig (Elt Ideal)) :
    after hostOps1 V (Proc.devRef .tc main_v36)
      = kAgg256' (V (Proc.devRef .tc main_v16)) (V (Proc.devRef .tc main_v3)) (V (Proc.devRef .tc main_v6))
          (V (Proc.devRef .tc main_v20)) (V (Proc.devRef .tc main_arg4)) := by
  after_results_simp
  rfl

set_option maxHeartbeats 4000000 in
/-- max(·, 0). -/
theorem relu1 (V : Valuation τ sig (Elt Ideal)) :
    after hostOps1_1 V (Proc.devRef .tc main_v37) = relu256 (V (Proc.devRef .tc main_v36)) := by
  after_results_simp
  rfl

set_option maxHeartbeats 4000000 in
/-- The rows scaled by the node weights. -/
theorem scale1 (V : Valuation τ sig (Elt Ideal)) :
    after hostOps1_2 V (Proc.devRef .tc main_v40)
      = mulf (V (Proc.devRef .tc main_v37)) (colOf256 (V (Proc.devRef .tc main_v16))) := by
  after_results_simp
  rfl

end Cert.KernelIdeal.Hand
end
-- ==== Proof.KW2.lean ====
/-
  The host operations between device region 1 and device region 2, read over the buffers they find.

  The first stretch gathers the source rows of the region's product, adds them up per target, scales by the node
  weights and adds the bias; the second applies max(·, 0); the third scales the rows by the node weights for the next
  product.  Each is read here as one function of the buffers it reads, whatever they hold.
-/
import proofs.«159954_j74448963108867_2_alg».proof.Proof.Gen.KernelIdeal.Launch
import proofs.«159954_j74448963108867_2_alg».proof.Proof.Gen.ReferenceIdeal
import proofs.«159954_j74448963108867_2_alg».proof.Proof.StagesK
import Idealize.ShloMosaic.Lib.StableHlo.Run

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

set_option maxHeartbeats 4000000 in
/-- The aggregation: the buffer v57 after the stretch, from the product v41, the weights, the edge ends and the bias. -/
theorem agg2 (V : Valuation τ sig (Elt Ideal)) :
    after hostOps2 V (Proc.devRef .tc main_v57)
      = kAgg256' (V (Proc.devRef .tc main_v16)) (V (Proc.devRef .tc main_v3)) (V (Proc.devRef .tc main_v6))
          (V (Proc.devRef .tc main_v41)) (V (Proc.devRef .tc main_arg6)) := by
  after_results_simp
  rfl

set_option maxHeartbeats 4000000 in
/-- max(·, 0). -/
theorem relu2 (V : Valuation τ sig (Elt Ideal)) :
    after hostOps2_1 V (Proc.devRef .tc main_v58) = relu256 (V (Proc.devRef .tc main_v57)) := by
  after_results_simp
  rfl

set_option maxHeartbeats 4000000 in
/-- The rows scaled by the node weights. -/
theorem scale2 (V : Valuation τ sig (Elt Ideal)) :
    after hostOps2_2 V (Proc.devRef .tc main_v61)
      = mulf (V (Proc.devRef .tc main_v58)) (colOf256 (V (Proc.devRef .tc main_v16))) := by
  after_results_simp
  rfl

end Cert.KernelIdeal.Hand
end
-- ==== Proof.KW3.lean ====
/-
  The host operations between device region 2 and device region 3, read over the buffers they find.

  The first stretch gathers the source rows of the region's product, adds them up per target, scales by the node
  weights and adds the bias; the second applies max(·, 0); the third scales the rows by the node weights for the next
  product.  Each is read here as one function of the buffers it reads, whatever they hold.
-/
import proofs.«159954_j74448963108867_2_alg».proof.Proof.Gen.KernelIdeal.Launch
import proofs.«159954_j74448963108867_2_alg».proof.Proof.Gen.ReferenceIdeal
import proofs.«159954_j74448963108867_2_alg».proof.Proof.StagesK
import Idealize.ShloMosaic.Lib.StableHlo.Run

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

set_option maxHeartbeats 4000000 in
/-- The aggregation: the buffer v78 after the stretch, from the product v62, the weights, the edge ends and the bias. -/
theorem agg3 (V : Valuation τ sig (Elt Ideal)) :
    after hostOps3 V (Proc.devRef .tc main_v78)
      = kAgg256' (V (Proc.devRef .tc main_v16)) (V (Proc.devRef .tc main_v3)) (V (Proc.devRef .tc main_v6))
          (V (Proc.devRef .tc main_v62)) (V (Proc.devRef .tc main_arg8)) := by
  after_results_simp
  rfl

set_option maxHeartbeats 4000000 in
/-- max(·, 0). -/
theorem relu3 (V : Valuation τ sig (Elt Ideal)) :
    after hostOps3_1 V (Proc.devRef .tc main_v79) = relu256 (V (Proc.devRef .tc main_v78)) := by
  after_results_simp
  rfl

set_option maxHeartbeats 4000000 in
/-- The rows scaled by the node weights. -/
theorem scale3 (V : Valuation τ sig (Elt Ideal)) :
    after hostOps3_2 V (Proc.devRef .tc main_v82)
      = mulf (V (Proc.devRef .tc main_v79)) (colOf256 (V (Proc.devRef .tc main_v16))) := by
  after_results_simp
  rfl

end Cert.KernelIdeal.Hand
end
-- ==== Proof.KW4.lean ====
/-
  The host operations after the last device region, read over the buffers they find: gather the source rows of the
  last product, add them up per target, scale by the node weights and add the bias.
-/
import proofs.«159954_j74448963108867_2_alg».proof.Proof.Gen.KernelIdeal.Launch
import proofs.«159954_j74448963108867_2_alg».proof.Proof.Gen.ReferenceIdeal
import proofs.«159954_j74448963108867_2_alg».proof.Proof.StagesK
import Idealize.ShloMosaic.Lib.StableHlo.Run

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

set_option maxHeartbeats 4000000 in
/-- The result buffer after the stretch, from the product, the weights, the edge ends and the bias. -/
theorem agg4 (V : Valuation τ sig (Elt Ideal)) :
    after hostOps4 V (Proc.devRef .tc main_v99)
      = kAgg128' (V (Proc.devRef .tc main_v16)) (V (Proc.devRef .tc main_v3)) (V (Proc.devRef .tc main_v6))
          (V (Proc.devRef .tc main_v83)) (V (Proc.devRef .tc main_arg10)) := by
  after_results_simp
  rfl

end Cert.KernelIdeal.Hand
end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.KRegion0.lean ====
/-
  The product of a 50000-row array by a weight matrix, computed block of rows by block of rows: the rows are cut
  into ten blocks of 5000, and at each block the 5000×128 block of the left operand is multiplied by the whole
  128×256 weight matrix into the 5000×256 block of the result.  Over the extended reals the narrowing of
  the operands' format is the identity and the accumulator starts at zero, so the entry (r, q) of a block's product
  is the sum over k of x(r, k) · w(k, q).  Row p of block t is row 5000 t + p of the array, the weights' block is the
  whole matrix at every block of rows, and row r lies in block r / 5000; hence after all ten blocks the result
  array is the product of the two arrays, entry by entry, whatever the arrays held when the computation started.
-/
import proofs.«159954_j74448963108867_2_alg».proof.Proof.Gen.KernelIdeal.Frame
import proofs.«159954_j74448963108867_2_alg».proof.Proof.GcnOps
import proofs.«159954_j74448963108867_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a block read whole. -/
theorem off_zero0 : (![0, 0] : Fin 2 → Nat) = fun _ => 0 := funext fun a => by fin_cases a <;> rfl

/-- The entry at row r and column q of a block's product: the sum over k of x0(r, k) · x1(k, q).  (Narrowing
    the format is the identity over the extended reals, and the accumulator starts at zero.) -/
theorem pay0_apply (x0 : Vec Ideal S5000x128 .f32) (x1 : Vec Ideal S128x256 .f32) (r : Fin 5000) (q : Fin 256) :
    k0_pay1 (F := Ideal) x0 x1 (ix2 r q) = ∑ k : Fin 128, x0 (ix2 r k) * x1 (ix2 k q) := by
  unfold k0_pay1
  refine (Ideal.matmul_constant_zero_apply dot_S5000x128_S128x256_S5000x256_1_0_0_1_n_n none _ _ (ix2 r q)).trans ?_
  rw [shapeCast_self]
  exact LibMatmulNN.contr_sum (M := 5000) (K := 128) (N := 256) dot_S5000x128_S128x256_S5000x256_1_0_0_1_n_n rfl rfl rfl rfl
    (fun j k => rfl) (fun j k => rfl) x0 x1 r q

/-- The block indices over the ten blocks of rows: at block t the left operand's and the result's block is
    block t of rows, the weights' is the one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten blocks of rows. -/
theorem pt_lt0 (t : Fin cfg0.N) : t.val < 10 := Nat.lt_of_lt_of_eq t.isLt N_0

/-- Row p of the left operand's block t is row 5000 t + p of the array. -/
theorem emb0_0 (t : Fin cfg0.N) (p : Fin 5000) (k : Fin 128) (h : t.val * 5000 + p.val < 50000) :
    ((cfg0.win 0).blk t).view.emb (ix2 p k) = (ix2 (⟨t.val * 5000 + p.val, h⟩ : Fin 50000) k : S50000x128.Idx) := by
  obtain ⟨e0, e1, -, -, -, -⟩ := idx_facts0 t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block at every block of rows is the whole matrix. -/
theorem emb0_1 (t : Fin cfg0.N) (k : Fin 128) (q : Fin 256) :
    ((cfg0.win 1).blk t).view.emb (ix2 k q) = (ix2 k q : S128x256.Idx) := by
  obtain ⟨-, -, e0, e1, -, -⟩ := idx_facts0 t
  funext a; apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-- Row p of the result's block t is row 5000 t + p of the array. -/
theorem emb0_2 (t : Fin cfg0.N) (p : Fin 5000) (q : Fin 256) (h : t.val * 5000 + p.val < 50000) :
    ((cfg0.win 2).blk t).view.emb (ix2 p q) = (ix2 (⟨t.val * 5000 + p.val, h⟩ : Fin 50000) q : S50000x256.Idx) := by
  obtain ⟨-, -, -, -, e0, e1⟩ := idx_facts0 t
  funext a; apply Fin.ext
  match a with
  | ⟨0, _⟩ => show win0_2.index t (0 : Fin 2) * 5000 + 1 * p.val = t.val * 5000 + p.val; rw [e0]; omega
  | ⟨1, _⟩ => show win0_2.index t (1 : Fin 2) * 256 + 1 * q.val = q.val; rw [e1]; omega

section
variable (V : (c : Dev nD) → (b : Ref sig .tc) → Buf (Elt Ideal) ((c : Thread nD τ).loc b))

/-- The product of the left operand's array by the weights' array, as the computation finds them. -/
abbrev prod0 (c : Dev nD) : S50000x256.Idx → EReal :=
  Gcn.mm (M := 50000) (K := 128) (N := 256) (V c (Pipeline.arrRef spec0 0)) (V c (Pipeline.arrRef spec0 1))

/-- What block t of rows writes to the result is block t of the product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero off_zero0]
  simp only [View.ld_unit_zero (S := S5000x128) off_zero0, View.ld_unit_zero (S := S128x256) off_zero0]
  refine funext fun (j : S5000x256.Idx) => ?_
  obtain ⟨p, q, rfl⟩ : ∃ (p : Fin 5000) (q : Fin 256), j = ix2 p q := ⟨j 0, j 1, eq_ix2 j⟩
  have hp : t.val * 5000 + p.val < 50000 := by have := pt_lt0 t; have := p.isLt; omega
  show k0_pay1 (iblk0 V c 0 t) (iblk0 V c 1 t) (ix2 p q) = prod0 V c (((cfg0.win 2).blk t).view.emb (ix2 p q))
  rw [emb0_2 t p q hp]
  refine (pay0_apply _ _ p q).trans ?_
  refine Eq.trans ?_ (Gcn.mm_apply _ _ _ _).symm
  refine Finset.sum_congr rfl fun k _ => ?_
  have h0 : (iblk0 V c 0 t : Vec Ideal S5000x128 .f32) (ix2 p k) = V c (Pipeline.arrRef spec0 0) (((cfg0.win 0).blk t).view.emb (ix2 p k)) := rfl
  have h1 : (iblk0 V c 1 t : Vec Ideal S128x256 .f32) (ix2 k q) = V c (Pipeline.arrRef spec0 1) (((cfg0.win 1).blk t).view.emb (ix2 k q)) := rfl
  rw [h0, h1, emb0_0 t p k hp, emb0_1 t k q]
end

/-- An index of the result array is in block t iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v20).slice (win0_2.rect t)).set ↔ _
  rw [View.set_slice_whole, Rect.mem_set_unit]
  exact Iff.rfl

/-- Every index of the result array is written by some block of rows: row r by block r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 5000 < cfg0.N := by rw [show cfg0.N = 10 from N_0]; omega
  obtain ⟨-, -, -, -, e0, e1⟩ := idx_facts0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val ∧ (i 1).val < win0_2.index ⟨(i 0).val / 5000, ht⟩ (1 : Fin 2) * 256 + 256
    rw [e1]; omega

section
variable (V : (c : Dev nD) → (b : Ref sig .tc) → Buf (Elt Ideal) ((c : Thread nD τ).loc b))

/-- After the ten blocks of rows the result array holds the product of the two arrays the computation found. -/
theorem final0 (c : Dev nD) :
    (dat0 (F := Ideal) V c).arrAt 2 cfg0.N
      = Gcn.mm (M := 50000) (K := 128) (N := 256) (V c (Pipeline.arrRef spec0 0)) (V c (Pipeline.arrRef spec0 1)) :=
  (dat0 (F := Ideal) V c).arrAt_eq_of_cover 2 (prod0 V c) (fun t _ => flushed0_eq V c t) cover0
end

end Cert.KernelIdeal.Region

end
-- ==== Proof.KRegion1.lean ====
/-
  The product of a 50000-row array by a weight matrix, computed block of rows by block of rows: the rows are cut
  into ten blocks of 5000, and at each block the 5000×256 block of the left operand is multiplied by the whole
  256×256 weight matrix into the 5000×256 block of the result.  Over the extended reals the narrowing of
  the operands' format is the identity and the accumulator starts at zero, so the entry (r, q) of a block's product
  is the sum over k of x(r, k) · w(k, q).  Row p of block t is row 5000 t + p of the array, the weights' block is the
  whole matrix at every block of rows, and row r lies in block r / 5000; hence after all ten blocks the result
  array is the product of the two arrays, entry by entry, whatever the arrays held when the computation started.
-/
import proofs.«159954_j74448963108867_2_alg».proof.Proof.Gen.KernelIdeal.Frame
import proofs.«159954_j74448963108867_2_alg».proof.Proof.GcnOps
import proofs.«159954_j74448963108867_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a block read whole. -/
theorem off_zero1 : (![0, 0] : Fin 2 → Nat) = fun _ => 0 := funext fun a => by fin_cases a <;> rfl

/-- The entry at row r and column q of a block's product: the sum over k of x0(r, k) · x1(k, q).  (Narrowing
    the format is the identity over the extended reals, and the accumulator starts at zero.) -/
theorem pay1_apply (x0 : Vec Ideal S5000x256 .f32) (x1 : Vec Ideal S256x256 .f32) (r : Fin 5000) (q : Fin 256) :
    k1_pay1 (F := Ideal) x0 x1 (ix2 r q) = ∑ k : Fin 256, x0 (ix2 r k) * x1 (ix2 k q) := by
  unfold k1_pay1
  refine (Ideal.matmul_constant_zero_apply dot_S5000x256_S256x256_S5000x256_1_0_0_1_n_n none _ _ (ix2 r q)).trans ?_
  rw [shapeCast_self]
  exact LibMatmulNN.contr_sum (M := 5000) (K := 256) (N := 256) dot_S5000x256_S256x256_S5000x256_1_0_0_1_n_n rfl rfl rfl rfl
    (fun j k => rfl) (fun j k => rfl) x0 x1 r q

/-- The block indices over the ten blocks of rows: at block t the left operand's and the result's block is
    block t of rows, the weights' is the one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- There are ten blocks of rows. -/
theorem pt_lt1 (t : Fin cfg1.N) : t.val < 10 := Nat.lt_of_lt_of_eq t.isLt N_1

/-- Row p of the left operand's block t is row 5000 t + p of the array. -/
theorem emb1_0 (t : Fin cfg1.N) (p : Fin 5000) (k : Fin 256) (h : t.val * 5000 + p.val < 50000) :
    ((cfg1.win 0).blk t).view.emb (ix2 p k) = (ix2 (⟨t.val * 5000 + p.val, h⟩ : Fin 50000) k : S50000x256.Idx) := by
  obtain ⟨e0, e1, -, -, -, -⟩ := idx_facts1 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 256 + 1 * k.val = k.val; rw [e1]; omega

/-- The weights' block at every block of rows is the whole matrix. -/
theorem emb1_1 (t : Fin cfg1.N) (k : Fin 256) (q : Fin 256) :
    ((cfg1.win 1).blk t).view.emb (ix2 k q) = (ix2 k q : S256x256.Idx) := by
  obtain ⟨-, -, e0, e1, -, -⟩ := idx_facts1 t
  funext a; apply Fin.ext
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- Row p of the result's block t is row 5000 t + p of the array. -/
theorem emb1_2 (t : Fin cfg1.N) (p : Fin 5000) (q : Fin 256) (h : t.val * 5000 + p.val < 50000) :
    ((cfg1.win 2).blk t).view.emb (ix2 p q) = (ix2 (⟨t.val * 5000 + p.val, h⟩ : Fin 50000) q : S50000x256.Idx) := by
  obtain ⟨-, -, -, -, e0, e1⟩ := idx_facts1 t
  funext a; apply Fin.ext
  match a with
  | ⟨0, _⟩ => show win1_2.index t (0 : Fin 2) * 5000 + 1 * p.val = t.val * 5000 + p.val; rw [e0]; omega
  | ⟨1, _⟩ => show win1_2.index t (1 : Fin 2) * 256 + 1 * q.val = q.val; rw [e1]; omega

section
variable (V : (c : Dev nD) → (b : Ref sig .tc) → Buf (Elt Ideal) ((c : Thread nD τ).loc b))

/-- The product of the left operand's array by the weights' array, as the computation finds them. -/
abbrev prod1 (c : Dev nD) : S50000x256.Idx → EReal :=
  Gcn.mm (M := 50000) (K := 256) (N := 256) (V c (Pipeline.arrRef spec1 0)) (V c (Pipeline.arrRef spec1 1))

/-- What block t of rows writes to the result is block t of the product. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 V c).after 2 t) = _
  rw [after1_2]
  unfold out1_2
  rw [View.canon_unit_zero off_zero1]
  simp only [View.ld_unit_zero (S := S5000x256) off_zero1, View.ld_unit_zero (S := S256x256) off_zero1]
  refine funext fun (j : S5000x256.Idx) => ?_
  obtain ⟨p, q, rfl⟩ : ∃ (p : Fin 5000) (q : Fin 256), j = ix2 p q := ⟨j 0, j 1, eq_ix2 j⟩
  have hp : t.val * 5000 + p.val < 50000 := by have := pt_lt1 t; have := p.isLt; omega
  show k1_pay1 (iblk1 V c 0 t) (iblk1 V c 1 t) (ix2 p q) = prod1 V c (((cfg1.win 2).blk t).view.emb (ix2 p q))
  rw [emb1_2 t p q hp]
  refine (pay1_apply _ _ p q).trans ?_
  refine Eq.trans ?_ (Gcn.mm_apply _ _ _ _).symm
  refine Finset.sum_congr rfl fun k _ => ?_
  have h0 : (iblk1 V c 0 t : Vec Ideal S5000x256 .f32) (ix2 p k) = V c (Pipeline.arrRef spec1 0) (((cfg1.win 0).blk t).view.emb (ix2 p k)) := rfl
  have h1 : (iblk1 V c 1 t : Vec Ideal S256x256 .f32) (ix2 k q) = V c (Pipeline.arrRef spec1 1) (((cfg1.win 1).blk t).view.emb (ix2 k q)) := rfl
  rw [h0, h1, emb1_0 t p k hp, emb1_1 t k q]
end

/-- An index of the result array is in block t iff each coordinate is in the block's range on its axis. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v41).slice (win1_2.rect t)).set ↔ _
  rw [View.set_slice_whole, Rect.mem_set_unit]
  exact Iff.rfl

/-- Every index of the result array is written by some block of rows: row r by block r / 5000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have ht : (i 0).val / 5000 < cfg1.N := by rw [show cfg1.N = 10 from N_1]; omega
  obtain ⟨-, -, -, -, e0, e1⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ (1 : Fin 2) * 256 ≤ (i 1).val ∧ (i 1).val < win1_2.index ⟨(i 0).val / 5000, ht⟩ (1 : Fin 2) * 256 + 256
    rw [e1]; omega

section
variable (V : (c : Dev nD) → (b : Ref sig .tc) → Buf (Elt Ideal) ((c : Thread nD τ).loc b))

/-- After the ten blocks of rows the result array holds the product of the two arrays the computation found. -/
theorem final1 (c : Dev nD) :
    (dat1 (F := Ideal) V c).arrAt 2 cfg1.N
      = Gcn.mm (M := 50000) (K := 256) (N := 256) (V c (Pipeline.arrRef spec1 0)) (V c (Pipeline.arrRef spec1 1)) :=
  (dat1 (F := Ideal) V c).arrAt_eq_of_cover 2 (prod1 V c) (fun t _ => flushed1_eq V c t) cover1
end

end Cert.KernelIdeal.Region

end
-- ==== Proof.KRegion2.lean ====
/-
  The product of a 50000-row array by a weight matrix, computed block of rows by block of rows: the rows are cut
  into ten blocks of 5000, and at each block the 5000×256 block of the left operand is multiplied by the whole
  256×256 weight matrix into the 5000×256 block of the result.  Over the extended reals the narrowing of
  the operands' format is the identity and the accumulator starts at zero, so the entry (r, q) of a block's product
  is the sum over k of x(r, k) · w(k, q).  Row p of block t is row 5000 t + p of the array, the weights' block is the
  whole matrix at every block of rows, and row r lies in block r / 5000; hence after all ten blocks the result
  array is the product of the two arrays, entry by entry, whatever the arrays held when the computation started.
-/
import proofs.«159954_j74448963108867_2_alg».proof.Proof.Gen.KernelIdeal.Frame
import proofs.«159954_j74448963108867_2_alg».proof.Proof.GcnOps
import proofs.«159954_j74448963108867_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a block read whole. -/
theorem off_zero2 : (![0, 0] : Fin 2 → Nat) = fun _ => 0 := funext fun a => by fin_cases a <;> rfl

/-- The entry at row r and column q of a block's product: the sum over k of x0(r, k) · x1(k, q).  (Narrowing
    the format is the identity over the extended reals, and the accumulator starts at zero.) -/
theorem pay2_apply (x0 : Vec Ideal S5000x256 .f32) (x1 : Vec Ideal S256x256 .f32) (r : Fin 5000) (q : Fin 256) :
    k2_pay1 (F := Ideal) x0 x1 (ix2 r q) = ∑ k : Fin 256, x0 (ix2 r k) * x1 (ix2 k q) := by
  unfold k2_pay1
  refine (Ideal.matmul_constant_zero_apply dot_S5000x256_S256x256_S5000x256_1_0_0_1_n_n none _ _ (ix2 r q)).trans ?_
  rw [shapeCast_self]
  exact LibMatmulNN.contr_sum (M := 5000) (K := 256) (N := 256) dot_S5000x256_S256x256_S5000x256_1_0_0_1_n_n rfl rfl rfl rfl
    (fun j k => rfl) (fun j k => rfl) x0 x1 r q

/-- The block indices over the ten blocks of rows: at block t the left operand's and the result's block is
    block t of rows, the weights' is the one whole block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- There are ten blocks of rows. -/
theorem pt_lt2 (t : Fin cfg2.N) : t.val < 10 := Nat.lt_of_lt_of_eq t.isLt N_2

/-- Row p of the left operand's block t is row 5000 t + p of the array. -/
theorem emb2_0 (t : Fin cfg2.N) (p : Fin 5000) (k : Fin 256) (h : t.val * 5000 + p.val < 50000) :
    ((cfg2.win 0).blk t).view.emb (ix2 p k) = (ix2 (⟨t.val * 5000 + p.val, h⟩ : Fin 50000) k : S50000x256.Idx) := by
  obtain ⟨e0, e1, -, -, -, -⟩ := idx_facts2 t
  funext a; apply Fin.ext
  match a with
  | ⟨0, _⟩ => show win2_0.index t (0 : Fin 2) * 5000 + 1 * p.val = t.val * 5000 + p.val; rw [e0]; omega
  | ⟨1, _⟩ => show win2_0.index t (1 : Fin 2) * 256 + 1 * k.val = k.val; rw [e1]; omega

/-- The weights' block at every block of rows is the whole matrix. -/
theorem emb2_1 (t : Fin cfg2.N) (k : Fin 256) (q : Fin 256) :
    ((cfg2.win 1).blk t).view.emb (ix2 k q) = (ix2 k q : S256x256.Idx) := by
  obtain ⟨-, -, e0, e1, -, -⟩ := idx_facts2 t
  funext a; apply Fin.ext
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- Row p of the result's block t is row 5000 t + p of the array. -/
theorem emb2_2 (t : Fin cfg2.N) (p : Fin 5000) (q : Fin 256) (h : t.val * 5000 + p.val < 50000) :
    ((cfg2.win 2).blk t).view.emb (ix2 p q) = (ix2 (⟨t.val * 5000 + p.val, h⟩ : Fin 50000) q : S50000x256.Idx) := by
  obtain ⟨-, -, -, -, e0, e1⟩ := idx_facts2 t
  funext a; apply Fin.ext
  match a with
  | ⟨0, _⟩ => show win2_2.index t (0 : Fin 2) * 5000 + 1 * p.val = t.val * 5000 + p.val; rw [e0]; omega
  | ⟨1, _⟩ => show win2_2.index t (1 : Fin 2) * 256 + 1 * q.val = q.val; rw [e1]; omega

section
variable (V : (c : Dev nD) → (b : Ref sig .tc) → Buf (Elt Ideal) ((c : Thread nD τ).loc b))

/-- The product of the left operand's array by the weights' array, as the computation finds them. -/
abbrev prod2 (c : Dev nD) : S50000x256.Idx → EReal :=
  Gcn.mm (M := 50000) (K := 256) (N := 256) (V c (Pipeline.arrRef spec2 0)) (V c (Pipeline.arrRef spec2 1))

/-- What block t of rows writes to the result is block t of the product. -/
theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero off_zero2]
  simp only [View.ld_unit_zero (S := S5000x256) off_zero2, View.ld_unit_zero (S := S256x256) off_zero2]
  refine funext fun (j : S5000x256.Idx) => ?_
  obtain ⟨p, q, rfl⟩ : ∃ (p : Fin 5000) (q : Fin 256), j = ix2 p q := ⟨j 0, j 1, eq_ix2 j⟩
  have hp : t.val * 5000 + p.val < 50000 := by have := pt_lt2 t; have := p.isLt; omega
  show k2_pay1 (iblk2 V c 0 t) (iblk2 V c 1 t) (ix2 p q) = prod2 V c (((cfg2.win 2).blk t).view.emb (ix2 p q))
  rw [emb2_2 t p q hp]
  refine (pay2_apply _ _ p q).trans ?_
  refine Eq.trans ?_ (Gcn.mm_apply _ _ _ _).symm
  refine Finset.sum_congr rfl fun k _ => ?_
  have h0 : (iblk2 V c 0 t : Vec Ideal S5000x256 .f32) (ix2 p k) = V c (Pipeline.arrRef spec2 0) (((cfg2.win 0).blk t).view.emb (ix2 p k)) := rfl
  have h1 : (iblk2 V c 1 t : Vec Ideal S256x256 .f32) (ix2 k q) = V c (Pipeline.arrRef spec2 1) (((cfg2.win 1).blk t).view.emb (ix2 k q)) := rfl
  rw [h0, h1, emb2_0 t p k hp, emb2_1 t k q]
end

/-- An index of the result array is in block t iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v62).slice (win2_2.rect t)).set ↔ _
  rw [View.set_slice_whole, Rect.mem_set_unit]
  exact Iff.rfl

/-- Every index of the result array is written by some block of rows: row r by block r / 5000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have ht : (i 0).val / 5000 < cfg2.N := by rw [show cfg2.N = 10 from N_2]; omega
  obtain ⟨-, -, -, -, e0, e1⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_2.index ⟨(i 0).val / 5000, ht⟩ (1 : Fin 2) * 256 ≤ (i 1).val ∧ (i 1).val < win2_2.index ⟨(i 0).val / 5000, ht⟩ (1 : Fin 2) * 256 + 256
    rw [e1]; omega

section
variable (V : (c : Dev nD) → (b : Ref sig .tc) → Buf (Elt Ideal) ((c : Thread nD τ).loc b))

/-- After the ten blocks of rows the result array holds the product of the two arrays the computation found. -/
theorem final2 (c : Dev nD) :
    (dat2 (F := Ideal) V c).arrAt 2 cfg2.N
      = Gcn.mm (M := 50000) (K := 256) (N := 256) (V c (Pipeline.arrRef spec2 0)) (V c (Pipeline.arrRef spec2 1)) :=
  (dat2 (F := Ideal) V c).arrAt_eq_of_cover 2 (prod2 V c) (fun t _ => flushed2_eq V c t) cover2
end

end Cert.KernelIdeal.Region

end
-- ==== Proof.KRegion3.lean ====
/-
  The product of a 50000-row array by a weight matrix, computed block of rows by block of rows: the rows are cut
  into ten blocks of 5000, and at each block the 5000×256 block of the left operand is multiplied by the whole
  256×128 weight matrix into the 5000×128 block of the result.  Over the extended reals the narrowing of
  the operands' format is the identity and the accumulator starts at zero, so the entry (r, q) of a block's product
  is the sum over k of x(r, k) · w(k, q).  Row p of block t is row 5000 t + p of the array, the weights' block is the
  whole matrix at every block of rows, and row r lies in block r / 5000; hence after all ten blocks the result
  array is the product of the two arrays, entry by entry, whatever the arrays held when the computation started.
-/
import proofs.«159954_j74448963108867_2_alg».proof.Proof.Gen.KernelIdeal.Frame
import proofs.«159954_j74448963108867_2_alg».proof.Proof.GcnOps
import proofs.«159954_j74448963108867_2_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a block read whole. -/
theorem off_zero3 : (![0, 0] : Fin 2 → Nat) = fun _ => 0 := funext fun a => by fin_cases a <;> rfl

/-- The entry at row r and column q of a block's product: the sum over k of x0(r, k) · x1(k, q).  (Narrowing
    the format is the identity over the extended reals, and the accumulator starts at zero.) -/
theorem pay3_apply (x0 : Vec Ideal S5000x256 .f32) (x1 : Vec Ideal S256x128 .f32) (r : Fin 5000) (q : Fin 128) :
    k3_pay1 (F := Ideal) x0 x1 (ix2 r q) = ∑ k : Fin 256, x0 (ix2 r k) * x1 (ix2 k q) := by
  unfold k3_pay1
  refine (Ideal.matmul_constant_zero_apply dot_S5000x256_S256x128_S5000x128_1_0_0_1_n_n none _ _ (ix2 r q)).trans ?_
  rw [shapeCast_self]
  exact LibMatmulNN.contr_sum (M := 5000) (K := 256) (N := 128) dot_S5000x256_S256x128_S5000x128_1_0_0_1_n_n rfl rfl rfl rfl
    (fun j k => rfl) (fun j k => rfl) x0 x1 r q

/-- The block indices over the ten blocks of rows: at block t the left operand's and the result's block is
    block t of rows, the weights' is the one whole block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- There are ten blocks of rows. -/
theorem pt_lt3 (t : Fin cfg3.N) : t.val < 10 := Nat.lt_of_lt_of_eq t.isLt N_3

/-- Row p of the left operand's block t is row 5000 t + p of the array. -/
theorem emb3_0 (t : Fin cfg3.N) (p : Fin 5000) (k : Fin 256) (h : t.val * 5000 + p.val < 50000) :
    ((cfg3.win 0).blk t).view.emb (ix2 p k) = (ix2 (⟨t.val * 5000 + p.val, h⟩ : Fin 50000) k : S50000x256.Idx) := by
  obtain ⟨e0, e1, -, -, -, -⟩ := idx_facts3 t
  funext a; apply Fin.ext
  match a with
  | ⟨0, _⟩ => show win3_0.index t (0 : Fin 2) * 5000 + 1 * p.val = t.val * 5000 + p.val; rw [e0]; omega
  | ⟨1, _⟩ => show win3_0.index t (1 : Fin 2) * 256 + 1 * k.val = k.val; rw [e1]; omega

/-- The weights' block at every block of rows is the whole matrix. -/
theorem emb3_1 (t : Fin cfg3.N) (k : Fin 256) (q : Fin 128) :
    ((cfg3.win 1).blk t).view.emb (ix2 k q) = (ix2 k q : S256x128.Idx) := by
  obtain ⟨-, -, e0, e1, -, -⟩ := idx_facts3 t
  funext a; apply Fin.ext
  match a with
  | ⟨0, _⟩ => show win3_1.index t (0 : Fin 2) * 256 + 1 * k.val = k.val; rw [e0]; omega
  | ⟨1, _⟩ => show win3_1.index t (1 : Fin 2) * 128 + 1 * q.val = q.val; rw [e1]; omega

/-- Row p of the result's block t is row 5000 t + p of the array. -/
theorem emb3_2 (t : Fin cfg3.N) (p : Fin 5000) (q : Fin 128) (h : t.val * 5000 + p.val < 50000) :
    ((cfg3.win 2).blk t).view.emb (ix2 p q) = (ix2 (⟨t.val * 5000 + p.val, h⟩ : Fin 50000) q : S50000x128.Idx) := by
  obtain ⟨-, -, -, -, e0, e1⟩ := idx_facts3 t
  funext a; apply Fin.ext
  match a with
  | ⟨0, _⟩ => show win3_2.index t (0 : Fin 2) * 5000 + 1 * p.val = t.val * 5000 + p.val; rw [e0]; omega
  | ⟨1, _⟩ => show win3_2.index t (1 : Fin 2) * 128 + 1 * q.val = q.val; rw [e1]; omega

section
variable (V : (c : Dev nD) → (b : Ref sig .tc) → Buf (Elt Ideal) ((c : Thread nD τ).loc b))

/-- The product of the left operand's array by the weights' array, as the computation finds them. -/
abbrev prod3 (c : Dev nD) : S50000x128.Idx → EReal :=
  Gcn.mm (M := 50000) (K := 256) (N := 128) (V c (Pipeline.arrRef spec3 0)) (V c (Pipeline.arrRef spec3 1))

/-- What block t of rows writes to the result is block t of the product. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 V c).after 2 t) = _
  rw [after3_2]
  unfold out3_2
  rw [View.canon_unit_zero off_zero3]
  simp only [View.ld_unit_zero (S := S5000x256) off_zero3, View.ld_unit_zero (S := S256x128) off_zero3]
  refine funext fun (j : S5000x128.Idx) => ?_
  obtain ⟨p, q, rfl⟩ : ∃ (p : Fin 5000) (q : Fin 128), j = ix2 p q := ⟨j 0, j 1, eq_ix2 j⟩
  have hp : t.val * 5000 + p.val < 50000 := by have := pt_lt3 t; have := p.isLt; omega
  show k3_pay1 (iblk3 V c 0 t) (iblk3 V c 1 t) (ix2 p q) = prod3 V c (((cfg3.win 2).blk t).view.emb (ix2 p q))
  rw [emb3_2 t p q hp]
  refine (pay3_apply _ _ p q).trans ?_
  refine Eq.trans ?_ (Gcn.mm_apply _ _ _ _).symm
  refine Finset.sum_congr rfl fun k _ => ?_
  have h0 : (iblk3 V c 0 t : Vec Ideal S5000x256 .f32) (ix2 p k) = V c (Pipeline.arrRef spec3 0) (((cfg3.win 0).blk t).view.emb (ix2 p k)) := rfl
  have h1 : (iblk3 V c 1 t : Vec Ideal S256x128 .f32) (ix2 k q) = V c (Pipeline.arrRef spec3 1) (((cfg3.win 1).blk t).view.emb (ix2 k q)) := rfl
  rw [h0, h1, emb3_0 t p k hp, emb3_1 t k q]
end

/-- An index of the result array is in block t iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v83).slice (win3_2.rect t)).set ↔ _
  rw [View.set_slice_whole, Rect.mem_set_unit]
  exact Iff.rfl

/-- Every index of the result array is written by some block of rows: row r by block r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have ht : (i 0).val / 5000 < cfg3.N := by rw [show cfg3.N = 10 from N_3]; omega
  obtain ⟨-, -, -, -, e0, e1⟩ := idx_facts3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e1]; omega

section
variable (V : (c : Dev nD) → (b : Ref sig .tc) → Buf (Elt Ideal) ((c : Thread nD τ).loc b))

/-- After the ten blocks of rows the result array holds the product of the two arrays the computation found. -/
theorem final3 (c : Dev nD) :
    (dat3 (F := Ideal) V c).arrAt 2 cfg3.N
      = Gcn.mm (M := 50000) (K := 256) (N := 128) (V c (Pipeline.arrRef spec3 0)) (V c (Pipeline.arrRef spec3 1)) :=
  (dat3 (F := Ideal) V c).arrAt_eq_of_cover 2 (prod3 V c) (fun t _ => flushed3_eq V c t) cover3
end

end Cert.KernelIdeal.Region

end
-- ==== Proof.KChain.lean ====
/-
  The kernel program's result as a function of its arguments.

  The program's buffers are followed from the launch memory to the return.  At the first device region's entry the
  host has built the edge ends and the node weights from the edge table and has scaled the input's rows.  A device
  region writes the product of its two operand arrays into its output array.  The host stretch after it gathers the
  product's source rows, adds them up per target, scales by the weights and adds the bias; between layers it applies
  max(·, 0) and scales the rows again for the next product.  The edge ends, the weights and the arguments are read
  where they were first written: nothing writes them afterwards.
-/
import proofs.«159954_j74448963108867_2_alg».proof.Proof.KAgree
import proofs.«159954_j74448963108867_2_alg».proof.Proof.KW0
import proofs.«159954_j74448963108867_2_alg».proof.Proof.KW1
import proofs.«159954_j74448963108867_2_alg».proof.Proof.KW2
import proofs.«159954_j74448963108867_2_alg».proof.Proof.KW3
import proofs.«159954_j74448963108867_2_alg».proof.Proof.KW4
import proofs.«159954_j74448963108867_2_alg».proof.Proof.KRegion0
import proofs.«159954_j74448963108867_2_alg».proof.Proof.KRegion1
import proofs.«159954_j74448963108867_2_alg».proof.Proof.KRegion2
import proofs.«159954_j74448963108867_2_alg».proof.Proof.KRegion3

set_option maxRecDepth 16384
noncomputable section
namespace Cert.KernelIdeal.Hand
open Cert.KernelIdeal Cert.KernelIdeal.Gen
open Idealize.ShloMosaic Idealize.ShloMosaic.TcCoe Idealize.ShloMosaic.StableHlo
open Cert.Stage

variable (m : (ℓ : Loc nD τ sig) → Buf (Elt Ideal) ℓ) (ρ : Dev nD → PrngReg) (c : Dev nD)

/-! ## The arguments as launched -/

abbrev ax0 : FVec Ideal S50000x128 .f32 := m ((c : Thread nD τ).loc main_arg0)
abbrev ax1 : IVec S2x800000 32 := m ((c : Thread nD τ).loc main_arg1)
abbrev ax3 : FVec Ideal S128x256 .f32 := m ((c : Thread nD τ).loc main_arg3)
abbrev ax4 : FVec Ideal S256 .f32 := m ((c : Thread nD τ).loc main_arg4)
abbrev ax5 : FVec Ideal S256x256 .f32 := m ((c : Thread nD τ).loc main_arg5)
abbrev ax6 : FVec Ideal S256 .f32 := m ((c : Thread nD τ).loc main_arg6)
abbrev ax7 : FVec Ideal S256x256 .f32 := m ((c : Thread nD τ).loc main_arg7)
abbrev ax8 : FVec Ideal S256 .f32 := m ((c : Thread nD τ).loc main_arg8)
abbrev ax9 : FVec Ideal S256x128 .f32 := m ((c : Thread nD τ).loc main_arg9)
abbrev ax10 : FVec Ideal S128 .f32 := m ((c : Thread nD τ).loc main_arg10)

/-! ## At the first region's entry -/

/-- An argument is written by no host operation before the first region. -/
theorem W2_arg0 : W2 m ρ c (Proc.devRef .tc main_arg0) = ax0 m c :=
  (hostOps0_1_keep (W1 m ρ c) main_arg0 (by decide)).trans (hostOps0_keep (W0 m ρ c) main_arg0 (by decide))
theorem W3_arg3 : W3 m ρ c (Proc.devRef .tc main_arg3) = ax3 m c :=
  (hostOps0_2_keep (W2 m ρ c) main_arg3 (by decide)).trans ((hostOps0_1_keep (W1 m ρ c) main_arg3 (by decide)).trans
    (hostOps0_keep (W0 m ρ c) main_arg3 (by decide)))
theorem W3_arg4 : W3 m ρ c (Proc.devRef .tc main_arg4) = ax4 m c :=
  (hostOps0_2_keep (W2 m ρ c) main_arg4 (by decide)).trans ((hostOps0_1_keep (W1 m ρ c) main_arg4 (by decide)).trans
    (hostOps0_keep (W0 m ρ c) main_arg4 (by decide)))
theorem W3_arg5 : W3 m ρ c (Proc.devRef .tc main_arg5) = ax5 m c :=
  (hostOps0_2_keep (W2 m ρ c) main_arg5 (by decide)).trans ((hostOps0_1_keep (W1 m ρ c) main_arg5 (by decide)).trans
    (hostOps0_keep (W0 m ρ c) main_arg5 (by decide)))
theorem W3_arg6 : W3 m ρ c (Proc.devRef .tc main_arg6) = ax6 m c :=
  (hostOps0_2_keep (W2 m ρ c) main_arg6 (by decide)).trans ((hostOps0_1_keep (W1 m ρ c) main_arg6 (by decide)).trans
    (hostOps0_keep (W0 m ρ c) main_arg6 (by decide)))
theorem W3_arg7 : W3 m ρ c (Proc.devRef .tc main_arg7) = ax7 m c :=
  (hostOps0_2_keep (W2 m ρ c) main_arg7 (by decide)).trans ((hostOps0_1_keep (W1 m ρ c) main_arg7 (by decide)).trans
    (hostOps0_keep (W0 m ρ c) main_arg7 (by decide)))
theorem W3_arg8 : W3 m ρ c (Proc.devRef .tc main_arg8) = ax8 m c :=
  (hostOps0_2_keep (W2 m ρ c) main_arg8 (by decide)).trans ((hostOps0_1_keep (W1 m ρ c) main_arg8 (by decide)).trans
    (hostOps0_keep (W0 m ρ c) main_arg8 (by decide)))
theorem W3_arg9 : W3 m ρ c (Proc.devRef .tc main_arg9) = ax9 m c :=
  (hostOps0_2_keep (W2 m ρ c) main_arg9 (by decide)).trans ((hostOps0_1_keep (W1 m ρ c) main_arg9 (by decide)).trans
    (hostOps0_keep (W0 m ρ c) main_arg9 (by decide)))
theorem W3_arg10 : W3 m ρ c (Proc.devRef .tc main_arg10) = ax10 m c :=
  (hostOps0_2_keep (W2 m ρ c) main_arg10 (by decide)).trans ((hostOps0_1_keep (W1 m ρ c) main_arg10 (by decide)).trans
    (hostOps0_keep (W0 m ρ c) main_arg10 (by decide)))

/-- The edges' sources. -/
theorem W1_v3 : W1 m ρ c (Proc.devRef .tc main_v3) = srcOf (ax1 m c) :=
  (congrFun (hostOps0_cut (W0 m ρ c)) _).trans ((prepDeg_keep _ main_v3 (by decide)).trans (ends_v3 (W0 m ρ c)))
/-- The edges' targets. -/
theorem W1_v6 : W1 m ρ c (Proc.devRef .tc main_v6) = dstOf (ax1 m c) :=
  (congrFun (hostOps0_cut (W0 m ρ c)) _).trans ((prepDeg_keep _ main_v6 (by decide)).trans (ends_v6 (W0 m ρ c)))
/-- The node weights. -/
theorem W2_v16 : W2 m ρ c (Proc.devRef .tc main_v16) = disOf (ax1 m c) := by
  show after hostOps0_1 (after hostOps0 (W0 m ρ c)) (Proc.devRef .tc main_v16) = _
  rw [hostOps0_cut, dis_v16, ends_v6]
  rfl

theorem W3_v3 : W3 m ρ c (Proc.devRef .tc main_v3) = srcOf (ax1 m c) :=
  (hostOps0_2_keep (W2 m ρ c) main_v3 (by decide)).trans ((hostOps0_1_keep (W1 m ρ c) main_v3 (by decide)).trans (W1_v3 m ρ c))
theorem W3_v6 : W3 m ρ c (Proc.devRef .tc main_v6) = dstOf (ax1 m c) :=
  (hostOps0_2_keep (W2 m ρ c) main_v6 (by decide)).trans ((hostOps0_1_keep (W1 m ρ c) main_v6 (by decide)).trans (W1_v6 m ρ c))
theorem W3_v16 : W3 m ρ c (Proc.devRef .tc main_v16) = disOf (ax1 m c) :=
  (hostOps0_2_keep (W2 m ρ c) main_v16 (by decide)).trans (W2_v16 m ρ c)

/-- The input's rows scaled by the node weights: the first product's left operand. -/
theorem W3_v19 : W3 m ρ c (Proc.devRef .tc main_v19) = kScale128 (ax0 m c) (ax1 m c) := by
  refine (scale0 (W2 m ρ c)).trans ?_
  rw [W2_arg0, W2_v16]
  rfl

/-! ## Layer 0 -/

/-- The first product. -/
def h0 : FVec Ideal S50000x256 .f32 := Gcn.mm (kScale128 (ax0 m c) (ax1 m c)) (ax3 m c)

theorem W4_v20 : W4 m ρ c (Proc.devRef .tc main_v20) = h0 m c :=
  (W4_arr m ρ c 2).trans ((Cert.KernelIdeal.Region.final0 (V3 m ρ) c).trans
    (congrArg₂ (Gcn.mm (M := 50000) (K := 128) (N := 256)) (W3_v19 m ρ c) (W3_arg3 m ρ c)))

/-- The second product's left operand. -/
def s1 : FVec Ideal S50000x256 .f32 := kScale256 (relu256 (kAgg256 (h0 m c) (ax1 m c) (ax4 m c))) (ax1 m c)

theorem W7_v40 : W7 m ρ c (Proc.devRef .tc main_v40) = s1 m c := by
  refine (scale1 (W6 m ρ c)).trans ?_
  have hr : W6 m ρ c (Proc.devRef .tc main_v37) = relu256 (W5 m ρ c (Proc.devRef .tc main_v36)) := relu1 (W5 m ρ c)
  have ha : W5 m ρ c (Proc.devRef .tc main_v36)
      = kAgg256' (W4 m ρ c (Proc.devRef .tc main_v16)) (W4 m ρ c (Proc.devRef .tc main_v3)) (W4 m ρ c (Proc.devRef .tc main_v6))
          (W4 m ρ c (Proc.devRef .tc main_v20)) (W4 m ρ c (Proc.devRef .tc main_arg4)) := agg1 (W4 m ρ c)
  have hk : W6 m ρ c (Proc.devRef .tc main_v16) = W4 m ρ c (Proc.devRef .tc main_v16) :=
    (hostOps1_1_keep (W5 m ρ c) main_v16 (by decide)).trans (hostOps1_keep (W4 m ρ c) main_v16 (by decide))
  rw [hr, ha, hk,
    (agree_W4 m ρ c main_v16 (by decide)).trans (W3_v16 m ρ c), (agree_W4 m ρ c main_v3 (by decide)).trans (W3_v3 m ρ c),
    (agree_W4 m ρ c main_v6 (by decide)).trans (W3_v6 m ρ c), (agree_W4 m ρ c main_arg4 (by decide)).trans (W3_arg4 m ρ c),
    W4_v20]
  rfl

/-! ## Layer 1 -/

def h1 : FVec Ideal S50000x256 .f32 := Gcn.mm (s1 m c) (ax5 m c)

theorem W8_v41 : W8 m ρ c (Proc.devRef .tc main_v41) = h1 m c :=
  (W8_arr m ρ c 2).trans ((Cert.KernelIdeal.Region.final1 (V7 m ρ) c).trans
    (congrArg₂ (Gcn.mm (M := 50000) (K := 256) (N := 256)) (W7_v40 m ρ c)
      (((agree_W7 m ρ c).trans (agree_W4 m ρ c) main_arg5 (by decide)).trans (W3_arg5 m ρ c))))

def s2 : FVec Ideal S50000x256 .f32 := kScale256 (relu256 (kAgg256 (h1 m c) (ax1 m c) (ax6 m c))) (ax1 m c)

theorem W11_v61 : W11 m ρ c (Proc.devRef .tc main_v61) = s2 m c := by
  refine (scale2 (W10 m ρ c)).trans ?_
  have hr : W10 m ρ c (Proc.devRef .tc main_v58) = relu256 (W9 m ρ c (Proc.devRef .tc main_v57)) := relu2 (W9 m ρ c)
  have ha : W9 m ρ c (Proc.devRef .tc main_v57)
      = kAgg256' (W8 m ρ c (Proc.devRef .tc main_v16)) (W8 m ρ c (Proc.devRef .tc main_v3)) (W8 m ρ c (Proc.devRef .tc main_v6))
          (W8 m ρ c (Proc.devRef .tc main_v41)) (W8 m ρ c (Proc.devRef .tc main_arg6)) := agg2 (W8 m ρ c)
  have hk : W10 m ρ c (Proc.devRef .tc main_v16) = W8 m ρ c (Proc.devRef .tc main_v16) :=
    (hostOps2_1_keep (W9 m ρ c) main_v16 (by decide)).trans (hostOps2_keep (W8 m ρ c) main_v16 (by decide))
  rw [hr, ha, hk,
    (agree_W8_W3 m ρ c main_v16 (by decide)).trans (W3_v16 m ρ c), (agree_W8_W3 m ρ c main_v3 (by decide)).trans (W3_v3 m ρ c),
    (agree_W8_W3 m ρ c main_v6 (by decide)).trans (W3_v6 m ρ c), (agree_W8_W3 m ρ c main_arg6 (by decide)).trans (W3_arg6 m ρ c),
    W8_v41]
  rfl

/-! ## Layer 2 -/

def h2 : FVec Ideal S50000x256 .f32 := Gcn.mm (s2 m c) (ax7 m c)

theorem W12_v62 : W12 m ρ c (Proc.devRef .tc main_v62) = h2 m c :=
  (W12_arr m ρ c 2).trans ((Cert.KernelIdeal.Region.final2 (V11 m ρ) c).trans
    (congrArg₂ (Gcn.mm (M := 50000) (K := 256) (N := 256)) (W11_v61 m ρ c)
      (((agree_W11 m ρ c).trans (agree_W8_W3 m ρ c) main_arg7 (by decide)).trans (W3_arg7 m ρ c))))

def s3 : FVec Ideal S50000x256 .f32 := kScale256 (relu256 (kAgg256 (h2 m c) (ax1 m c) (ax8 m c))) (ax1 m c)

theorem W15_v82 : W15 m ρ c (Proc.devRef .tc main_v82) = s3 m c := by
  refine (scale3 (W14 m ρ c)).trans ?_
  have hr : W14 m ρ c (Proc.devRef .tc main_v79) = relu256 (W13 m ρ c (Proc.devRef .tc main_v78)) := relu3 (W13 m ρ c)
  have ha : W13 m ρ c (Proc.devRef .tc main_v78)
      = kAgg256' (W12 m ρ c (Proc.devRef .tc main_v16)) (W12 m ρ c (Proc.devRef .tc main_v3)) (W12 m ρ c (Proc.devRef .tc main_v6))
          (W12 m ρ c (Proc.devRef .tc main_v62)) (W12 m ρ c (Proc.devRef .tc main_arg8)) := agg3 (W12 m ρ c)
  have hk : W14 m ρ c (Proc.devRef .tc main_v16) = W12 m ρ c (Proc.devRef .tc main_v16) :=
    (hostOps3_1_keep (W13 m ρ c) main_v16 (by decide)).trans (hostOps3_keep (W12 m ρ c) main_v16 (by decide))
  rw [hr, ha, hk,
    (agree_W12_W3 m ρ c main_v16 (by decide)).trans (W3_v16 m ρ c), (agree_W12_W3 m ρ c main_v3 (by decide)).trans (W3_v3 m ρ c),
    (agree_W12_W3 m ρ c main_v6 (by decide)).trans (W3_v6 m ρ c), (agree_W12_W3 m ρ c main_arg8 (by decide)).trans (W3_arg8 m ρ c),
    W12_v62]
  rfl

/-! ## Layer 3 -/

def h3 : FVec Ideal S50000x128 .f32 := Gcn.mm (s3 m c) (ax9 m c)

theorem W16_v83 : W16 m ρ c (Proc.devRef .tc main_v83) = h3 m c :=
  (W16_arr m ρ c 2).trans ((Cert.KernelIdeal.Region.final3 (V15 m ρ) c).trans
    (congrArg₂ (Gcn.mm (M := 50000) (K := 256) (N := 128)) (W15_v82 m ρ c)
      (((agree_W15 m ρ c).trans (agree_W12_W3 m ρ c) main_arg9 (by decide)).trans (W3_arg9 m ρ c))))

/-- THE RESULT: what the last host stretch leaves in the result buffer is the kernel program's function of the
    arguments as launched. -/
theorem W17_v99 : W17 m ρ c (Proc.devRef .tc main_v99)
    = kOut (ax0 m c) (ax1 m c) (ax3 m c) (ax4 m c) (ax5 m c) (ax6 m c) (ax7 m c) (ax8 m c) (ax9 m c) (ax10 m c) := by
  refine (agg4 (W16 m ρ c)).trans ?_
  rw [(agree_W16_W3 m ρ c main_v16 (by decide)).trans (W3_v16 m ρ c), (agree_W16_W3 m ρ c main_v3 (by decide)).trans (W3_v3 m ρ c),
    (agree_W16_W3 m ρ c main_v6 (by decide)).trans (W3_v6 m ρ c), (agree_W16_W3 m ρ c main_arg10 (by decide)).trans (W3_arg10 m ρ c),
    W16_v83]
  rfl

end Cert.KernelIdeal.Hand
end
-- ==== Proof.RefOps.lean ====
/-
  The reference program is a straight line of host operations, each writing a buffer of its own from buffers written
  before it.  The line is cut here into consecutive pieces: the edge list, the degrees, the node weights, the edges'
  norms, and then four layers (a product with the weights, the source rows gathered and scaled by the norms, the sums
  per target, the bias) with `max(·, 0)` between them.  What a buffer holds after the whole line is read piece by
  piece: the contents after a piece are a function of the contents before it.
-/
import proofs.«159954_j74448963108867_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A single written buffer lies in any list of buffers that names it. -/
theorem writes_sub {W : List (Ref sig .tc)} (y : Ref sig .tc) (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The edge list: the sources and the targets, each a row of the edge table followed by the self loops. -/
abbrev prepA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

theorem prepA_sub : (prepA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem prepA_fresh : ∀ op ∈ (prepA : List (HloOp τ sig (Elt F))), op.fresh = ∅ := by
  intro _ h; (repeat (cases h with | head => rfl | tail _ h => ?_)); exact nomatch h

/-- The buffers this piece writes. -/
abbrev prepAW : List (Ref sig .tc) := [main_v0, main_v1, main_v2, main_v3, main_v4, main_v5, main_v6]
/-- A buffer this piece does not write keeps its contents. -/
theorem prepA_keeps (V : Valuation τ sig (Elt F)) {b : Ref sig .tc} (hb : b ∉ prepAW) :
    after prepA V (Proc.devRef .tc b) = V (Proc.devRef .tc b) :=
  after_of_writes_sub prepA V ⟨writes_sub main_v0 (by decide), writes_sub main_v1 (by decide), writes_sub main_v2 (by decide), writes_sub main_v3 (by decide), writes_sub main_v4 (by decide), writes_sub main_v5 (by decide), writes_sub main_v6 (by decide)⟩ hb

/-- The degree of every node (ones added up per target), where it is positive, and the reciprocal square root of the degrees. -/
abbrev prepB : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000) ]

theorem prepB_sub : (prepB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub ..⟩
theorem prepB_fresh : ∀ op ∈ (prepB : List (HloOp τ sig (Elt F))), op.fresh = ∅ := by
  intro _ h; (repeat (cases h with | head => rfl | tail _ h => ?_)); exact nomatch h

/-- The buffers this piece writes. -/
abbrev prepBW : List (Ref sig .tc) := [main_cst, main_v7, main_cst_0, main_v8, main_v9, main_v10, main_cst_1, main_v11, main_v12, main_cst_2, main_v13, main_v14, main_v15, main_cst_3, main_call0_v0, main_call0_v1]
/-- A buffer this piece does not write keeps its contents. -/
theorem prepB_keeps (V : Valuation τ sig (Elt F)) {b : Ref sig .tc} (hb : b ∉ prepBW) :
    after prepB V (Proc.devRef .tc b) = V (Proc.devRef .tc b) :=
  after_of_writes_sub prepB V ⟨writes_sub main_cst (by decide), writes_sub main_v7 (by decide), writes_sub main_cst_0 (by decide), writes_sub main_v8 (by decide), writes_sub main_v9 (by decide), writes_sub main_v10 (by decide), writes_sub main_cst_1 (by decide), writes_sub main_v11 (by decide), writes_sub main_v12 (by decide), writes_sub main_cst_2 (by decide), writes_sub main_v13 (by decide), writes_sub main_v14 (by decide), writes_sub main_v15 (by decide), writes_sub main_cst_3 (by decide), writes_sub main_call0_v0 (by decide), writes_sub main_call0_v1 (by decide)⟩ hb

/-- The node weights: the reciprocal square root where the degree is positive, zero elsewhere. -/
abbrev prepC : List (HloOp τ sig (Elt F)) :=
  [ TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

theorem prepC_sub : (prepC : List (HloOp τ sig (Elt F))).Forall fun op => op.bufs ⊆ tcRefs τ sig :=
  ternary_bufs_sub ..
theorem prepC_fresh : ∀ op ∈ (prepC : List (HloOp τ sig (Elt F))), op.fresh = ∅ := by
  intro _ h; (repeat (cases h with | head => rfl | tail _ h => ?_)); exact nomatch h

/-- The buffers this piece writes. -/
abbrev prepCW : List (Ref sig .tc) := [main_v16]
/-- A buffer this piece does not write keeps its contents. -/
theorem prepC_keeps (V : Valuation τ sig (Elt F)) {b : Ref sig .tc} (hb : b ∉ prepCW) :
    after prepC V (Proc.devRef .tc b) = V (Proc.devRef .tc b) :=
  after_of_writes_sub prepC V (writes_sub main_v16 (by decide)) hb

/-- The edges' norms: the node weight at the wrapped source times the node weight at the wrapped target. -/
abbrev norm : List (HloOp τ sig (Elt F)) :=
  [ nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

theorem norm_sub : (norm : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem norm_fresh : ∀ op ∈ (norm : List (HloOp τ sig (Elt F))), op.fresh = ∅ := by
  intro _ h; (repeat (cases h with | head => rfl | tail _ h => ?_)); exact nomatch h

/-- The buffers this piece writes. -/
abbrev normW : List (Ref sig .tc) := [main_c, main_v17, main_v18, main_c_4, main_v19, main_v20, main_v21, main_v22, main_v23, main_c_5, main_v24, main_v25, main_c_6, main_v26, main_v27, main_v28, main_v29, main_v30, main_v31]
/-- A buffer this piece does not write keeps its contents. -/
theorem norm_keeps (V : Valuation τ sig (Elt F)) {b : Ref sig .tc} (hb : b ∉ normW) :
    after norm V (Proc.devRef .tc b) = V (Proc.devRef .tc b) :=
  after_of_writes_sub norm V ⟨writes_sub main_c (by decide), writes_sub main_v17 (by decide), writes_sub main_v18 (by decide), writes_sub main_c_4 (by decide), writes_sub main_v19 (by decide), writes_sub main_v20 (by decide), writes_sub main_v21 (by decide), writes_sub main_v22 (by decide), writes_sub main_v23 (by decide), writes_sub main_c_5 (by decide), writes_sub main_v24 (by decide), writes_sub main_v25 (by decide), writes_sub main_c_6 (by decide), writes_sub main_v26 (by decide), writes_sub main_v27 (by decide), writes_sub main_v28 (by decide), writes_sub main_v29 (by decide), writes_sub main_v30 (by decide), writes_sub main_v31 (by decide)⟩ hb

/-- The first layer: 128 features in, 256 out. -/
abbrev layer0 : List (HloOp τ sig (Elt F)) :=
  [ binary main_arg0 main_arg3 main_v32 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x256 ![0, 1] bcast_S850000x1_S850000x256_0_1 : (⟨S850000x1, .f32⟩ : BufTy).Contents (Elt F) → (⟨S850000x256, .f32⟩ : BufTy).Contents (Elt F)),
    binary main_v39 main_v41 main_v42 (mulf : (⟨S850000x256, .f32⟩ : BufTy).Contents (Elt F) → (⟨S850000x256, .f32⟩ : BufTy).Contents (Elt F) → (⟨S850000x256, .f32⟩ : BufTy).Contents (Elt F)),
    nullary main_cst_9 (constant S_ .f32 0x00000000#32),
    unary main_cst_9 main_v43 (broadcastInDim S50000x256 ![] bcast_S_S50000x256 : (⟨S_, .f32⟩ : BufTy).Contents (Elt F) → (⟨S50000x256, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg4 main_v46 (broadcastInDim S1x256 ![1] bcast_S256_S1x256_1 : (⟨S256, .f32⟩ : BufTy).Contents (Elt F) → (⟨S1x256, .f32⟩ : BufTy).Contents (Elt F)),
    unary main_v46 main_v47 (broadcastInDim S50000x256 ![0, 1] bcast_S1x256_S50000x256_0_1 : (⟨S1x256, .f32⟩ : BufTy).Contents (Elt F) → (⟨S50000x256, .f32⟩ : BufTy).Contents (Elt F)),
    binary main_v45 main_v47 main_v48 (addf : (⟨S50000x256, .f32⟩ : BufTy).Contents (Elt F) → (⟨S50000x256, .f32⟩ : BufTy).Contents (Elt F) → (⟨S50000x256, .f32⟩ : BufTy).Contents (Elt F)) ]

theorem layer0_sub : (layer0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem layer0_fresh : ∀ op ∈ (layer0 : List (HloOp τ sig (Elt F))), op.fresh = ∅ := by
  intro _ h; (repeat (cases h with | head => rfl | tail _ h => ?_)); exact nomatch h

/-- The buffers this piece writes. -/
abbrev layer0W : List (Ref sig .tc) := [main_v32, main_c_7, main_v33, main_v34, main_c_8, main_v35, main_v36, main_v37, main_v38, main_v39, main_v40, main_v41, main_v42, main_cst_9, main_v43, main_v44, main_v45, main_v46, main_v47, main_v48]
/-- A buffer this piece does not write keeps its contents. -/
theorem layer0_keeps (V : Valuation τ sig (Elt F)) {b : Ref sig .tc} (hb : b ∉ layer0W) :
    after layer0 V (Proc.devRef .tc b) = V (Proc.devRef .tc b) :=
  after_of_writes_sub layer0 V ⟨writes_sub main_v32 (by decide), writes_sub main_c_7 (by decide), writes_sub main_v33 (by decide), writes_sub main_v34 (by decide), writes_sub main_c_8 (by decide), writes_sub main_v35 (by decide), writes_sub main_v36 (by decide), writes_sub main_v37 (by decide), writes_sub main_v38 (by decide), writes_sub main_v39 (by decide), writes_sub main_v40 (by decide), writes_sub main_v41 (by decide), writes_sub main_v42 (by decide), writes_sub main_cst_9 (by decide), writes_sub main_v43 (by decide), writes_sub main_v44 (by decide), writes_sub main_v45 (by decide), writes_sub main_v46 (by decide), writes_sub main_v47 (by decide), writes_sub main_v48 (by decide)⟩ hb

/-- `max(·, 0)` after the first layer. -/
abbrev relu0 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v48) (TRef.of (T := ⟨S50000x256, .f32⟩) main_call1_v0) (TRef.of (T := ⟨S50000x256, .f32⟩) main_v49) maximumf ]

theorem relu0_sub : (relu0 : List (HloOp τ sig (Elt F))).Forall fun op => op.bufs ⊆ tcRefs τ sig :=
  ⟨nullary_bufs_sub .., unary_bufs_sub .., binary_bufs_sub ..⟩
theorem relu0_fresh : ∀ op ∈ (relu0 : List (HloOp τ sig (Elt F))), op.fresh = ∅ := by
  intro _ h; (repeat (cases h with | head => rfl | tail _ h => ?_)); exact nomatch h

/-- The buffers this piece writes. -/
abbrev relu0W : List (Ref sig .tc) := [main_call1_cst, main_call1_v0, main_v49]
/-- A buffer this piece does not write keeps its contents. -/
theorem relu0_keeps (V : Valuation τ sig (Elt F)) {b : Ref sig .tc} (hb : b ∉ relu0W) :
    after relu0 V (Proc.devRef .tc b) = V (Proc.devRef .tc b) :=
  after_of_writes_sub relu0 V ⟨writes_sub main_call1_cst (by decide), writes_sub main_call1_v0 (by decide), writes_sub main_v49 (by decide)⟩ hb

/-- The second layer: 256 features in, 256 out. -/
abbrev layer1 : List (HloOp τ sig (Elt F)) :=
  [ binary main_v49 main_arg5 main_v50 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x256 ![0, 1] bcast_S850000x1_S850000x256_0_1 : (⟨S850000x1, .f32⟩ : BufTy).Contents (Elt F) → (⟨S850000x256, .f32⟩ : BufTy).Contents (Elt F)),
    binary main_v57 main_v59 main_v60 (mulf : (⟨S850000x256, .f32⟩ : BufTy).Contents (Elt F) → (⟨S850000x256, .f32⟩ : BufTy).Contents (Elt F) → (⟨S850000x256, .f32⟩ : BufTy).Contents (Elt F)),
    nullary main_cst_12 (constant S_ .f32 0x00000000#32),
    unary main_cst_12 main_v61 (broadcastInDim S50000x256 ![] bcast_S_S50000x256 : (⟨S_, .f32⟩ : BufTy).Contents (Elt F) → (⟨S50000x256, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg6 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v63 main_v65 main_v66 (addf : (⟨S50000x256, .f32⟩ : BufTy).Contents (Elt F) → (⟨S50000x256, .f32⟩ : BufTy).Contents (Elt F) → (⟨S50000x256, .f32⟩ : BufTy).Contents (Elt F)) ]

theorem layer1_sub : (layer1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem layer1_fresh : ∀ op ∈ (layer1 : List (HloOp τ sig (Elt F))), op.fresh = ∅ := by
  intro _ h; (repeat (cases h with | head => rfl | tail _ h => ?_)); exact nomatch h

/-- The buffers this piece writes. -/
abbrev layer1W : List (Ref sig .tc) := [main_v50, main_c_10, main_v51, main_v52, main_c_11, main_v53, main_v54, main_v55, main_v56, main_v57, main_v58, main_v59, main_v60, main_cst_12, main_v61, main_v62, main_v63, main_v64, main_v65, main_v66]
/-- A buffer this piece does not write keeps its contents. -/
theorem layer1_keeps (V : Valuation τ sig (Elt F)) {b : Ref sig .tc} (hb : b ∉ layer1W) :
    after layer1 V (Proc.devRef .tc b) = V (Proc.devRef .tc b) :=
  after_of_writes_sub layer1 V ⟨writes_sub main_v50 (by decide), writes_sub main_c_10 (by decide), writes_sub main_v51 (by decide), writes_sub main_v52 (by decide), writes_sub main_c_11 (by decide), writes_sub main_v53 (by decide), writes_sub main_v54 (by decide), writes_sub main_v55 (by decide), writes_sub main_v56 (by decide), writes_sub main_v57 (by decide), writes_sub main_v58 (by decide), writes_sub main_v59 (by decide), writes_sub main_v60 (by decide), writes_sub main_cst_12 (by decide), writes_sub main_v61 (by decide), writes_sub main_v62 (by decide), writes_sub main_v63 (by decide), writes_sub main_v64 (by decide), writes_sub main_v65 (by decide), writes_sub main_v66 (by decide)⟩ hb

/-- `max(·, 0)` after the second layer. -/
abbrev relu1 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v66) (TRef.of (T := ⟨S50000x256, .f32⟩) main_call2_v0) (TRef.of (T := ⟨S50000x256, .f32⟩) main_v67) maximumf ]

theorem relu1_sub : (relu1 : List (HloOp τ sig (Elt F))).Forall fun op => op.bufs ⊆ tcRefs τ sig :=
  ⟨nullary_bufs_sub .., unary_bufs_sub .., binary_bufs_sub ..⟩
theorem relu1_fresh : ∀ op ∈ (relu1 : List (HloOp τ sig (Elt F))), op.fresh = ∅ := by
  intro _ h; (repeat (cases h with | head => rfl | tail _ h => ?_)); exact nomatch h

/-- The buffers this piece writes. -/
abbrev relu1W : List (Ref sig .tc) := [main_call2_cst, main_call2_v0, main_v67]
/-- A buffer this piece does not write keeps its contents. -/
theorem relu1_keeps (V : Valuation τ sig (Elt F)) {b : Ref sig .tc} (hb : b ∉ relu1W) :
    after relu1 V (Proc.devRef .tc b) = V (Proc.devRef .tc b) :=
  after_of_writes_sub relu1 V ⟨writes_sub main_call2_cst (by decide), writes_sub main_call2_v0 (by decide), writes_sub main_v67 (by decide)⟩ hb

/-- The third layer: 256 features in, 256 out. -/
abbrev layer2 : List (HloOp τ sig (Elt F)) :=
  [ binary main_v67 main_arg7 main_v68 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    nullary main_c_13 (constantI S_ 32 0#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v71 (broadcastInDim S850000 ![] bcast_S_S850000 : (⟨S_, .i32⟩ : BufTy).Contents (Elt F) → (⟨S850000, .i32⟩ : BufTy).Contents (Elt F)),
    binary main_v3 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v3 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v31 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x256 ![0, 1] bcast_S850000x1_S850000x256_0_1 : (⟨S850000x1, .f32⟩ : BufTy).Contents (Elt F) → (⟨S850000x256, .f32⟩ : BufTy).Contents (Elt F)),
    binary main_v75 main_v77 main_v78 (mulf : (⟨S850000x256, .f32⟩ : BufTy).Contents (Elt F) → (⟨S850000x256, .f32⟩ : BufTy).Contents (Elt F) → (⟨S850000x256, .f32⟩ : BufTy).Contents (Elt F)),
    nullary main_cst_15 (constant S_ .f32 0x00000000#32),
    unary main_cst_15 main_v79 (broadcastInDim S50000x256 ![] bcast_S_S50000x256 : (⟨S_, .f32⟩ : BufTy).Contents (Elt F) → (⟨S50000x256, .f32⟩ : BufTy).Contents (Elt F)),
    unary main_v6 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg8 main_v82 (broadcastInDim S1x256 ![1] bcast_S256_S1x256_1 : (⟨S256, .f32⟩ : BufTy).Contents (Elt F) → (⟨S1x256, .f32⟩ : BufTy).Contents (Elt F)),
    unary main_v82 main_v83 (broadcastInDim S50000x256 ![0, 1] bcast_S1x256_S50000x256_0_1 : (⟨S1x256, .f32⟩ : BufTy).Contents (Elt F) → (⟨S50000x256, .f32⟩ : BufTy).Contents (Elt F)),
    binary main_v81 main_v83 main_v84 (addf : (⟨S50000x256, .f32⟩ : BufTy).Contents (Elt F) → (⟨S50000x256, .f32⟩ : BufTy).Contents (Elt F) → (⟨S50000x256, .f32⟩ : BufTy).Contents (Elt F)) ]

theorem layer2_sub : (layer2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem layer2_fresh : ∀ op ∈ (layer2 : List (HloOp τ sig (Elt F))), op.fresh = ∅ := by
  intro _ h; (repeat (cases h with | head => rfl | tail _ h => ?_)); exact nomatch h

/-- The buffers this piece writes. -/
abbrev layer2W : List (Ref sig .tc) := [main_v68, main_c_13, main_v69, main_v70, main_c_14, main_v71, main_v72, main_v73, main_v74, main_v75, main_v76, main_v77, main_v78, main_cst_15, main_v79, main_v80, main_v81, main_v82, main_v83, main_v84]
/-- A buffer this piece does not write keeps its contents. -/
theorem layer2_keeps (V : Valuation τ sig (Elt F)) {b : Ref sig .tc} (hb : b ∉ layer2W) :
    after layer2 V (Proc.devRef .tc b) = V (Proc.devRef .tc b) :=
  after_of_writes_sub layer2 V ⟨writes_sub main_v68 (by decide), writes_sub main_c_13 (by decide), writes_sub main_v69 (by decide), writes_sub main_v70 (by decide), writes_sub main_c_14 (by decide), writes_sub main_v71 (by decide), writes_sub main_v72 (by decide), writes_sub main_v73 (by decide), writes_sub main_v74 (by decide), writes_sub main_v75 (by decide), writes_sub main_v76 (by decide), writes_sub main_v77 (by decide), writes_sub main_v78 (by decide), writes_sub main_cst_15 (by decide), writes_sub main_v79 (by decide), writes_sub main_v80 (by decide), writes_sub main_v81 (by decide), writes_sub main_v82 (by decide), writes_sub main_v83 (by decide), writes_sub main_v84 (by decide)⟩ hb

/-- `max(·, 0)` after the third layer. -/
abbrev relu2 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v84) (TRef.of (T := ⟨S50000x256, .f32⟩) main_call3_v0) (TRef.of (T := ⟨S50000x256, .f32⟩) main_v85) maximumf ]

theorem relu2_sub : (relu2 : List (HloOp τ sig (Elt F))).Forall fun op => op.bufs ⊆ tcRefs τ sig :=
  ⟨nullary_bufs_sub .., unary_bufs_sub .., binary_bufs_sub ..⟩
theorem relu2_fresh : ∀ op ∈ (relu2 : List (HloOp τ sig (Elt F))), op.fresh = ∅ := by
  intro _ h; (repeat (cases h with | head => rfl | tail _ h => ?_)); exact nomatch h

/-- The buffers this piece writes. -/
abbrev relu2W : List (Ref sig .tc) := [main_call3_cst, main_call3_v0, main_v85]
/-- A buffer this piece does not write keeps its contents. -/
theorem relu2_keeps (V : Valuation τ sig (Elt F)) {b : Ref sig .tc} (hb : b ∉ relu2W) :
    after relu2 V (Proc.devRef .tc b) = V (Proc.devRef .tc b) :=
  after_of_writes_sub relu2 V ⟨writes_sub main_call3_cst (by decide), writes_sub main_call3_v0 (by decide), writes_sub main_v85 (by decide)⟩ hb

/-- The last layer: 256 features in, 128 out. -/
abbrev layer3 : List (HloOp τ sig (Elt F)) :=
  [ binary main_v85 main_arg9 main_v86 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_16 (constantI S_ 32 0#32),
    unary main_c_16 main_v87 (broadcastInDim S850000 ![] bcast_S_S850000 : (⟨S_, .i32⟩ : BufTy).Contents (Elt F) → (⟨S850000, .i32⟩ : BufTy).Contents (Elt F)),
    binary main_v3 main_v87 main_v88 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v89 (broadcastInDim S850000 ![] bcast_S_S850000 : (⟨S_, .i32⟩ : BufTy).Contents (Elt F) → (⟨S850000, .i32⟩ : BufTy).Contents (Elt F)),
    binary main_v3 main_v89 main_v90 (addi : (⟨S850000, .i32⟩ : BufTy).Contents (Elt F) → (⟨S850000, .i32⟩ : BufTy).Contents (Elt F) → (⟨S850000, .i32⟩ : BufTy).Contents (Elt F)),
    ternary main_v88 main_v90 main_v3 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v91 main_v92 (broadcastInDim S850000x1 ![0] bcast_S850000_S850000x1_0 : (⟨S850000, .i32⟩ : BufTy).Contents (Elt F) → (⟨S850000x1, .i32⟩ : BufTy).Contents (Elt F)),
    binary main_v86 main_v92 main_v93 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v94 (broadcastInDim S850000x1 ![0] bcast_S850000_S850000x1_0 : (⟨S850000, .f32⟩ : BufTy).Contents (Elt F) → (⟨S850000x1, .f32⟩ : BufTy).Contents (Elt F)),
    unary main_v94 main_v95 (broadcastInDim S850000x128 ![0, 1] bcast_S850000x1_S850000x128_0_1 : (⟨S850000x1, .f32⟩ : BufTy).Contents (Elt F) → (⟨S850000x128, .f32⟩ : BufTy).Contents (Elt F)),
    binary main_v93 main_v95 main_v96 (mulf : (⟨S850000x128, .f32⟩ : BufTy).Contents (Elt F) → (⟨S850000x128, .f32⟩ : BufTy).Contents (Elt F) → (⟨S850000x128, .f32⟩ : BufTy).Contents (Elt F)),
    nullary main_cst_18 (constant S_ .f32 0x00000000#32),
    unary main_cst_18 main_v97 (broadcastInDim S50000x128 ![] bcast_S_S50000x128 : (⟨S_, .f32⟩ : BufTy).Contents (Elt F) → (⟨S50000x128, .f32⟩ : BufTy).Contents (Elt F)),
    unary main_v6 main_v98 (broadcastInDim S850000x1 ![0] bcast_S850000_S850000x1_0 : (⟨S850000, .i32⟩ : BufTy).Contents (Elt F) → (⟨S850000x1, .i32⟩ : BufTy).Contents (Elt F)),
    ternary main_v97 main_v98 main_v96 main_v99 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg10 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v99 main_v101 main_v102 (addf : (⟨S50000x128, .f32⟩ : BufTy).Contents (Elt F) → (⟨S50000x128, .f32⟩ : BufTy).Contents (Elt F) → (⟨S50000x128, .f32⟩ : BufTy).Contents (Elt F)) ]

theorem layer3_sub : (layer3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem layer3_fresh : ∀ op ∈ (layer3 : List (HloOp τ sig (Elt F))), op.fresh = ∅ := by
  intro _ h; (repeat (cases h with | head => rfl | tail _ h => ?_)); exact nomatch h

/-- The buffers this piece writes. -/
abbrev layer3W : List (Ref sig .tc) := [main_v86, main_c_16, main_v87, main_v88, main_c_17, main_v89, main_v90, main_v91, main_v92, main_v93, main_v94, main_v95, main_v96, main_cst_18, main_v97, main_v98, main_v99, main_v100, main_v101, main_v102]
/-- A buffer this piece does not write keeps its contents. -/
theorem layer3_keeps (V : Valuation τ sig (Elt F)) {b : Ref sig .tc} (hb : b ∉ layer3W) :
    after layer3 V (Proc.devRef .tc b) = V (Proc.devRef .tc b) :=
  after_of_writes_sub layer3 V ⟨writes_sub main_v86 (by decide), writes_sub main_c_16 (by decide), writes_sub main_v87 (by decide), writes_sub main_v88 (by decide), writes_sub main_c_17 (by decide), writes_sub main_v89 (by decide), writes_sub main_v90 (by decide), writes_sub main_v91 (by decide), writes_sub main_v92 (by decide), writes_sub main_v93 (by decide), writes_sub main_v94 (by decide), writes_sub main_v95 (by decide), writes_sub main_v96 (by decide), writes_sub main_cst_18 (by decide), writes_sub main_v97 (by decide), writes_sub main_v98 (by decide), writes_sub main_v99 (by decide), writes_sub main_v100 (by decide), writes_sub main_v101 (by decide), writes_sub main_v102 (by decide)⟩ hb

/-- The whole line: the pieces in order. -/
abbrev ops : List (HloOp τ sig (Elt F)) :=
  prepA ++ (prepB ++ (prepC ++ (norm ++ (layer0 ++ (relu0 ++ (layer1 ++ (relu1 ++ (layer2 ++ (relu2 ++ (layer3))))))))))

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op hx => (List.mem_append.mp hx).elim (h₁ op) (h₂ op)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append prepA_sub (forall_append prepB_sub (forall_append prepC_sub (forall_append norm_sub (forall_append layer0_sub (forall_append relu0_sub (forall_append layer1_sub (forall_append relu1_sub (forall_append layer2_sub (forall_append relu2_sub (layer3_sub))))))))))

theorem ops_fresh : ∀ op ∈ (ops : List (HloOp τ sig (Elt F))), op.fresh = ∅ :=
  fresh_append prepA_fresh (fresh_append prepB_fresh (fresh_append prepC_fresh (fresh_append norm_fresh (fresh_append layer0_fresh (fresh_append relu0_fresh (fresh_append layer1_fresh (fresh_append relu1_fresh (fresh_append layer2_fresh (fresh_append relu2_fresh (layer3_fresh))))))))))

/-- On every device, from any memory with zero counters: every weakly fair execution of the reference terminates, and
    every buffer ends at what the line of operations leaves there, started from the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefWalkStages.lean ====
/-
  The reference's stages once more, each as a function of the arrays it reads: the edges' sources and targets, the
  node weights and the edges' norms are operands here, where the stages of the two programs compute them from the
  edge table.  A piece of the reference's line reads these arrays from buffers written by earlier pieces, so what
  the piece leaves in its last buffer is one of these functions of the contents it started from; the stage over the
  edge table is the same function at the arrays the edge table gives.
-/
import proofs.«159954_j74448963108867_2_alg».proof.Proof.Stages

noncomputable section

namespace Cert.Stage

open Idealize.ShloMosaic
open Cert.KernelIdeal Cert.KernelIdeal.Facts₀ Cert.KernelIdeal.Facts

variable [hK : Cert.KernelIdeal.Facts] [hR : Cert.ReferenceIdeal.Facts]

/-- The degree of every node, from the edges' targets. -/
def degAt (dst : IVec S850000 32) : FVec Ideal S50000 .f32 :=
  Host.scatterAdd scatter_S50000_S850000x1_S850000_n_0_0_1
    (broadcastInDim S50000 ![] bcast_S_S50000 (constant S_ .f32 0x00000000#32)) (tabOf dst)
    (broadcastInDim S850000 ![] bcast_S_S850000 (constant S_ .f32 0x3F800000#32))

/-- Where the degree is positive. -/
def posAt (dst : IVec S850000 32) :=
  cmpf .ogt (degAt dst) (broadcastInDim S50000 ![] bcast_S_S50000 (constant (F := Ideal) S_ .f32 0x00000000#32))
/-- The reciprocal square root of the degree, the degree kept away from zero. -/
def rsqAt (dst : IVec S850000 32) : FVec Ideal S50000 .f32 :=
  Host.rsqrt (maximumf (degAt dst) (broadcastInDim S50000 ![] bcast_S_S50000 (constant S_ .f32 0x2B8CBCCC#32)))
/-- Zero at every node. -/
def zerosN : FVec Ideal S50000 .f32 := broadcastInDim S50000 ![] bcast_S_S50000 (constant S_ .f32 0x00000000#32)

/-- The node weights, from the edges' targets. -/
def disAt (dst : IVec S850000 32) : FVec Ideal S50000 .f32 := select (posAt dst) (rsqAt dst) zerosN

/-- The edges' norms, from the sources, the targets and the node weights. -/
def normAt (src dst : IVec S850000 32) (dis : FVec Ideal S50000 .f32) : FVec Ideal S850000 .f32 :=
  mulf (Host.gather Cert.ReferenceIdeal.gather_S50000_S850000x1_S850000_n_0_n_n_0_1_1 dis (tabOf (wrapOf src)))
    (Host.gather Cert.ReferenceIdeal.gather_S50000_S850000x1_S850000_n_0_n_n_0_1_1 dis (tabOf (wrapOf dst)))

/-- A layer's aggregation, from the sources, the targets and the norms. -/
def rAggAt256 (src dst : IVec S850000 32) (nrm : FVec Ideal S850000 .f32) (h : FVec Ideal S50000x256 .f32)
    (b : FVec Ideal S256 .f32) : FVec Ideal S50000x256 .f32 :=
  addf (Host.scatterAdd scatter_S50000x256_S850000x1_S850000x256_1_0_0_1 zeros256 (tabOf dst)
      (mulf (Host.gather gather_S50000x256_S850000x1_S850000x256_1_0_n_n_0_1_1256 h (tabOf (wrapOf src))) (ecolOf256 nrm)))
    (rowOf256 b)
def rAggAt128 (src dst : IVec S850000 32) (nrm : FVec Ideal S850000 .f32) (h : FVec Ideal S50000x128 .f32)
    (b : FVec Ideal S128 .f32) : FVec Ideal S50000x128 .f32 :=
  addf (Host.scatterAdd scatter_S50000x128_S850000x1_S850000x128_1_0_0_1 zeros128 (tabOf dst)
      (mulf (Host.gather gather_S50000x128_S850000x1_S850000x128_1_0_n_n_0_1_1128 h (tabOf (wrapOf src))) (ecolOf128 nrm)))
    (rowOf128 b)

theorem degOf_eq (x1 : IVec S2x800000 32) : degOf x1 = degAt (dstOf x1) := rfl
theorem disOf_eq (x1 : IVec S2x800000 32) : disOf x1 = disAt (dstOf x1) := rfl
theorem normOf_eq (x1 : IVec S2x800000 32) : normOf x1 = normAt (srcOf x1) (dstOf x1) (disOf x1) := rfl
theorem rAgg256_eq (h : FVec Ideal S50000x256 .f32) (x1 : IVec S2x800000 32) (b : FVec Ideal S256 .f32) :
    rAgg256 h x1 b = rAggAt256 (srcOf x1) (dstOf x1) (normOf x1) h b := rfl
theorem rAgg128_eq (h : FVec Ideal S50000x128 .f32) (x1 : IVec S2x800000 32) (b : FVec Ideal S128 .f32) :
    rAgg128 h x1 b = rAggAt128 (srcOf x1) (dstOf x1) (normOf x1) h b := rfl

end Cert.Stage

end
-- ==== Proof.RefWalkPrepA.lean ====
/-
  The first piece of the reference's line builds the edge list: after it the sources' buffer holds row 0 of the edge
  table followed by the self loops, and the targets' buffer holds row 1 followed by the self loops.
-/
import proofs.«159954_j74448963108867_2_alg».proof.Proof.RefOps
import proofs.«159954_j74448963108867_2_alg».proof.Proof.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem prepA_src (V : Valuation τ sig (Elt Ideal)) :
    after (prepA (F := Ideal)) V (Proc.devRef .tc main_v3) = Cert.Stage.srcOf (V (Proc.devRef .tc main_arg1)) := by
  after_results
  rfl

set_option maxRecDepth 8192 in
set_option maxHeartbeats 4000000 in
theorem prepA_dst (V : Valuation τ sig (Elt Ideal)) :
    after (prepA (F := Ideal)) V (Proc.devRef .tc main_v6) = Cert.Stage.dstOf (V (Proc.devRef .tc main_arg1)) := by
  after_results
  rfl

end Cert.ReferenceIdeal.Hand

end
-- ==== Proof.RefWalkPrepB.lean ====
/-
  The second and third pieces of the reference's line add up ones per target, compare the sums with zero, take the
  reciprocal square root of the sums kept away from zero, and pick that where the sum is positive and zero elsewhere:
  after them the weights' buffer holds the node weights of the targets they started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem prepB_pos (V : Valuation τ sig (Elt Ideal)) :
    after (prepB (F := Ideal)) V (Proc.devRef .tc main_v12) = Cert.Stage.posAt (V (Proc.devRef .tc main_v6)) := by
  after_results_simp
  rfl

set_option maxRecDepth 8192 in
set_option maxHeartbeats 4000000 in
theorem prepB_rsq (V : Valuation τ sig (Elt Ideal)) :
    after (prepB (F := Ideal)) V (Proc.devRef .tc main_v15) = Cert.Stage.rsqAt (V (Proc.devRef .tc main_v6)) := by
  after_results_simp
  rfl

set_option maxRecDepth 8192 in
set_option maxHeartbeats 4000000 in
theorem prepB_zeros (V : Valuation τ sig (Elt Ideal)) :
    after (prepB (F := Ideal)) V (Proc.devRef .tc main_call0_v1) = Cert.Stage.zerosN := by
  after_results_simp
  rfl

set_option maxRecDepth 8192 in
set_option maxHeartbeats 4000000 in
theorem prepC_val (V : Valuation τ sig (Elt Ideal)) :
    after (prepC (F := Ideal)) V (Proc.devRef .tc main_v16)
      = select (V (Proc.devRef .tc main_v12)) (V (Proc.devRef .tc main_v15)) (V (Proc.devRef .tc main_call0_v1)) := by
  after_results
  rfl

/-- The two pieces together: the node weights of the targets. -/
theorem prepBC_dis (V : Valuation τ sig (Elt Ideal)) :
    after (prepC (F := Ideal)) (after (prepB (F := Ideal)) V) (Proc.devRef .tc main_v16) = Cert.Stage.disAt (V (Proc.devRef .tc main_v6)) := by
  rw [prepC_val, prepB_pos, prepB_rsq, prepB_zeros]
  rfl

end Cert.ReferenceIdeal.Hand

end
-- ==== Proof.RefWalkNorm.lean ====
/-
  The third piece of the reference's line reads the node weights at every edge's wrapped source and wrapped target and
  multiplies the two: after it the norms' buffer holds the edges' norms of the sources, targets and weights it
  started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem norm_val (V : Valuation τ sig (Elt Ideal)) :
    after (norm (F := Ideal)) V (Proc.devRef .tc main_v31)
      = Cert.Stage.normAt (V (Proc.devRef .tc main_v3)) (V (Proc.devRef .tc main_v6)) (V (Proc.devRef .tc main_v16)) := by
  after_results_simp
  rfl

end Cert.ReferenceIdeal.Hand

end
-- ==== Proof.RefWalkL0.lean ====
/-
  Layer 1 of the reference's line: the product of the layer's input with its weights, the source rows gathered and
  scaled by the edges' norms, the sums per target, the bias.  What the piece leaves in its last buffer is the layer's
  aggregation of the sources, targets and norms it started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem layer0_val (V : Valuation τ sig (Elt Ideal)) :
    after (layer0 (F := Ideal)) V (Proc.devRef .tc main_v48)
      = Cert.Stage.rAggAt256 (V (Proc.devRef .tc main_v3)) (V (Proc.devRef .tc main_v6)) (V (Proc.devRef .tc main_v31))
          (Cert.Stage.dot0 (V (Proc.devRef .tc main_arg0)) (V (Proc.devRef .tc main_arg3))) (V (Proc.devRef .tc main_arg4)) := by
  after_results_simp
  rfl

end Cert.ReferenceIdeal.Hand

end
-- ==== Proof.RefWalkL1.lean ====
/-
  Layer 2 of the reference's line: the product of the layer's input with its weights, the source rows gathered and
  scaled by the edges' norms, the sums per target, the bias.  What the piece leaves in its last buffer is the layer's
  aggregation of the sources, targets and norms it started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem layer1_val (V : Valuation τ sig (Elt Ideal)) :
    after (layer1 (F := Ideal)) V (Proc.devRef .tc main_v66)
      = Cert.Stage.rAggAt256 (V (Proc.devRef .tc main_v3)) (V (Proc.devRef .tc main_v6)) (V (Proc.devRef .tc main_v31))
          (Cert.Stage.dot1 (V (Proc.devRef .tc main_v49)) (V (Proc.devRef .tc main_arg5))) (V (Proc.devRef .tc main_arg6)) := by
  after_results_simp
  rfl

end Cert.ReferenceIdeal.Hand

end
-- ==== Proof.RefWalkL2.lean ====
/-
  Layer 3 of the reference's line: the product of the layer's input with its weights, the source rows gathered and
  scaled by the edges' norms, the sums per target, the bias.  What the piece leaves in its last buffer is the layer's
  aggregation of the sources, targets and norms it started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem layer2_val (V : Valuation τ sig (Elt Ideal)) :
    after (layer2 (F := Ideal)) V (Proc.devRef .tc main_v84)
      = Cert.Stage.rAggAt256 (V (Proc.devRef .tc main_v3)) (V (Proc.devRef .tc main_v6)) (V (Proc.devRef .tc main_v31))
          (Cert.Stage.dot1 (V (Proc.devRef .tc main_v67)) (V (Proc.devRef .tc main_arg7))) (V (Proc.devRef .tc main_arg8)) := by
  after_results_simp
  rfl

end Cert.ReferenceIdeal.Hand

end
-- ==== Proof.RefWalkL3.lean ====
/-
  Layer 4 of the reference's line: the product of the layer's input with its weights, the source rows gathered and
  scaled by the edges' norms, the sums per target, the bias.  What the piece leaves in its last buffer is the layer's
  aggregation of the sources, targets and norms it started from.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem layer3_val (V : Valuation τ sig (Elt Ideal)) :
    after (layer3 (F := Ideal)) V (Proc.devRef .tc main_v102)
      = Cert.Stage.rAggAt128 (V (Proc.devRef .tc main_v3)) (V (Proc.devRef .tc main_v6)) (V (Proc.devRef .tc main_v31))
          (Cert.Stage.dot3 (V (Proc.devRef .tc main_v85)) (V (Proc.devRef .tc main_arg9))) (V (Proc.devRef .tc main_arg10)) := by
  after_results_simp
  rfl

end Cert.ReferenceIdeal.Hand

end
-- ==== Proof.RefWalkRelu.lean ====
/-
  Between two layers the reference's line takes `max(·, 0)` of the layer's result.
-/
import proofs.«159954_j74448963108867_2_alg».proof.Proof.RefOps
import proofs.«159954_j74448963108867_2_alg».proof.Proof.Stages
import proofs.«159954_j74448963108867_2_alg».proof.Proof.RefWalkStages

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

set_option maxRecDepth 8192 in
set_option maxHeartbeats 4000000 in
theorem relu0_val (V : Valuation τ sig (Elt Ideal)) :
    after (relu0 (F := Ideal)) V (Proc.devRef .tc main_v49) = Cert.Stage.relu256 (V (Proc.devRef .tc main_v48)) := by
  after_results_simp
  rfl

set_option maxRecDepth 8192 in
set_option maxHeartbeats 4000000 in
theorem relu1_val (V : Valuation τ sig (Elt Ideal)) :
    after (relu1 (F := Ideal)) V (Proc.devRef .tc main_v67) = Cert.Stage.relu256 (V (Proc.devRef .tc main_v66)) := by
  after_results_simp
  rfl

set_option maxRecDepth 8192 in
set_option maxHeartbeats 4000000 in
theorem relu2_val (V : Valuation τ sig (Elt Ideal)) :
    after (relu2 (F := Ideal)) V (Proc.devRef .tc main_v85) = Cert.Stage.relu256 (V (Proc.devRef .tc main_v84)) := by
  after_results_simp
  rfl

end Cert.ReferenceIdeal.Hand

end
-- ==== Proof.RefRun.lean ====
/-
  The reference's run, read piece by piece.  Every buffer ends at what the line of operations leaves there, started
  from the launch contents.  The first pieces leave the edges' sources and targets, the node weights and the edges'
  norms of the launched edge table in buffers no later piece writes; every later piece reads them there, reads the
  weights and the bias from the arguments, which no piece writes, and reads the previous piece's result.  So the last
  buffer holds the four layers, with `max(·, 0)` between them, of the launched arguments.
-/
import proofs.«159954_j74448963108867_2_alg».proof.Proof.RefOps
import proofs.«159954_j74448963108867_2_alg».proof.Proof.Stages
import proofs.«159954_j74448963108867_2_alg».proof.Proof.RefWalkStages
import proofs.«159954_j74448963108867_2_alg».proof.Proof.RefWalkPrepA
import proofs.«159954_j74448963108867_2_alg».proof.Proof.RefWalkPrepB
import proofs.«159954_j74448963108867_2_alg».proof.Proof.RefWalkNorm
import proofs.«159954_j74448963108867_2_alg».proof.Proof.RefWalkL0
import proofs.«159954_j74448963108867_2_alg».proof.Proof.RefWalkL1
import proofs.«159954_j74448963108867_2_alg».proof.Proof.RefWalkL2
import proofs.«159954_j74448963108867_2_alg».proof.Proof.RefWalkL3
import proofs.«159954_j74448963108867_2_alg».proof.Proof.RefWalkRelu

noncomputable section

namespace Cert.ReferenceIdeal.Hand

open Cert.ReferenceIdeal Cert.ReferenceIdeal.Gen Idealize.ShloMosaic Idealize.ShloMosaic.TcCoe Idealize.SL.Sem Idealize.ShloMosaic.StableHlo

variable [hK : Cert.KernelIdeal.Facts] [hR : Cert.ReferenceIdeal.Facts]

/-! ## The contents at the cuts -/

section Cuts

variable (m : (ℓ : Loc nD τ sig) → Buf (Elt Ideal) ℓ) (c : Dev nD)

/-- The contents once the edge list, the node weights and the edges' norms are written. -/
def atNorm : Valuation τ sig (Elt Ideal) := after norm (after prepC (after prepB (after prepA (launchContents m c))))
def atL0 : Valuation τ sig (Elt Ideal) := after layer0 (atNorm m c)
def atR0 : Valuation τ sig (Elt Ideal) := after relu0 (atL0 m c)
def atL1 : Valuation τ sig (Elt Ideal) := after layer1 (atR0 m c)
def atR1 : Valuation τ sig (Elt Ideal) := after relu1 (atL1 m c)
def atL2 : Valuation τ sig (Elt Ideal) := after layer2 (atR1 m c)
def atR2 : Valuation τ sig (Elt Ideal) := after relu2 (atL2 m c)
def atL3 : Valuation τ sig (Elt Ideal) := after layer3 (atR2 m c)

/-- Two lines run one after the other leave what the second leaves from what the first left. -/
theorem after_pieces : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_pieces l₁ l₂]

/-- The whole line leaves what its pieces leave, one after the other. -/
theorem after_ops_eq : after (ops (F := Ideal)) (launchContents m c) = atL3 m c := by
  unfold atL3 atR2 atL2 atR1 atL1 atR0 atL0 atNorm ops
  simp only [after_pieces]

/-- The buffers the layers read from the arguments and from the first pieces. -/
abbrev carriedBufs : List (Ref sig .tc) :=
  [main_arg0, main_arg1, main_arg3, main_arg4, main_arg5, main_arg6, main_arg7, main_arg8, main_arg9, main_arg10, main_v3, main_v6, main_v31]

/-- What the layers read from the arguments and from the first pieces, at contents `V`: the launched arguments, and
    the sources, the targets and the norms of the launched edge table. -/
structure Carried (V : Valuation τ sig (Elt Ideal)) : Prop where
  a0 : V (Proc.devRef .tc main_arg0) = (m ((c.tc : Thread nD τ).loc main_arg0))
  a1 : V (Proc.devRef .tc main_arg1) = (m ((c.tc : Thread nD τ).loc main_arg1))
  a3 : V (Proc.devRef .tc main_arg3) = (m ((c.tc : Thread nD τ).loc main_arg3))
  a4 : V (Proc.devRef .tc main_arg4) = (m ((c.tc : Thread nD τ).loc main_arg4))
  a5 : V (Proc.devRef .tc main_arg5) = (m ((c.tc : Thread nD τ).loc main_arg5))
  a6 : V (Proc.devRef .tc main_arg6) = (m ((c.tc : Thread nD τ).loc main_arg6))
  a7 : V (Proc.devRef .tc main_arg7) = (m ((c.tc : Thread nD τ).loc main_arg7))
  a8 : V (Proc.devRef .tc main_arg8) = (m ((c.tc : Thread nD τ).loc main_arg8))
  a9 : V (Proc.devRef .tc main_arg9) = (m ((c.tc : Thread nD τ).loc main_arg9))
  a10 : V (Proc.devRef .tc main_arg10) = (m ((c.tc : Thread nD τ).loc main_arg10))
  src : V (Proc.devRef .tc main_v3) = Cert.Stage.srcOf (m ((c.tc : Thread nD τ).loc main_arg1))
  dst : V (Proc.devRef .tc main_v6) = Cert.Stage.dstOf (m ((c.tc : Thread nD τ).loc main_arg1))
  nrm : V (Proc.devRef .tc main_v31) = Cert.Stage.normOf (m ((c.tc : Thread nD τ).loc main_arg1))

/-- A piece that writes none of those buffers hands them on. -/
theorem Carried.step {V : Valuation τ sig (Elt Ideal)} (P : List (HloOp τ sig (Elt Ideal))) (W : List (Ref sig .tc))
    (keeps : ∀ b : Ref sig .tc, b ∉ W → after P V (Proc.devRef .tc b) = V (Proc.devRef .tc b))
    (hW : ∀ b ∈ carriedBufs, b ∉ W) (h : Carried m c V) : Carried m c (after P V) :=
  ⟨(keeps _ (hW main_arg0 (by decide))).trans h.a0,
   (keeps _ (hW main_arg1 (by decide))).trans h.a1,
   (keeps _ (hW main_arg3 (by decide))).trans h.a3,
   (keeps _ (hW main_arg4 (by decide))).trans h.a4,
   (keeps _ (hW main_arg5 (by decide))).trans h.a5,
   (keeps _ (hW main_arg6 (by decide))).trans h.a6,
   (keeps _ (hW main_arg7 (by decide))).trans h.a7,
   (keeps _ (hW main_arg8 (by decide))).trans h.a8,
   (keeps _ (hW main_arg9 (by decide))).trans h.a9,
   (keeps _ (hW main_arg10 (by decide))).trans h.a10,
   (keeps _ (hW main_v3 (by decide))).trans h.src,
   (keeps _ (hW main_v6 (by decide))).trans h.dst,
   (keeps _ (hW main_v31 (by decide))).trans h.nrm⟩

/-- After the first three pieces the arguments are as launched, and the sources, the targets and the norms are the
    launched edge table's. -/
theorem carried_atNorm : Carried m c (atNorm m c) := by
  have k : ∀ b : Ref sig .tc, b ∉ prepAW ∧ b ∉ prepBW ∧ b ∉ prepCW ∧ b ∉ normW →
      atNorm m c (Proc.devRef .tc b) = launchContents m c (Proc.devRef .tc b) := fun b hb =>
    (norm_keeps _ hb.2.2.2).trans ((prepC_keeps _ hb.2.2.1).trans ((prepB_keeps _ hb.2.1).trans (prepA_keeps _ hb.1)))
  have h3 : after prepC (after prepB (after prepA (launchContents m c))) (Proc.devRef .tc main_v3) = Cert.Stage.srcOf (m ((c.tc : Thread nD τ).loc main_arg1)) :=
    (prepC_keeps _ (by decide)).trans ((prepB_keeps _ (by decide)).trans (prepA_src _))
  have h6 : after prepC (after prepB (after prepA (launchContents m c))) (Proc.devRef .tc main_v6) = Cert.Stage.dstOf (m ((c.tc : Thread nD τ).loc main_arg1)) :=
    (prepC_keeps _ (by decide)).trans ((prepB_keeps _ (by decide)).trans (prepA_dst _))
  have h16 : after prepC (after prepB (after prepA (launchContents m c))) (Proc.devRef .tc main_v16) = Cert.Stage.disOf (m ((c.tc : Thread nD τ).loc main_arg1)) := by
    rw [prepBC_dis, Cert.Stage.disOf_eq]
    exact congrArg Cert.Stage.disAt (prepA_dst _)
  refine ⟨k main_arg0 (by decide), k main_arg1 (by decide), k main_arg3 (by decide), k main_arg4 (by decide), k main_arg5 (by decide), k main_arg6 (by decide), k main_arg7 (by decide), k main_arg8 (by decide), k main_arg9 (by decide), k main_arg10 (by decide), ?_, ?_, ?_⟩
  · exact (norm_keeps _ (by decide)).trans h3
  · exact (norm_keeps _ (by decide)).trans h6
  · unfold atNorm
    rw [norm_val, h3, h6, h16, Cert.Stage.normOf_eq]

/-! ## The layers -/

theorem atL0_val : atL0 m c (Proc.devRef .tc main_v48)
    = Cert.Stage.rAgg256 (Cert.Stage.dot0 (m ((c.tc : Thread nD τ).loc main_arg0)) (m ((c.tc : Thread nD τ).loc main_arg3))) (m ((c.tc : Thread nD τ).loc main_arg1)) (m ((c.tc : Thread nD τ).loc main_arg4)) := by
  have h := carried_atNorm m c
  unfold atL0
  rw [layer0_val, h.src, h.dst, h.nrm, h.a0, h.a3, h.a4, Cert.Stage.rAgg256_eq]
theorem carried_atL0 : Carried m c (atL0 m c) :=
  (carried_atNorm m c).step m c layer0 layer0W (fun _ hb => layer0_keeps _ hb) (by decide)

theorem atR0_val : atR0 m c (Proc.devRef .tc main_v49) = Cert.Stage.relu256 (atL0 m c (Proc.devRef .tc main_v48)) := by
  unfold atR0; rw [relu0_val]
theorem carried_atR0 : Carried m c (atR0 m c) :=
  (carried_atL0 m c).step m c relu0 relu0W (fun _ hb => relu0_keeps _ hb) (by decide)

theorem atL1_val : atL1 m c (Proc.devRef .tc main_v66)
    = Cert.Stage.rAgg256 (Cert.Stage.dot1 (atR0 m c (Proc.devRef .tc main_v49)) (m ((c.tc : Thread nD τ).loc main_arg5))) (m ((c.tc : Thread nD τ).loc main_arg1)) (m ((c.tc : Thread nD τ).loc main_arg6)) := by
  have h := carried_atR0 m c
  unfold atL1
  rw [layer1_val, h.src, h.dst, h.nrm, h.a5, h.a6, Cert.Stage.rAgg256_eq]
theorem carried_atL1 : Carried m c (atL1 m c) :=
  (carried_atR0 m c).step m c layer1 layer1W (fun _ hb => layer1_keeps _ hb) (by decide)

theorem atR1_val : atR1 m c (Proc.devRef .tc main_v67) = Cert.Stage.relu256 (atL1 m c (Proc.devRef .tc main_v66)) := by
  unfold atR1; rw [relu1_val]
theorem carried_atR1 : Carried m c (atR1 m c) :=
  (carried_atL1 m c).step m c relu1 relu1W (fun _ hb => relu1_keeps _ hb) (by decide)

theorem atL2_val : atL2 m c (Proc.devRef .tc main_v84)
    = Cert.Stage.rAgg256 (Cert.Stage.dot1 (atR1 m c (Proc.devRef .tc main_v67)) (m ((c.tc : Thread nD τ).loc main_arg7))) (m ((c.tc : Thread nD τ).loc main_arg1)) (m ((c.tc : Thread nD τ).loc main_arg8)) := by
  have h := carried_atR1 m c
  unfold atL2
  rw [layer2_val, h.src, h.dst, h.nrm, h.a7, h.a8, Cert.Stage.rAgg256_eq]
theorem carried_atL2 : Carried m c (atL2 m c) :=
  (carried_atR1 m c).step m c layer2 layer2W (fun _ hb => layer2_keeps _ hb) (by decide)

theorem atR2_val : atR2 m c (Proc.devRef .tc main_v85) = Cert.Stage.relu256 (atL2 m c (Proc.devRef .tc main_v84)) := by
  unfold atR2; rw [relu2_val]
theorem carried_atR2 : Carried m c (atR2 m c) :=
  (carried_atL2 m c).step m c relu2 relu2W (fun _ hb => relu2_keeps _ hb) (by decide)

theorem atL3_val : atL3 m c (Proc.devRef .tc main_v102)
    = Cert.Stage.rAgg128 (Cert.Stage.dot3 (atR2 m c (Proc.devRef .tc main_v85)) (m ((c.tc : Thread nD τ).loc main_arg9))) (m ((c.tc : Thread nD τ).loc main_arg1)) (m ((c.tc : Thread nD τ).loc main_arg10)) := by
  have h := carried_atR2 m c
  unfold atL3
  rw [layer3_val, h.src, h.dst, h.nrm, h.a9, h.a10, Cert.Stage.rAgg128_eq]

/-- The last buffer holds the reference's result of the launched arguments. -/
theorem after_ops_result : after (ops (F := Ideal)) (launchContents m c) (Proc.devRef .tc main_v102)
    = Cert.Stage.rOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_ops_eq, atL3_val, atR2_val, atL2_val, atR1_val, atL1_val, atR0_val, atL0_val]
  rfl

/-- No piece writes an argument. -/
theorem after_ops_arg (b : Ref sig .tc)
    (hb : b ∉ prepAW ∧ b ∉ prepBW ∧ b ∉ prepCW ∧ b ∉ normW ∧ b ∉ layer0W ∧ b ∉ relu0W ∧ b ∉ layer1W ∧ b ∉ relu1W ∧ b ∉ layer2W
      ∧ b ∉ relu2W ∧ b ∉ layer3W) :
    after (ops (F := Ideal)) (launchContents m c) (Proc.devRef .tc b) = launchContents m c (Proc.devRef .tc b) := by
  rw [after_ops_eq]
  unfold atL3 atR2 atL2 atR1 atL1 atR0 atL0 atNorm
  rw [layer3_keeps _ hb.2.2.2.2.2.2.2.2.2.2, relu2_keeps _ hb.2.2.2.2.2.2.2.2.2.1, layer2_keeps _ hb.2.2.2.2.2.2.2.2.1,
    relu1_keeps _ hb.2.2.2.2.2.2.2.1, layer1_keeps _ hb.2.2.2.2.2.2.1, relu0_keeps _ hb.2.2.2.2.2.1, layer0_keeps _ hb.2.2.2.2.1,
    norm_keeps _ hb.2.2.2.1, prepC_keeps _ hb.2.2.1, prepB_keeps _ hb.2.1, prepA_keeps _ hb.1]

end Cuts

/-! ## The run -/

/-- On every device, from any memory with zero counters: every weakly fair execution of the reference terminates with
    the result buffer at the four layers of the launched arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
          = Cert.Stage.rOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v102).trans (after_ops_result m c),
      (h c main_arg0).trans (after_ops_arg m c main_arg0 (by decide)),
      (h c main_arg1).trans (after_ops_arg m c main_arg1 (by decide)),
      (h c main_arg2).trans (after_ops_arg m c main_arg2 (by decide)),
      (h c main_arg3).trans (after_ops_arg m c main_arg3 (by decide)),
      (h c main_arg4).trans (after_ops_arg m c main_arg4 (by decide)),
      (h c main_arg5).trans (after_ops_arg m c main_arg5 (by decide)),
      (h c main_arg6).trans (after_ops_arg m c main_arg6 (by decide)),
      (h c main_arg7).trans (after_ops_arg m c main_arg7 (by decide)),
      (h c main_arg8).trans (after_ops_arg m c main_arg8 (by decide)),
      (h c main_arg9).trans (after_ops_arg m c main_arg9 (by decide)),
      (h c main_arg10).trans (after_ops_arg m c main_arg10 (by decide))⟩)
    (run_after m ρ)

end Cert.ReferenceIdeal.Hand

end
-- ==== Proof.ReadingLayout.lean ====
/-
  The layout stages read at an index.

  A per-node value laid out as a column reads, at node n and feature c, the value at n; a per-feature value laid out
  as a row reads the value at c; a per-edge value laid out as a column reads the value at the edge; the zero array
  reads zero everywhere.  Each layout is two broadcasts in a row: the first adds an axis of extent one, the second
  repeats along it.
-/
import proofs.«159954_j74448963108867_2_alg».proof.Proof.Stages
import Idealize.ShloMosaic.Lib.ValueIdx
import Idealize.ShloMosaic.Lib.Pipeline.Value
import Idealize.ShloMosaic.Lib.IdealHost
import Idealize.ShloMosaic.PureOps.Ideal.Laws

noncomputable section
namespace Cert.Stage
open Idealize.ShloMosaic Idealize.ShloMosaic.ValueIdx
open Cert.KernelIdeal Cert.KernelIdeal.Facts₀ Cert.KernelIdeal.Facts

variable [hK : Cert.KernelIdeal.Facts] [hR : Cert.ReferenceIdeal.Facts]

/-- A per-node column at (n, c) is the node's value. -/
theorem colOf256_apply (d : FVec Ideal S50000 .f32) (n : Fin 50000) (c : Fin 256) :
    colOf256 d (ix2 n c) = d (ix1 n) := by
  unfold colOf256
  refine (broadcastInDim_apply _ _ _ (ix2 n c) (ix2 n (0 : Fin 1)) ?_).trans ?_
  · intro a
    match a with
    | ⟨0, _⟩ => rfl
    | ⟨1, _⟩ => rfl
  · refine broadcastInDim_apply _ _ _ (ix2 n (0 : Fin 1)) (ix1 n) ?_
    intro a
    match a with
    | ⟨0, _⟩ => rfl

/-- The same with 128 features. -/
theorem colOf128_apply (d : FVec Ideal S50000 .f32) (n : Fin 50000) (c : Fin 128) :
    colOf128 d (ix2 n c) = d (ix1 n) := by
  unfold colOf128
  refine (broadcastInDim_apply _ _ _ (ix2 n c) (ix2 n (0 : Fin 1)) ?_).trans ?_
  · intro a
    match a with
    | ⟨0, _⟩ => rfl
    | ⟨1, _⟩ => rfl
  · refine broadcastInDim_apply _ _ _ (ix2 n (0 : Fin 1)) (ix1 n) ?_
    intro a
    match a with
    | ⟨0, _⟩ => rfl

/-- A per-feature row at (n, c) is the feature's value. -/
theorem rowOf256_apply (b : FVec Ideal S256 .f32) (n : Fin 50000) (c : Fin 256) :
    rowOf256 b (ix2 n c) = b (ix1 c) := by
  unfold rowOf256
  refine (broadcastInDim_apply _ _ _ (ix2 n c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

/-- The same with 128 features. -/
theorem rowOf128_apply (b : FVec Ideal S128 .f32) (n : Fin 50000) (c : Fin 128) :
    rowOf128 b (ix2 n c) = b (ix1 c) := by
  unfold rowOf128
  refine (broadcastInDim_apply _ _ _ (ix2 n c) (ix2 (0 : Fin 1) c) ?_).trans ?_
  · intro a
    match a with
    | ⟨0, _⟩ => rfl
    | ⟨1, _⟩ => rfl
  · refine broadcastInDim_apply _ _ _ (ix2 (0 : Fin 1) c) (ix1 c) ?_
    intro a
    match a with
    | ⟨0, _⟩ => rfl

/-- A per-edge column at (e, c) is the edge's value. -/
theorem ecolOf256_apply (v : FVec Ideal S850000 .f32) (n : Fin 850000) (c : Fin 256) :
    ecolOf256 v (ix2 n c) = v (ix1 n) := by
  unfold ecolOf256
  refine (broadcastInDim_apply _ _ _ (ix2 n c) (ix2 n (0 : Fin 1)) ?_).trans ?_
  · intro a
    match a with
    | ⟨0, _⟩ => rfl
    | ⟨1, _⟩ => rfl
  · refine broadcastInDim_apply _ _ _ (ix2 n (0 : Fin 1)) (ix1 n) ?_
    intro a
    match a with
    | ⟨0, _⟩ => rfl

/-- The same with 128 features. -/
theorem ecolOf128_apply (v : FVec Ideal S850000 .f32) (n : Fin 850000) (c : Fin 128) :
    ecolOf128 v (ix2 n c) = v (ix1 n) := by
  unfold ecolOf128
  refine (broadcastInDim_apply _ _ _ (ix2 n c) (ix2 n (0 : Fin 1)) ?_).trans ?_
  · intro a
    match a with
    | ⟨0, _⟩ => rfl
    | ⟨1, _⟩ => rfl
  · refine broadcastInDim_apply _ _ _ (ix2 n (0 : Fin 1)) (ix1 n) ?_
    intro a
    match a with
    | ⟨0, _⟩ => rfl

/-- The zero array reads zero. -/
theorem zeros256_apply (i : S50000x256.Idx) : zeros256 i = 0 := by
  unfold zeros256
  refine (broadcastInDim_scalar_apply _ _ i).trans ?_
  exact Ideal.ofBits_zero_f32

/-- The same with 128 features. -/
theorem zeros128_apply (i : S50000x128.Idx) : zeros128 i = 0 := by
  unfold zeros128
  refine (broadcastInDim_scalar_apply _ _ i).trans ?_
  exact Ideal.ofBits_zero_f32

end Cert.Stage
end
-- ==== Proof.LibScatterRows.lean ====
/-
  A row scatter-add over the extended reals, read at an index.

  The scatter has an N-by-F operand, E indices (an E-by-1 table) and an E-by-F update: update row e is added
  into the operand row named by index e.  The index is read as a signed number and is not clamped; a row
  whose index is outside [0, N) is dropped.  Read at (n, q) the result is therefore the operand's entry plus
  the sum of update(e, q) over exactly the rows e whose index is n.  The sizes and the index width are
  parameters; the dimension numbers are those of adding whole rows (the update's second axis is the window,
  the operand's first axis is the scattered one).
-/
import Idealize.ShloMosaic.PureOps.Ideal.Laws
import Idealize.ShloMosaic.Lib.ValueIdx

noncomputable section
namespace LibScatterRows
open Idealize.ShloMosaic Idealize.ShloMosaic.ValueIdx

/-- The dimension numbers of a scatter of whole rows: update axis 1 is the window, operand axis 0 is inserted
    and is the axis the one index component names, and the index table's second axis holds that component. -/
abbrev dims (N E Fd : ℕ) (wf : ScatterDims.WF ⟨2, ![N, Fd]⟩ ⟨2, ![E, 1]⟩ ⟨2, ![E, Fd]⟩ [1] [0] [0] 1) :
    ScatterDims ⟨2, ![N, Fd]⟩ ⟨2, ![E, 1]⟩ ⟨2, ![E, Fd]⟩ where
  updateWindowDims := [1]
  insertedWindowDims := [0]
  scatterDimsToOperandDims := [0]
  indexVectorDim := 1
  wf := wf

variable {N E Fd w : ℕ} (wf : ScatterDims.WF ⟨2, ![N, Fd]⟩ ⟨2, ![E, 1]⟩ ⟨2, ![E, Fd]⟩ [1] [0] [0] 1)

/-- On the scattered axis the window contributes nothing. -/
theorem window0 (j : (⟨2, ![E, Fd]⟩ : Shape).Idx) : (dims N E Fd wf).window j 0 = 0 := by
  unfold ScatterDims.window
  rw [dif_neg]
  show (0 : Fin 2) ∉ ((List.finRange 2).filter (· ∉ ([0] : List (Fin 2))))
  decide

/-- On the row axis the window coordinate is the update's column. -/
theorem window1 (j : (⟨2, ![E, Fd]⟩ : Shape).Idx) : (dims N E Fd wf).window j 1 = (j 1).val := by
  have h1 : (1 : Fin (⟨2, ![N, Fd]⟩ : Shape).rank) ∈ (dims N E Fd wf).sKept := by
    show (1 : Fin 2) ∈ ((List.finRange 2).filter (· ∉ ([0] : List (Fin 2))))
    decide
  unfold ScatterDims.window
  rw [dif_pos h1]
  rfl

/-- The column axis has no index component: its start is zero. -/
theorem start1 (j : (⟨2, ![E, Fd]⟩ : Shape).Idx) (idx : IVec ⟨2, ![E, 1]⟩ w) : (dims N E Fd wf).start j idx 1 = 0 := by
  unfold ScatterDims.start
  rw [dif_neg]
  show (1 : Fin 2) ∉ ([0] : List (Fin 2))
  decide

/-- The start on the scattered axis is the index of the update's row, read signed. -/
theorem start0 (j : (⟨2, ![E, Fd]⟩ : Shape).Idx) (idx : IVec ⟨2, ![E, 1]⟩ w) :
    (dims N E Fd wf).start j idx 0 = (idx (ix2 (j 0) (0 : Fin 1))).toInt := by
  have h0 : (0 : Fin (⟨2, ![N, Fd]⟩ : Shape).rank) ∈ (dims N E Fd wf).scatterDimsToOperandDims := by
    show (0 : Fin 2) ∈ ([0] : List (Fin 2))
    decide
  unfold ScatterDims.start
  rw [dif_pos h0]
  congr 2
  funext b
  refine Fin.ext ?_
  match b with
  | ⟨0, _⟩ => rfl
  | ⟨1, _⟩ => rfl

/-- The same at an update entry given by its coordinates. -/
theorem start0' (idx : IVec ⟨2, ![E, 1]⟩ w) (e : Fin E) (q' : Fin Fd) :
    (dims N E Fd wf).start (ix2 e q') idx 0 = (idx (ix2 e (0 : Fin 1))).toInt := start0 wf (ix2 e q') idx

/-- The same at an update entry given by its coordinates. -/
theorem window1' (e : Fin E) (q' : Fin Fd) : (dims N E Fd wf).window (ix2 e q') 1 = q'.val := window1 wf (ix2 e q')

/-- An update entry (e, q') lands on the operand entry (n, q) exactly when the index read signed at row e is n
    and the columns agree. -/
theorem resultIdx?_eq_some_iff (idx : IVec ⟨2, ![E, 1]⟩ w) (e : Fin E) (q' : Fin Fd) (n : Fin N) (q : Fin Fd) :
    (dims N E Fd wf).resultIdx? (ix2 e q') idx = some (ix2 n q)
      ↔ (idx (ix2 e (0 : Fin 1))).toInt = (n.val : Int) ∧ q' = q := by
  have hs0 := start0' wf idx e q'
  have hs1 := start1 wf (ix2 e q') idx
  have hw0 := window0 wf (ix2 e q')
  have hw1 := window1' wf e q'
  unfold ScatterDims.resultIdx?
  constructor
  · intro h
    split at h
    · have h' := Option.some.inj h
      have e0 : ((dims N E Fd wf).start (ix2 e q') idx 0 + ((dims N E Fd wf).window (ix2 e q') 0 : Nat)).toNat = n.val :=
        congrArg (fun f => (f 0).val) h'
      have e1 : ((dims N E Fd wf).start (ix2 e q') idx 1 + ((dims N E Fd wf).window (ix2 e q') 1 : Nat)).toNat = q.val :=
        congrArg (fun f => (f 1).val) h'
      rename_i hall
      have hb := (hall 0).1
      rw [hs0, hw0] at e0 hb
      rw [hs1, hw1] at e1
      exact ⟨by omega, Fin.ext (by omega)⟩
    · exact absurd h (by simp)
  · rintro ⟨h0, rfl⟩
    have hall : ∀ a, 0 ≤ (dims N E Fd wf).start (ix2 e q') idx a + ((dims N E Fd wf).window (ix2 e q') a : Nat)
        ∧ (dims N E Fd wf).start (ix2 e q') idx a + ((dims N E Fd wf).window (ix2 e q') a : Nat) < ((⟨2, ![N, Fd]⟩ : Shape).size a : Nat) := by
      intro a
      match a with
      | ⟨0, _⟩ =>
        show 0 ≤ (dims N E Fd wf).start (ix2 e q') idx 0 + ((dims N E Fd wf).window (ix2 e q') 0 : Nat) ∧ (dims N E Fd wf).start (ix2 e q') idx 0 + ((dims N E Fd wf).window (ix2 e q') 0 : Nat) < (N : Int)
        rw [hs0, hw0, h0]
        have := n.isLt
        omega
      | ⟨1, _⟩ =>
        show 0 ≤ (dims N E Fd wf).start (ix2 e q') idx 1 + ((dims N E Fd wf).window (ix2 e q') 1 : Nat) ∧ (dims N E Fd wf).start (ix2 e q') idx 1 + ((dims N E Fd wf).window (ix2 e q') 1 : Nat) < (Fd : Int)
        rw [hs1, hw1]
        have := q'.isLt
        omega
    rw [dif_pos hall]
    congr 1
    funext a
    refine Fin.ext ?_
    match a with
    | ⟨0, _⟩ =>
      show ((dims N E Fd wf).start (ix2 e q') idx 0 + ((dims N E Fd wf).window (ix2 e q') 0 : Nat)).toNat = n.val
      rw [hs0, hw0, h0]; omega
    | ⟨1, _⟩ =>
      show ((dims N E Fd wf).start (ix2 e q') idx 1 + ((dims N E Fd wf).window (ix2 e q') 1 : Nat)).toNat = q'.val
      rw [hs1, hw1]
      omega

/-- THE ROW SCATTER-ADD READ AT (n, q): the operand's entry plus the sum, over the update rows e whose index
    (read signed, not clamped) is n, of the update's entry (e, q).  Rows whose index is outside [0, N) add to
    nothing. -/
theorem scatterAdd_rows_apply (x : (⟨2, ![N, Fd]⟩ : Shape).Idx → EReal) (idx : IVec ⟨2, ![E, 1]⟩ w)
    (upd : (⟨2, ![E, Fd]⟩ : Shape).Idx → EReal) (n : Fin N) (q : Fin Fd) :
    Ideal.hostScatterAdd (dims N E Fd wf) x idx upd (ix2 n q)
      = x (ix2 n q) + ∑ e ∈ Finset.univ.filter (fun e : Fin E => (idx (ix2 e (0 : Fin 1))).toInt = (n.val : Int)),
          upd (ix2 e q) := by
  unfold Ideal.hostScatterAdd
  congr 1
  rw [Finset.sum_filter, sum_idx2, Finset.sum_filter]
  refine Finset.sum_congr rfl fun e _ => ?_
  by_cases h : (idx (ix2 e (0 : Fin 1))).toInt = (n.val : Int)
  · rw [if_pos h, Finset.sum_eq_single q]
    · rw [if_pos ((resultIdx?_eq_some_iff wf idx e q n q).mpr ⟨h, rfl⟩)]
    · intro q' _ hne
      rw [if_neg (fun hh => hne ((resultIdx?_eq_some_iff wf idx e q' n q).mp hh).2)]
    · intro hq; exact absurd (Finset.mem_univ q) hq
  · rw [if_neg h]
    refine Finset.sum_eq_zero fun q' _ => ?_
    rw [if_neg (fun hh => h ((resultIdx?_eq_some_iff wf idx e q' n q).mp hh).1)]

end LibScatterRows
end
-- ==== Proof.LibGatherRows.lean ====
/-
  A gather of whole rows, read at an index.

  `x[idx]` for a table x of N rows by F columns and E row numbers (an E-by-1 table of indices): result row e is
  the row of x named by index e.  The index is read as a signed number and clamped into [0, N − 1] (a negative
  index reads row 0, an index past the end reads the last row).  Read at (e, q) the result is x at (clamped
  index of e, q).  The sizes, the element type and the index width are parameters.
-/
import Idealize.ShloMosaic.Lib.ValueIdx

noncomputable section
namespace LibGatherRows
open Idealize.ShloMosaic Idealize.ShloMosaic.ValueIdx

variable {α : Type}

/-- The dimension numbers of a gather of whole rows: result axis 1 is the offset axis (the row's columns), operand
    axis 0 is collapsed and is the axis the one index component names, the index table's second axis holds that
    component, and a slice is one row. -/
abbrev dims (N E Fd : ℕ) (wf : GatherDims.WF ⟨2, ![N, Fd]⟩ ⟨2, ![E, 1]⟩ ⟨2, ![E, Fd]⟩ [1] [0] [] [0] [] 1 ![1, Fd]) :
    GatherDims ⟨2, ![N, Fd]⟩ ⟨2, ![E, 1]⟩ ⟨2, ![E, Fd]⟩ where
  offsetDims := [1]
  collapsedSliceDims := [0]
  operandBatchingDims := []
  startIndicesBatchingDims := []
  startIndexMap := [0]
  indexVectorDim := 1
  sliceSizes := ![1, Fd]
  wf := wf

variable {N E Fd w : ℕ} (wf : GatherDims.WF ⟨2, ![N, Fd]⟩ ⟨2, ![E, 1]⟩ ⟨2, ![E, Fd]⟩ [1] [0] [] [0] [] 1 ![1, Fd])

/-- The row a result row reads: the index of the row, read signed and clamped into [0, N − 1]. -/
def row (hN : 0 < N) (idx : IVec ⟨2, ![E, 1]⟩ w) (e : Fin E) : Fin N :=
  ⟨min (idx (ix2 e (0 : Fin 1))).toInt.toNat (N - 1), by omega⟩

/-- THE ROW GATHER READ AT (e, q): the table at the clamped index of row e, column q. -/
theorem gather_rows_apply (hN : 0 < N) (x : (⟨2, ![N, Fd]⟩ : Shape).Idx → α) (idx : IVec ⟨2, ![E, 1]⟩ w)
    (e : Fin E) (q : Fin Fd) :
    Host.gather (dims N E Fd wf) x idx (ix2 e q) = x (ix2 (row hN idx e) q) := by
  unfold Host.gather
  congr 1
  funext a
  refine Fin.ext ?_
  match a with
  | ⟨0, _⟩ =>
    show (dims N E Fd wf).start (ix2 e q) idx 0 + (dims N E Fd wf).batchCoord (ix2 e q) 0 + (dims N E Fd wf).offCoord (ix2 e q) 0 = _
    have hk : (0 : Fin (⟨2, ![N, Fd]⟩ : Shape).rank) ∉ (dims N E Fd wf).sKept := by
      show (0 : Fin 2) ∉ ((List.finRange 2).filter (· ∉ ([0] : List (Fin 2))))
      decide
    rw [GatherDims.batchCoord_eq_zero _ _ _ List.not_mem_nil, GatherDims.offCoord_eq_zero _ _ _ hk]
    simp only [Nat.add_zero]
    have h0 : (0 : Fin (⟨2, ![N, Fd]⟩ : Shape).rank) ∈ (dims N E Fd wf).startIndexMap := by
      show (0 : Fin 2) ∈ ([0] : List (Fin 2))
      decide
    unfold GatherDims.start
    rw [dif_pos h0]
    have hsi : (dims N E Fd wf).siIdx (ix2 e q) ⟨List.idxOf (0 : Fin 2) (dims N E Fd wf).startIndexMap,
        List.idxOf_lt_length_iff.2 h0⟩ = ix2 e (0 : Fin 1) := by
      funext b; refine Fin.ext ?_
      match b with
      | ⟨0, _⟩ => rfl
      | ⟨1, _⟩ => rfl
    rw [hsi]
    rfl
  | ⟨1, _⟩ =>
    show (dims N E Fd wf).start (ix2 e q) idx 1 + (dims N E Fd wf).batchCoord (ix2 e q) 1 + (dims N E Fd wf).offCoord (ix2 e q) 1 = q.val
    have hk : (1 : Fin (⟨2, ![N, Fd]⟩ : Shape).rank) ∈ (dims N E Fd wf).sKept := by
      show (1 : Fin 2) ∈ ((List.finRange 2).filter (· ∉ ([0] : List (Fin 2))))
      decide
    have h1 : (1 : Fin (⟨2, ![N, Fd]⟩ : Shape).rank) ∉ (dims N E Fd wf).startIndexMap := by
      show (1 : Fin 2) ∉ ([0] : List (Fin 2))
      decide
    rw [GatherDims.batchCoord_eq_zero _ _ _ List.not_mem_nil]
    unfold GatherDims.start GatherDims.offCoord
    rw [dif_neg h1, dif_pos hk]
    simp only [Nat.zero_add, Nat.add_zero]
    rfl

end LibGatherRows
end
-- ==== Proof.LibGatherEntries.lean ====
/-
  A gather of single entries, read at an index.

  `x[idx]` for a vector x of length N and E positions (an E-by-1 table of indices): result entry e is the entry of
  x named by index e.  The index is read as a signed number and clamped into [0, N − 1] (a negative index reads
  entry 0, an index past the end reads the last entry).  Read at e the result is x at the clamped index of e.  The
  sizes, the element type and the index width are parameters.
-/
import Idealize.ShloMosaic.Lib.ValueIdx

noncomputable section
namespace LibGatherEntries
open Idealize.ShloMosaic Idealize.ShloMosaic.ValueIdx

variable {α : Type}

/-- The dimension numbers of a gather of single entries of a vector: no offset axis, the operand's one axis is
    collapsed and is the axis the one index component names, the index table's second axis holds that component,
    and a slice is one entry. -/
abbrev dims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable {N E w : ℕ} (wf : GatherDims.WF ⟨1, ![N]⟩ ⟨2, ![E, 1]⟩ ⟨1, ![E]⟩ [] [0] [] [0] [] 1 ![1])

/-- The entry a result entry reads: the index of the position, read signed and clamped into [0, N − 1]. -/
def pos (hN : 0 < N) (idx : IVec ⟨2, ![E, 1]⟩ w) (e : Fin E) : Fin N :=
  ⟨min (idx (ix2 e (0 : Fin 1))).toInt.toNat (N - 1), by omega⟩

/-- THE ENTRY GATHER READ AT e: the vector at the clamped index of position e. -/
theorem gather_entries_apply (hN : 0 < N) (x : (⟨1, ![N]⟩ : Shape).Idx → α) (idx : IVec ⟨2, ![E, 1]⟩ w) (e : Fin E) :
    Host.gather (dims N E wf) x idx (ix1 e) = x (ix1 (pos hN idx e)) := by
  unfold Host.gather
  congr 1
  funext a
  refine Fin.ext ?_
  match a with
  | ⟨0, _⟩ =>
    show (dims N E wf).start (ix1 e) idx 0 + (dims N E wf).batchCoord (ix1 e) 0 + (dims N E wf).offCoord (ix1 e) 0 = _
    have hk : (0 : Fin (⟨1, ![N]⟩ : Shape).rank) ∉ (dims N E wf).sKept := by
      show (0 : Fin 1) ∉ ((List.finRange 1).filter (· ∉ ([0] : List (Fin 1))))
      decide
    rw [GatherDims.batchCoord_eq_zero _ _ _ List.not_mem_nil, GatherDims.offCoord_eq_zero _ _ _ hk]
    simp only [Nat.add_zero]
    have h0 : (0 : Fin (⟨1, ![N]⟩ : Shape).rank) ∈ (dims N E wf).startIndexMap := by
      show (0 : Fin 1) ∈ ([0] : List (Fin 1))
      decide
    unfold GatherDims.start
    rw [dif_pos h0]
    have hsi : (dims N E wf).siIdx (ix1 e) ⟨List.idxOf (0 : Fin 1) (dims N E wf).startIndexMap,
        List.idxOf_lt_length_iff.2 h0⟩ = ix2 e (0 : Fin 1) := by
      funext b; refine Fin.ext ?_
      match b with
      | ⟨0, _⟩ => rfl
      | ⟨1, _⟩ => rfl
    rw [hsi]
    rfl

end LibGatherEntries
end
-- ==== Proof.ReadingLayers.lean ====
/-
  The layer stages read at an index.

  The aggregation of a layer is a scatter-add of gathered rows: read at node n and feature c it sums, over the edges
  whose target (read signed) is n, the row of the edge's source (read signed, wrapped, clamped into the table).  The
  kernel program multiplies that sum by the node's weight; the reference multiplies each message by the edge's norm,
  the weight at the source times the weight at the wrapped and clamped target.  The reference's product of a layer
  is the plain sum over the contraction index.
-/
import proofs.«159954_j74448963108867_2_alg».proof.Proof.Stages
import proofs.«159954_j74448963108867_2_alg».proof.Proof.ReadingLayout
import proofs.«159954_j74448963108867_2_alg».proof.Proof.LibScatterRows
import proofs.«159954_j74448963108867_2_alg».proof.Proof.LibGatherRows
import proofs.«159954_j74448963108867_2_alg».proof.Proof.LibGatherEntries
import proofs.«159954_j74448963108867_2_alg».proof.Proof.LibMatmulNN
import Idealize.ShloMosaic.Lib.ValueIdx
import Idealize.ShloMosaic.PureOps.Ideal.Laws

noncomputable section
namespace Cert.Stage
open Idealize.ShloMosaic Idealize.ShloMosaic.ValueIdx
open Cert.KernelIdeal Cert.KernelIdeal.Facts₀ Cert.KernelIdeal.Facts

variable [hK : Cert.KernelIdeal.Facts] [hR : Cert.ReferenceIdeal.Facts]

/-- Over the extended reals the host's scatter-add is the exact sum: the operand's entry plus the updates that land
    on it. -/
theorem hostScatterAdd_apply {s si su : Shape} {φ : FTy} {w : ℕ} (d : ScatterDims s si su) (x : FVec Ideal s φ)
    (idx : IVec si w) (upd : FVec Ideal su φ) (i : s.Idx) :
    Host.scatterAdd d x idx upd i = Ideal.hostScatterAdd d x idx upd i := rfl

/-- Over the extended reals the host's product is the plain contraction sum. -/
theorem hostDot_apply {sl sr so : Shape} {φ₁ φ₂ : FTy} (d : DotDims sl sr so) (lhs : FVec Ideal sl φ₁)
    (rhs : FVec Ideal sr φ₂) (j : so.Idx) :
    Host.dotGeneral d none lhs rhs j = ∑ k : d.contr.Idx, lhs (d.lhsIdx j k) * rhs (d.rhsIdx j k) :=
  Ideal.dotGeneral_apply d none .single lhs rhs j

/-- The entry gather read at e: the vector at the clamped signed index of e. -/
theorem gathE_apply (v : FVec Ideal S50000 .f32) (idx : IVec S850000x1 32) (e : Fin 850000) :
    Host.gather Cert.ReferenceIdeal.gather_S50000_S850000x1_S850000_n_0_n_n_0_1_1 v idx (ix1 e)
      = v (ix1 (LibGatherEntries.pos (N := 50000) (by decide) idx e)) :=
  LibGatherEntries.gather_entries_apply (N := 50000) (E := 850000)
    Cert.ReferenceIdeal.Facts₀.gather_S50000_S850000x1_S850000_n_0_n_n_0_1_1_wf (by decide) v idx e

/-- An edge's norm: the weight at its source times the weight at its wrapped and clamped target. -/
theorem normOf_apply (x1 : IVec S2x800000 32) (e : Fin 850000) :
    normOf x1 (ix1 e) = disOf x1 (ix1 (LibGatherRows.row (N := 50000) (by decide) (srcTab x1) e)) * disOf x1 (ix1 (LibGatherEntries.pos (N := 50000) (by decide) (dstTabW x1) e)) := by
  unfold normOf
  rw [mulf_apply, gathE_apply, gathE_apply]
  rfl

/-- The row scatter-add into the zero array, read at (n, c): zero plus the update rows whose signed index is n. -/
theorem scat256_apply (idx : IVec S850000x1 32) (u : FVec Ideal S850000x256 .f32) (n : Fin 50000) (c : Fin 256) :
    Host.scatterAdd scatter_S50000x256_S850000x1_S850000x256_1_0_0_1 zeros256 idx u (ix2 n c)
      = 0 + ∑ e ∈ Finset.univ.filter (fun e : Fin 850000 => (idx (ix2 e (0 : Fin 1))).toInt = (n.val : Int)), u (ix2 e c) :=
  (hostScatterAdd_apply scatter_S50000x256_S850000x1_S850000x256_1_0_0_1 zeros256 idx u (ix2 n c)).trans
    ((LibScatterRows.scatterAdd_rows_apply (N := 50000) (E := 850000) (Fd := 256)
      scatter_S50000x256_S850000x1_S850000x256_1_0_0_1_wf zeros256 idx u n c).trans (by rw [zeros256_apply]))

/-- The row gather read at (e, c): the table at the clamped signed index of e. -/
theorem gath256_apply (h : FVec Ideal S50000x256 .f32) (idx : IVec S850000x1 32) (e : Fin 850000) (c : Fin 256) :
    Host.gather gather_S50000x256_S850000x1_S850000x256_1_0_n_n_0_1_1256 h idx (ix2 e c)
      = h (ix2 (LibGatherRows.row (N := 50000) (by decide) idx e) c) :=
  LibGatherRows.gather_rows_apply (N := 50000) (E := 850000) (Fd := 256)
    gather_S50000x256_S850000x1_S850000x256_1_0_n_n_0_1_1256_wf (by decide) h idx e c

/-- The kernel program's aggregation at (n, c): the node's weight times the sum of the source rows of the edges
    that point at n, plus the bias. -/
theorem kAgg256_apply (h : FVec Ideal S50000x256 .f32) (x1 : IVec S2x800000 32) (b : FVec Ideal S256 .f32)
    (n : Fin 50000) (c : Fin 256) :
    kAgg256 h x1 b (ix2 n c)
      = disOf x1 (ix1 n) * (0 + ∑ e ∈ Finset.univ.filter (fun e : Fin 850000 => (dstTab x1 (ix2 e (0 : Fin 1))).toInt = (n.val : Int)),
          h (ix2 (LibGatherRows.row (N := 50000) (by decide) (srcTab x1) e) c)) + b (ix1 c) := by
  unfold kAgg256
  rw [addf_apply, mulf_apply, colOf256_apply, rowOf256_apply, scat256_apply]
  refine congrArg (fun t => disOf x1 (ix1 n) * (0 + t) + b (ix1 c)) ?_
  exact Finset.sum_congr rfl fun e _ => gath256_apply h (srcTab x1) e c

/-- The reference's aggregation at (n, c): the sum, over the edges that point at n, of the source row times the
    edge's norm, plus the bias. -/
theorem rAgg256_apply (h : FVec Ideal S50000x256 .f32) (x1 : IVec S2x800000 32) (b : FVec Ideal S256 .f32)
    (n : Fin 50000) (c : Fin 256) :
    rAgg256 h x1 b (ix2 n c)
      = (0 + ∑ e ∈ Finset.univ.filter (fun e : Fin 850000 => (dstTab x1 (ix2 e (0 : Fin 1))).toInt = (n.val : Int)),
          h (ix2 (LibGatherRows.row (N := 50000) (by decide) (srcTab x1) e) c)
            * (disOf x1 (ix1 (LibGatherRows.row (N := 50000) (by decide) (srcTab x1) e))
              * disOf x1 (ix1 (LibGatherEntries.pos (N := 50000) (by decide) (dstTabW x1) e)))) + b (ix1 c) := by
  unfold rAgg256
  rw [addf_apply, rowOf256_apply, scat256_apply]
  refine congrArg (fun t => (0 + t) + b (ix1 c)) ?_
  refine Finset.sum_congr rfl fun e _ => ?_
  rw [mulf_apply, gath256_apply, ecolOf256_apply, normOf_apply]

/-- The kernel program's row scaling at (r, k). -/
theorem kScale256_apply (x : FVec Ideal S50000x256 .f32) (x1 : IVec S2x800000 32) (r : Fin 50000) (k : Fin 256) :
    kScale256 x x1 (ix2 r k) = x (ix2 r k) * disOf x1 (ix1 r) := by
  unfold kScale256
  rw [mulf_apply, colOf256_apply]

/-- The row scatter-add into the zero array, read at (n, c): zero plus the update rows whose signed index is n. -/
theorem scat128_apply (idx : IVec S850000x1 32) (u : FVec Ideal S850000x128 .f32) (n : Fin 50000) (c : Fin 128) :
    Host.scatterAdd scatter_S50000x128_S850000x1_S850000x128_1_0_0_1 zeros128 idx u (ix2 n c)
      = 0 + ∑ e ∈ Finset.univ.filter (fun e : Fin 850000 => (idx (ix2 e (0 : Fin 1))).toInt = (n.val : Int)), u (ix2 e c) :=
  (hostScatterAdd_apply scatter_S50000x128_S850000x1_S850000x128_1_0_0_1 zeros128 idx u (ix2 n c)).trans
    ((LibScatterRows.scatterAdd_rows_apply (N := 50000) (E := 850000) (Fd := 128)
      scatter_S50000x128_S850000x1_S850000x128_1_0_0_1_wf zeros128 idx u n c).trans (by rw [zeros128_apply]))

/-- The row gather read at (e, c): the table at the clamped signed index of e. -/
theorem gath128_apply (h : FVec Ideal S50000x128 .f32) (idx : IVec S850000x1 32) (e : Fin 850000) (c : Fin 128) :
    Host.gather gather_S50000x128_S850000x1_S850000x128_1_0_n_n_0_1_1128 h idx (ix2 e c)
      = h (ix2 (LibGatherRows.row (N := 50000) (by decide) idx e) c) :=
  LibGatherRows.gather_rows_apply (N := 50000) (E := 850000) (Fd := 128)
    gather_S50000x128_S850000x1_S850000x128_1_0_n_n_0_1_1128_wf (by decide) h idx e c

/-- The kernel program's aggregation at (n, c): the node's weight times the sum of the source rows of the edges
    that point at n, plus the bias. -/
theorem kAgg128_apply (h : FVec Ideal S50000x128 .f32) (x1 : IVec S2x800000 32) (b : FVec Ideal S128 .f32)
    (n : Fin 50000) (c : Fin 128) :
    kAgg128 h x1 b (ix2 n c)
      = disOf x1 (ix1 n) * (0 + ∑ e ∈ Finset.univ.filter (fun e : Fin 850000 => (dstTab x1 (ix2 e (0 : Fin 1))).toInt = (n.val : Int)),
          h (ix2 (LibGatherRows.row (N := 50000) (by decide) (srcTab x1) e) c)) + b (ix1 c) := by
  unfold kAgg128
  rw [addf_apply, mulf_apply, colOf128_apply, rowOf128_apply, scat128_apply]
  refine congrArg (fun t => disOf x1 (ix1 n) * (0 + t) + b (ix1 c)) ?_
  exact Finset.sum_congr rfl fun e _ => gath128_apply h (srcTab x1) e c

/-- The reference's aggregation at (n, c): the sum, over the edges that point at n, of the source row times the
    edge's norm, plus the bias. -/
theorem rAgg128_apply (h : FVec Ideal S50000x128 .f32) (x1 : IVec S2x800000 32) (b : FVec Ideal S128 .f32)
    (n : Fin 50000) (c : Fin 128) :
    rAgg128 h x1 b (ix2 n c)
      = (0 + ∑ e ∈ Finset.univ.filter (fun e : Fin 850000 => (dstTab x1 (ix2 e (0 : Fin 1))).toInt = (n.val : Int)),
          h (ix2 (LibGatherRows.row (N := 50000) (by decide) (srcTab x1) e) c)
            * (disOf x1 (ix1 (LibGatherRows.row (N := 50000) (by decide) (srcTab x1) e))
              * disOf x1 (ix1 (LibGatherEntries.pos (N := 50000) (by decide) (dstTabW x1) e)))) + b (ix1 c) := by
  unfold rAgg128
  rw [addf_apply, rowOf128_apply, scat128_apply]
  refine congrArg (fun t => (0 + t) + b (ix1 c)) ?_
  refine Finset.sum_congr rfl fun e _ => ?_
  rw [mulf_apply, gath128_apply, ecolOf128_apply, normOf_apply]

/-- The kernel program's row scaling at (r, k). -/
theorem kScale128_apply (x : FVec Ideal S50000x128 .f32) (x1 : IVec S2x800000 32) (r : Fin 50000) (k : Fin 128) :
    kScale128 x x1 (ix2 r k) = x (ix2 r k) * disOf x1 (ix1 r) := by
  unfold kScale128
  rw [mulf_apply, colOf128_apply]

/-- The reference's product at (r, c): the sum over k of x(r, k) · w(k, c). -/
theorem dot0_apply (x : FVec Ideal S50000x128 .f32) (w : FVec Ideal S128x256 .f32) (r : Fin 50000) (c : Fin 256) :
    dot0 x w (ix2 r c) = ∑ k : Fin 128, x (ix2 r k) * w (ix2 k c) :=
  (hostDot_apply Cert.ReferenceIdeal.dot_S50000x128_S128x256_S50000x256_1_0_0_1_n_n x w (ix2 r c)).trans
    (LibMatmulNN.contr_sum (M := 50000) (K := 128) (N := 256) Cert.ReferenceIdeal.dot_S50000x128_S128x256_S50000x256_1_0_0_1_n_n
      rfl rfl rfl rfl (fun _ _ => rfl) (fun _ _ => rfl) x w r c)

/-- The reference's product at (r, c): the sum over k of x(r, k) · w(k, c). -/
theorem dot1_apply (x : FVec Ideal S50000x256 .f32) (w : FVec Ideal S256x256 .f32) (r : Fin 50000) (c : Fin 256) :
    dot1 x w (ix2 r c) = ∑ k : Fin 256, x (ix2 r k) * w (ix2 k c) :=
  (hostDot_apply Cert.ReferenceIdeal.dot_S50000x256_S256x256_S50000x256_1_0_0_1_n_n x w (ix2 r c)).trans
    (LibMatmulNN.contr_sum (M := 50000) (K := 256) (N := 256) Cert.ReferenceIdeal.dot_S50000x256_S256x256_S50000x256_1_0_0_1_n_n
      rfl rfl rfl rfl (fun _ _ => rfl) (fun _ _ => rfl) x w r c)

/-- The reference's product at (r, c): the sum over k of x(r, k) · w(k, c). -/
theorem dot3_apply (x : FVec Ideal S50000x256 .f32) (w : FVec Ideal S256x128 .f32) (r : Fin 50000) (c : Fin 128) :
    dot3 x w (ix2 r c) = ∑ k : Fin 256, x (ix2 r k) * w (ix2 k c) :=
  (hostDot_apply Cert.ReferenceIdeal.dot_S50000x256_S256x128_S50000x128_1_0_0_1_n_n x w (ix2 r c)).trans
    (LibMatmulNN.contr_sum (M := 50000) (K := 256) (N := 128) Cert.ReferenceIdeal.dot_S50000x256_S256x128_S50000x128_1_0_0_1_n_n
      rfl rfl rfl rfl (fun _ _ => rfl) (fun _ _ => rfl) x w r c)

end Cert.Stage
end
-- ==== Proof.LibScatterEntries.lean ====
/-
  A scatter-add of single entries over the extended reals, read at an index (a segment sum).

  The scatter has an operand of length N, E indices (an E-by-1 table) and E update entries: update e is added to
  the operand entry named by index e.  The index is read as a signed number and is not clamped; an update whose
  index is outside [0, N) is dropped.  Read at n the result is the operand's entry plus the sum of the updates e
  whose index is n.  The sizes and the index width are parameters.
-/
import Idealize.ShloMosaic.PureOps.Ideal.Laws
import Idealize.ShloMosaic.Lib.ValueIdx

noncomputable section
namespace LibScatterEntries
open Idealize.ShloMosaic Idealize.ShloMosaic.ValueIdx

/-- The dimension numbers of a scatter of single entries into a vector: no window axis, the operand's one axis is
    inserted and is the axis the one index component names, and the index table's second axis holds that component. -/
abbrev dims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

/-- The window contributes nothing: the operand's one axis is inserted. -/
theorem window0 (j : (⟨1, ![E]⟩ : Shape).Idx) : (dims N E wf).window j 0 = 0 := by
  unfold ScatterDims.window
  rw [dif_neg]
  show (0 : Fin 1) ∉ ((List.finRange 1).filter (· ∉ ([0] : List (Fin 1))))
  decide

/-- The start is the index of the update, read signed. -/
theorem start0 (idx : IVec ⟨2, ![E, 1]⟩ w) (e : Fin E) :
    (dims N E wf).start (ix1 e) idx 0 = (idx (ix2 e (0 : Fin 1))).toInt := by
  have h0 : (0 : Fin (⟨1, ![N]⟩ : Shape).rank) ∈ (dims N E wf).scatterDimsToOperandDims := by
    show (0 : Fin 1) ∈ ([0] : List (Fin 1))
    decide
  unfold ScatterDims.start
  rw [dif_pos h0]
  congr 2
  funext b
  refine Fin.ext ?_
  match b with
  | ⟨0, _⟩ => rfl
  | ⟨1, _⟩ => rfl

/-- Update e lands on the operand entry n exactly when its index read signed is n. -/
theorem resultIdx?_eq_some_iff (idx : IVec ⟨2, ![E, 1]⟩ w) (e : Fin E) (n : Fin N) :
    (dims N E wf).resultIdx? (ix1 e) idx = some (ix1 n) ↔ (idx (ix2 e (0 : Fin 1))).toInt = (n.val : Int) := by
  have hs0 := start0 wf idx e
  have hw0 := window0 wf (ix1 e)
  unfold ScatterDims.resultIdx?
  constructor
  · intro h
    split at h
    · have h' := Option.some.inj h
      have e0 : ((dims N E wf).start (ix1 e) idx 0 + ((dims N E wf).window (ix1 e) 0 : Nat)).toNat = n.val :=
        congrArg (fun f => (f 0).val) h'
      rename_i hall
      have hb := (hall 0).1
      rw [hs0, hw0] at e0 hb
      omega
    · exact absurd h (by simp)
  · intro h0
    have hall : ∀ a, 0 ≤ (dims N E wf).start (ix1 e) idx a + ((dims N E wf).window (ix1 e) a : Nat)
        ∧ (dims N E wf).start (ix1 e) idx a + ((dims N E wf).window (ix1 e) a : Nat) < ((⟨1, ![N]⟩ : Shape).size a : Nat) := by
      intro a
      match a with
      | ⟨0, _⟩ =>
        show 0 ≤ (dims N E wf).start (ix1 e) idx 0 + ((dims N E wf).window (ix1 e) 0 : Nat) ∧ (dims N E wf).start (ix1 e) idx 0 + ((dims N E wf).window (ix1 e) 0 : Nat) < (N : Int)
        rw [hs0, hw0, h0]
        have := n.isLt
        omega
    rw [dif_pos hall]
    congr 1
    funext a
    refine Fin.ext ?_
    match a with
    | ⟨0, _⟩ =>
      show ((dims N E wf).start (ix1 e) idx 0 + ((dims N E wf).window (ix1 e) 0 : Nat)).toNat = n.val
      rw [hs0, hw0, h0]; omega

/-- A sum over a one-axis index set is the sum over its coordinate. -/
theorem sum_idx1 {M : Type*} [AddCommMonoid M] {n0 : Nat} (f : (⟨1, ![n0]⟩ : Shape).Idx → M) :
    ∑ i, f i = ∑ a : Fin n0, f (ix1 a) := by
  refine Fintype.sum_equiv ⟨fun i => i 0, fun a => ix1 a, fun i => (eq_ix1 i).symm, fun _ => rfl⟩ _ _ (fun i => ?_)
  exact congrArg f (eq_ix1 i)

/-- THE SCATTER-ADD OF ENTRIES READ AT n: the operand's entry plus the sum of the updates whose index (read signed,
    not clamped) is n.  Updates whose index is outside [0, N) add to nothing. -/
theorem scatterAdd_entries_apply (x : (⟨1, ![N]⟩ : Shape).Idx → EReal) (idx : IVec ⟨2, ![E, 1]⟩ w)
    (upd : (⟨1, ![E]⟩ : Shape).Idx → EReal) (n : Fin N) :
    Ideal.hostScatterAdd (dims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  by_cases h : (idx (ix2 e (0 : Fin 1))).toInt = (n.val : Int)
  · rw [if_pos h, if_pos ((resultIdx?_eq_some_iff wf idx e n).mpr h)]
  · rw [if_neg h, if_neg (fun hh => h ((resultIdx?_eq_some_iff wf idx e n).mp hh))]

end LibScatterEntries
end
-- ==== Proof.DisFacts.lean ====
/-
  The node weights and the edge indices, entry by entry.

  A node's weight is 1/√(max d ε) where its degree d is positive and zero elsewhere.  Over the extended reals this is
  a nonnegative real number whatever d and ε are: where d is positive so is max d ε, and the reciprocal square root of
  a positive extended real is 1/√r for a positive real r and 0 for +∞.  An edge whose target, read as a signed number,
  is a node n of the table keeps n under numpy's wrap (n is not negative) and under the gather's clamp (n is inside
  the table).
-/
import proofs.«159954_j74448963108867_2_alg».proof.Proof.Stages
import proofs.«159954_j74448963108867_2_alg».proof.Proof.LibScatterEntries
import proofs.«159954_j74448963108867_2_alg».proof.Proof.LibGatherEntries
import proofs.«159954_j74448963108867_2_alg».proof.Proof.LibGatherRows
import Idealize.ShloMosaic.Lib.ValueIdx
import Idealize.ShloMosaic.Lib.Pipeline.Value
import Idealize.ShloMosaic.PureOps.Ideal.Laws

noncomputable section
namespace Cert.Stage
open Idealize.ShloMosaic Idealize.ShloMosaic.ValueIdx
open Cert.KernelIdeal Cert.KernelIdeal.Facts₀ Cert.KernelIdeal.Facts

variable [hK : Cert.KernelIdeal.Facts] [hR : Cert.ReferenceIdeal.Facts]

/-! ## The node weights -/

/-- The reciprocal square root of a positive extended real is a nonnegative real number: of a positive real r it is
    the real 1/√r, and of +∞ it is 0. -/
theorem rsqrt_pos_bounds (y : EReal) (hy : 0 < y) : 0 ≤ Ideal.rsqrt y ∧ Ideal.rsqrt y ≠ ⊤ := by
  induction y using EReal.rec with
  | bot => exact absurd hy (by simp)
  | top => exact ⟨le_refl _, EReal.zero_ne_top⟩
  | coe r =>
    have hr : 0 < r := by exact_mod_cast hy
    have h1 : ¬ r < 0 := not_lt.mpr hr.le
    have h2 : r ≠ 0 := hr.ne'
    show 0 ≤ (if r < 0 then (⊥ : EReal) else if r = 0 then ⊤ else ((Real.sqrt r)⁻¹ : ℝ)) ∧
      (if r < 0 then (⊥ : EReal) else if r = 0 then ⊤ else ((Real.sqrt r)⁻¹ : ℝ)) ≠ ⊤
    rw [if_neg h1, if_neg h2]
    refine ⟨?_, EReal.coe_ne_top _⟩
    exact_mod_cast inv_nonneg.mpr (Real.sqrt_nonneg r)

/-- One entry of the weights as a function of the degree d there: 1/√(max d ε) where d is positive and 0 elsewhere.
    Whatever d and ε are, this is a nonnegative real number: where d is positive so is max d ε. -/
theorem weight_bounds (d ε : EReal) :
    0 ≤ Scalar.select (Ideal.cmp .ogt d 0) (Ideal.rsqrt (max d ε)) (0 : EReal) ∧
      Scalar.select (Ideal.cmp .ogt d 0) (Ideal.rsqrt (max d ε)) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc]
    show 0 ≤ Ideal.rsqrt (max d ε) ∧ Ideal.rsqrt (max d ε) ≠ ⊤
    exact rsqrt_pos_bounds _ (lt_max_of_lt_left h)
  · have hc : Ideal.cmp .ogt d 0 = 0#1 := by
      show BitVec.ofBool (decide ((0 : EReal) < d)) = 0#1
      rw [decide_eq_false h]; rfl
    rw [hc]
    show (0 : EReal) ≤ 0 ∧ (0 : EReal) ≠ ⊤
    exact ⟨le_refl _, EReal.zero_ne_top⟩

/-- The weights read at an entry, for any vector of degrees: the comparison, the maximum, the reciprocal square root
    and the choice all act entry by entry, and a repeated constant reads the constant. -/
theorem weight_apply (d : FVec Ideal S50000 .f32) (i : S50000.Idx) :
    select (cmpf .ogt d (broadcastInDim S50000 ![] bcast_S_S50000 (constant S_ .f32 0x00000000#32)))
      (Host.rsqrt (maximumf d (broadcastInDim S50000 ![] bcast_S_S50000 (constant S_ .f32 0x2B8CBCCC#32))))
      (broadcastInDim S50000 ![] bcast_S_S50000 (constant S_ .f32 0x00000000#32)) i
    = Scalar.select (Ideal.cmp .ogt (d i) (Ideal.ofBits .f32 0x00000000#32))
        (Ideal.rsqrt (max (d i) (Ideal.ofBits .f32 0x2B8CBCCC#32))) (Ideal.ofBits .f32 0x00000000#32) := rfl

/-- Every weight is a nonnegative real number. -/
theorem disOf_bounds (x1 : IVec S2x800000 32) (i : S50000.Idx) : 0 ≤ disOf x1 i ∧ disOf x1 i ≠ ⊤ := by
  unfold disOf
  rw [weight_apply, Ideal.ofBits_zero_f32]
  exact weight_bounds _ _

/-- The weight of a node is not negative. -/
theorem disOf_nonneg (x1 : IVec S2x800000 32) (n : Fin 50000) : 0 ≤ disOf x1 (ix1 n) := (disOf_bounds x1 _).1

/-- The weight of a node is finite. -/
theorem disOf_ne_top (x1 : IVec S2x800000 32) (n : Fin 50000) : disOf x1 (ix1 n) ≠ ⊤ := (disOf_bounds x1 _).2

/-! ## The edge indices -/

/-- A word that reads signed as a number that is not negative is left alone by numpy's wrap. -/
theorem wrap_word_of_nonneg (v : BitVec 32) (h : 0 ≤ v.toInt) :
    Scalar.select (IntOp.cmpi .slt v 0#32) (IntOp.addi v 50000#32) v = v := by
  have hs : v.slt 0#32 = false := by
    simp only [BitVec.slt, BitVec.toInt_zero, decide_eq_false_iff_not, not_lt]
    exact h
  unfold Scalar.select IntOp.cmpi
  simp [hs]

/-- The index table of a list of indices reads the list's entry. -/
theorem tabOf_apply (v : IVec S850000 32) (e : Fin 850000) : tabOf v (ix2 e (0 : Fin 1)) = v (ix1 e) := by
  unfold tabOf
  refine broadcastInDim_apply _ _ _ _ _ (fun a => ?_)
  match a with
  | ⟨0, _⟩ => rfl

/-- The wrap at an entry: a negative index has the table's length added. -/
theorem wrapOf_apply (v : IVec S850000 32) (i : S850000.Idx) :
    wrapOf v i = Scalar.select (IntOp.cmpi .slt (v i) 0#32) (IntOp.addi (v i) 50000#32) (v i) := rfl

/-- An edge whose target, read signed, is the node n has n as its wrapped and clamped target too. -/
theorem dstTabW_pos (x1 : IVec S2x800000 32) (e : Fin 850000) (n : Fin 50000)
    (h : (dstTab x1 (ix2 e (0 : Fin 1))).toInt = (n.val : Int)) :
    LibGatherEntries.pos (N := 50000) (by decide) (dstTabW x1) e = n := by
  have hd : dstTab x1 (ix2 e (0 : Fin 1)) = dstOf x1 (ix1 e) := tabOf_apply _ e
  have hw : dstTabW x1 (ix2 e (0 : Fin 1)) = dstOf x1 (ix1 e) := by
    refine (tabOf_apply _ e).trans ?_
    rw [wrapOf_apply]
    refine wrap_word_of_nonneg _ ?_
    rw [← hd, h]
    exact Int.natCast_nonneg _
  refine Fin.ext ?_
  show min (dstTabW x1 (ix2 e (0 : Fin 1))).toInt.toNat (50000 - 1) = n.val
  rw [hw, ← hd, h]
  have := n.isLt
  omega

/-- The source table read as row numbers of a matrix and as positions of a vector names the same node. -/
theorem srcTab_row_eq_pos (x1 : IVec S2x800000 32) (e : Fin 850000) :
    LibGatherRows.row (N := 50000) (by decide) (srcTab x1) e = LibGatherEntries.pos (N := 50000) (by decide) (srcTab x1) e := rfl

end Cert.Stage
end
-- ==== Proof.LibScaleSum.lean ====
/-
  Sums over the extended reals under a nonnegative real factor.

  On the extended reals multiplication does not distribute over addition in general (at opposite
  infinities), but it does when the factor is a nonnegative finite number: then
  `c * (y + z) = c * y + c * z` for all `y z`. By induction a nonnegative finite factor moves
  across any finite sum, and a leading zero term (a sum's initial value) is absorbed.
-/
import Mathlib.Data.EReal.Operations
import Mathlib.Algebra.BigOperators.Group.Finset.Basic

namespace EReal

open Finset

/-- A nonnegative finite factor moves across a finite sum of extended reals. -/
theorem mul_sum_of_nonneg_of_ne_top {ι : Type*} (s : Finset ι) (f : ι → EReal) {c : EReal}
    (h0 : 0 ≤ c) (ht : c ≠ ⊤) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the sum's zero initial value in front, as a reduction states it. -/
theorem mul_zero_add_sum_of_nonneg_of_ne_top {ι : Type*} (s : Finset ι) (f : ι → EReal) {c : EReal}
    (h0 : 0 ≤ c) (ht : c ≠ ⊤) : c * (0 + ∑ i ∈ s, f i) = 0 + ∑ i ∈ s, c * f i := by
  rw [zero_add, zero_add, mul_sum_of_nonneg_of_ne_top s f h0 ht]

end EReal
-- ==== Proof.GcnLaw.lean ====
/-
  One graph-convolution layer over the extended reals, index by index.

  A layer takes node features X (N nodes, K features each), a weight matrix W, a bias b, a list of E edges with a
  source node s e for every edge, and a nonnegative finite weight d n for every node.  Its output at node n and
  column c sums, over the edges e that point at n, the transformed source row (X·W)(s e, c) weighted by
  d (s e) · d n, and adds b c.

  The weight can be applied in two places.  One program multiplies every message by the edge's weight
  d (s e) · d (s' e), where s' e is the edge's target read back from the edge list.  The other scales row r of X by
  d r before the product with W, and scales the aggregated sum at n by d n afterwards.  The two agree because a
  nonnegative finite factor moves across a finite sum of extended reals (an infinite or a negative factor would not:
  the sum of +∞ and −∞ is −∞, whatever the order), and because multiplication of extended reals is commutative and
  associative.  No entry of X, W or b has to be finite.
-/
import proofs.«159954_j74448963108867_2_alg».proof.Proof.LibScaleSum
import Mathlib.Data.EReal.Inv

namespace Gcn

open Finset

/-- A row of X scaled by a nonnegative finite d before the product with a column of W is the product scaled
    afterwards. -/
theorem row_scale {κ : Type*} [Fintype κ] (x w : κ → EReal) {d : EReal} (h0 : 0 ≤ d) (ht : d ≠ ⊤) :
    ∑ k, (x k * d) * w k = d * ∑ k, x k * w k := by
  rw [EReal.mul_sum_of_nonneg_of_ne_top _ _ h0 ht]
  refine Finset.sum_congr rfl fun k _ => ?_
  rw [mul_comm (x k) d, mul_assoc]

/-- THE LAYER LAW.  Scaling the rows of X by d before the product and the aggregated sum by d n afterwards gives
    the sum of the messages each weighted by d (s e) · d (s' e), when every edge e in the set F that is summed at n
    has target s' e = n. -/
theorem layer_law {ι κ ε : Type*} [Fintype κ] (F : Finset ε) (d : ι → EReal) (hd0 : ∀ i, 0 ≤ d i) (hdt : ∀ i, d i ≠ ⊤)
    (n : ι) (s s' : ε → ι) (hs' : ∀ e ∈ F, s' e = n) (x : ι → κ → EReal) (w : κ → EReal) (b : EReal) :
    d n * (0 + ∑ e ∈ F, ∑ k, (x (s e) k * d (s e)) * w k) + b
      = (0 + ∑ e ∈ F, (∑ k, x (s e) k * w k) * (d (s e) * d (s' e))) + b := by
  congr 1
  rw [EReal.mul_zero_add_sum_of_nonneg_of_ne_top _ _ (hd0 n) (hdt n)]
  congr 1
  refine Finset.sum_congr rfl fun e he => ?_
  rw [row_scale _ _ (hd0 (s e)) (hdt (s e)), hs' e he, ← mul_assoc, mul_comm (d n) (d (s e)), mul_comm (d (s e) * d n)]

end Gcn
-- ==== Proof.Bridge.lean ====
/-
  The bridge: a layer of the kernel program and a layer of the reference are one function.

  At node n and feature c the kernel program's layer is  d n · (0 + Σ_e Σ_k (x(s e, k) · d (s e)) · w(k, c)) + b c
  and the reference's is  (0 + Σ_e (Σ_k x(s e, k) · w(k, c)) · (d (s e) · d (s' e))) + b c,  both sums over the edges e
  whose target is n, with s e the edge's source, s' e its wrapped and clamped target and d the node weights.  The
  weights are nonnegative and finite and s' e = n on the edges summed at n, so the layer law joins the two.  The
  programs chain four such layers with the same max(·, 0) in between.
-/
import proofs.«159954_j74448963108867_2_alg».proof.Proof.Stages
import proofs.«159954_j74448963108867_2_alg».proof.Proof.ReadingLayout
import proofs.«159954_j74448963108867_2_alg».proof.Proof.ReadingLayers
import proofs.«159954_j74448963108867_2_alg».proof.Proof.DisFacts
import proofs.«159954_j74448963108867_2_alg».proof.Proof.GcnLaw
import proofs.«159954_j74448963108867_2_alg».proof.Proof.GcnOps
import proofs.«159954_j74448963108867_2_alg».proof.Proof.LibGatherRows
import proofs.«159954_j74448963108867_2_alg».proof.Proof.LibGatherEntries
import Idealize.ShloMosaic.Lib.ValueIdx
import Idealize.ShloMosaic.PureOps.Ideal.Laws

noncomputable section
namespace Cert.Stage
open Idealize.ShloMosaic Idealize.ShloMosaic.ValueIdx
open Cert.KernelIdeal Cert.KernelIdeal.Facts₀ Cert.KernelIdeal.Facts

variable [hK : Cert.KernelIdeal.Facts] [hR : Cert.ReferenceIdeal.Facts]

/-- The kernel program's product of the scaled input at (r, c): every term carries the row's weight. -/
theorem mmScale256_apply {C : ℕ} (x : FVec Ideal S50000x256 .f32) (x1 : IVec S2x800000 32)
    (w : FVec Ideal ⟨2, ![256, C]⟩ .f32) (r : Fin 50000) (c : Fin C) :
    Gcn.mm (kScale256 x x1) w (ix2 r c) = ∑ k : Fin 256, (x (ix2 r k) * disOf x1 (ix1 r)) * w (ix2 k c) :=
  (Gcn.mm_apply (kScale256 x x1) w r c).trans (Finset.sum_congr rfl fun k _ => by rw [kScale256_apply])

/-- The same for an input of 128 features. -/
theorem mmScale128_apply {C : ℕ} (x : FVec Ideal S50000x128 .f32) (x1 : IVec S2x800000 32)
    (w : FVec Ideal ⟨2, ![128, C]⟩ .f32) (r : Fin 50000) (c : Fin C) :
    Gcn.mm (kScale128 x x1) w (ix2 r c) = ∑ k : Fin 128, (x (ix2 r k) * disOf x1 (ix1 r)) * w (ix2 k c) :=
  (Gcn.mm_apply (kScale128 x x1) w r c).trans (Finset.sum_congr rfl fun k _ => by rw [kScale128_apply])

/-- One layer at node n and feature c, for any input width K and output width C: the layer law at this graph's
    edges, node weights, sources and targets.  Every edge summed at n has n as its wrapped and clamped target. -/
theorem layer_core {K C : ℕ} (x1 : IVec S2x800000 32) (X : FVec Ideal ⟨2, ![50000, K]⟩ .f32)
    (W : FVec Ideal ⟨2, ![K, C]⟩ .f32) (bc : EReal) (n : Fin 50000) (c : Fin C) :
    disOf x1 (ix1 n) * (0 + ∑ e ∈ Finset.univ.filter (fun e : Fin 850000 => (dstTab x1 (ix2 e (0 : Fin 1))).toInt = (n.val : Int)),
        ∑ k : Fin K, (X (ix2 (LibGatherRows.row (N := 50000) (by decide) (srcTab x1) e) k) * disOf x1 (ix1 (LibGatherRows.row (N := 50000) (by decide) (srcTab x1) e))) * W (ix2 k c)) + bc
      = (0 + ∑ e ∈ Finset.univ.filter (fun e : Fin 850000 => (dstTab x1 (ix2 e (0 : Fin 1))).toInt = (n.val : Int)),
        (∑ k : Fin K, X (ix2 (LibGatherRows.row (N := 50000) (by decide) (srcTab x1) e) k) * W (ix2 k c))
          * (disOf x1 (ix1 (LibGatherRows.row (N := 50000) (by decide) (srcTab x1) e)) * disOf x1 (ix1 (LibGatherEntries.pos (N := 50000) (by decide) (dstTabW x1) e)))) + bc :=
  Gcn.layer_law (Finset.univ.filter (fun e : Fin 850000 => (dstTab x1 (ix2 e (0 : Fin 1))).toInt = (n.val : Int)))
    (fun i : Fin 50000 => disOf x1 (ix1 i)) (disOf_nonneg x1) (disOf_ne_top x1) n
    (fun e => LibGatherRows.row (N := 50000) (by decide) (srcTab x1) e) (fun e => LibGatherEntries.pos (N := 50000) (by decide) (dstTabW x1) e)
    (fun e he => dstTabW_pos x1 e n (Finset.mem_filter.mp he).2)
    (fun r k => X (ix2 r k)) (fun k => W (ix2 k c)) bc

/-- The first layer (128 features in, 256 out): the kernel program's aggregation of the scaled product is the
    reference's aggregation of the plain product. -/
theorem layer0 (x : FVec Ideal S50000x128 .f32) (x1 : IVec S2x800000 32) (w : FVec Ideal S128x256 .f32) (b : FVec Ideal S256 .f32) :
    kAgg256 (Gcn.mm (kScale128 x x1) w) x1 b = rAgg256 (dot0 x w) x1 b := by
  funext i
  obtain ⟨n, c, rfl⟩ : ∃ (n : Fin 50000) (c : Fin 256), i = ix2 n c := ⟨i 0, i 1, eq_ix2 i⟩
  rw [kAgg256_apply, rAgg256_apply]
  refine Eq.trans ?_ ((layer_core x1 x w (b (ix1 c)) n c).trans ?_)
  · refine congrArg (fun t => disOf x1 (ix1 n) * (0 + t) + b (ix1 c)) ?_
    exact Finset.sum_congr rfl fun e _ => mmScale128_apply x x1 w _ c
  · refine congrArg (fun t => (0 + t) + b (ix1 c)) ?_
    exact Finset.sum_congr rfl fun e _ => by rw [dot0_apply]

/-- A middle layer (256 features in, 256 out). -/
theorem layer1 (x : FVec Ideal S50000x256 .f32) (x1 : IVec S2x800000 32) (w : FVec Ideal S256x256 .f32) (b : FVec Ideal S256 .f32) :
    kAgg256 (Gcn.mm (kScale256 x x1) w) x1 b = rAgg256 (dot1 x w) x1 b := by
  funext i
  obtain ⟨n, c, rfl⟩ : ∃ (n : Fin 50000) (c : Fin 256), i = ix2 n c := ⟨i 0, i 1, eq_ix2 i⟩
  rw [kAgg256_apply, rAgg256_apply]
  refine Eq.trans ?_ ((layer_core x1 x w (b (ix1 c)) n c).trans ?_)
  · refine congrArg (fun t => disOf x1 (ix1 n) * (0 + t) + b (ix1 c)) ?_
    exact Finset.sum_congr rfl fun e _ => mmScale256_apply x x1 w _ c
  · refine congrArg (fun t => (0 + t) + b (ix1 c)) ?_
    exact Finset.sum_congr rfl fun e _ => by rw [dot1_apply]

/-- The last layer (256 features in, 128 out). -/
theorem layer3 (x : FVec Ideal S50000x256 .f32) (x1 : IVec S2x800000 32) (w : FVec Ideal S256x128 .f32) (b : FVec Ideal S128 .f32) :
    kAgg128 (Gcn.mm (kScale256 x x1) w) x1 b = rAgg128 (dot3 x w) x1 b := by
  funext i
  obtain ⟨n, c, rfl⟩ : ∃ (n : Fin 50000) (c : Fin 128), i = ix2 n c := ⟨i 0, i 1, eq_ix2 i⟩
  rw [kAgg128_apply, rAgg128_apply]
  refine Eq.trans ?_ ((layer_core x1 x w (b (ix1 c)) n c).trans ?_)
  · refine congrArg (fun t => disOf x1 (ix1 n) * (0 + t) + b (ix1 c)) ?_
    exact Finset.sum_congr rfl fun e _ => mmScale256_apply x x1 w _ c
  · refine congrArg (fun t => (0 + t) + b (ix1 c)) ?_
    exact Finset.sum_congr rfl fun e _ => by rw [dot3_apply]

/-- The two programs compute one function of their arguments: layer by layer the aggregations agree, and between
    layers both apply the same `max(·, 0)`. -/
theorem kOut_eq_rOut (x0 : FVec Ideal S50000x128 .f32) (x1 : IVec S2x800000 32) (x3 : FVec Ideal S128x256 .f32)
    (x4 : FVec Ideal S256 .f32) (x5 : FVec Ideal S256x256 .f32) (x6 : FVec Ideal S256 .f32)
    (x7 : FVec Ideal S256x256 .f32) (x8 : FVec Ideal S256 .f32) (x9 : FVec Ideal S256x128 .f32)
    (x10 : FVec Ideal S128 .f32) :
    kOut x0 x1 x3 x4 x5 x6 x7 x8 x9 x10 = rOut x0 x1 x3 x4 x5 x6 x7 x8 x9 x10 := by
  unfold kOut rOut
  rw [layer0, layer1, layer1, layer3]

end Cert.Stage
end
-- ==== Proof.lean ====
/-
  The certificate of a four-layer graph-convolution network: a program whose dense products run block by block on the
  device against a plain reference, equal over the extended reals.

  Per layer the device program scales the rows of its input by the node weights d (the reciprocal square root of the
  node's degree, zero at an isolated node), multiplies by the weight matrix, gathers the product's rows at the edges'
  sources, adds them up at the edges' targets, scales the sums by d and adds the bias.  The reference multiplies the
  unscaled input by the weight matrix, gathers the rows at the sources, scales every message by d(source) · d(target),
  adds the messages up at the targets and adds the bias.  Both apply max(·, 0) between layers.  The two agree at every
  node and column because d is a nonnegative real number, and a nonnegative finite factor moves across a finite sum
  of extended reals; commutativity and associativity do the rest.  No input has to be finite for that, so the
  precondition is not used by the value claim.

  The device program's run and its argument arrays: the program's frame run, with the result buffer's final contents
  kept and read back through the program's segments as one function of the arguments.  The reference's run: its host
  operations in order, read back piece by piece.  The idealization rewrote no operation, so what it preserves is
  trivially so.
-/
import proofs.«159954_j74448963108867_2_alg».proof.Defs
import proofs.«159954_j74448963108867_2_alg».proof.Proof.Gen.Kernel
import proofs.«159954_j74448963108867_2_alg».proof.Proof.Gen.Kernel.Skeleton
import proofs.«159954_j74448963108867_2_alg».proof.Proof.Gen.Kernel.Launch
import proofs.«159954_j74448963108867_2_alg».proof.Proof.Gen.Kernel.Points
import proofs.«159954_j74448963108867_2_alg».proof.Proof.Gen.Kernel.Frame
import proofs.«159954_j74448963108867_2_alg».proof.Proof.Gen.KernelIdeal
import proofs.«159954_j74448963108867_2_alg».proof.Proof.Gen.KernelIdeal.Skeleton
import proofs.«159954_j74448963108867_2_alg».proof.Proof.Gen.KernelIdeal.Launch
import proofs.«159954_j74448963108867_2_alg».proof.Proof.Gen.KernelIdeal.Points
import proofs.«159954_j74448963108867_2_alg».proof.Proof.Gen.KernelIdeal.Frame
import proofs.«159954_j74448963108867_2_alg».proof.Proof.Gen.ReferenceIdeal
import proofs.«159954_j74448963108867_2_alg».proof.Proof.Gen.Pre_finite_inputs
import proofs.«159954_j74448963108867_2_alg».proof.Proof.KRun
import proofs.«159954_j74448963108867_2_alg».proof.Proof.KChain
import proofs.«159954_j74448963108867_2_alg».proof.Proof.RefRun
import proofs.«159954_j74448963108867_2_alg».proof.Proof.Bridge
import Idealize.ShloMosaic.Adequacy
import Idealize.ShloMosaic.Init

noncomputable section

namespace Cert.Proof

open Idealize.ShloMosaic Idealize.SL.Sem

/-- The device program at the word level runs and leaves its arguments as they were. -/
theorem frame_k : Cert.frame_Kernel := fun m ρ _ => Cert.Kernel.Gen.frame m ρ

/-- The idealized device program runs and leaves its arguments as they were. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Hand.run m ρ)

/-- Both idealized programs, from memories that agree on the arguments, end with the same result array: the device
    program's is its function of the arguments, the reference's is the reference's function of the same arguments,
    and the two functions are one. -/
theorem algebraic : Cert.algebraic_KernelIdeal_ReferenceIdeal := by
  intro m ρ m' ρ' _ hagree
  refine ⟨fun c => Cert.Stage.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Hand.W17_v99 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run m' ρ')
    obtain ⟨e0, e1, _, e3, e4, e5, e6, e7, e8, e9, e10⟩ := hagree c
    rw [e0, e1, e3, e4, e5, e6, e7, e8, e9, e10]
    exact (Cert.Stage.kOut_eq_rOut _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
